-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x1024x8x8 : Shape := ⟨5, ![4, 512, 1024, 8, 8]⟩
abbrev S128x512 : Shape := ⟨2, ![128, 512]⟩
abbrev S128x101 : Shape := ⟨2, ![128, 101]⟩
abbrev S128 : Shape := ⟨1, ![128]⟩
abbrev S_ : Shape := ⟨0, ![]⟩

class Facts : Prop where
  bcast_S_S4x512x1024x8x8 : S_.BroadcastsInDim S4x512x1024x8x8 (![] : Fin 0 → Fin S4x512x1024x8x8.rank)
  reducesTo_S4x512x1024x8x8_S_d0_1_2_3_4 : S4x512x1024x8x8.ReducesTo [0, 1, 2, 3, 4] S_
  h_S_ : 0 < S_.numel
  bcast_S_S128x512 : S_.BroadcastsInDim S128x512 (![] : Fin 0 → Fin S128x512.rank)
  reducesTo_S128x512_S_d0_1 : S128x512.ReducesTo [0, 1] S_
  bcast_S_S128x101 : S_.BroadcastsInDim S128x101 (![] : Fin 0 → Fin S128x101.rank)
  reducesTo_S128x101_S_d0_1 : S128x101.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x512x1024x8x8 .f32) (main_arg1 : FVec F S128x512 .f32) (main_arg2 : FVec F S128x101 .f32) (main_arg3 : FVec F S128 .f32) : IVec S_ 1 :=
  let main_v0 : FVec F S4x512x1024x8x8 .f32 := Host.absf main_arg0
  let main_cst : FVec F S_ .f32 := constant S_ .f32 0x7F800000#32
  let main_v1 : FVec F S4x512x1024x8x8 .f32 := broadcastInDim S4x512x1024x8x8 ![] bcast_S_S4x512x1024x8x8 main_cst
  let main_v2 : IVec S4x512x1024x8x8 1 := cmpf .olt main_v0 main_v1
  let main_c : IVec S_ 1 := constantI S_ 1 1#1
  let main_v3 : IVec S_ 1 := (fun x v => Host.reduce IntOp.andi x v reducesTo_S4x512x1024x8x8_S_d0_1_2_3_4 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x101 .f32 := Host.absf main_arg2
  let main_cst_2 : FVec F S_ .f32 := constant S_ .f32 0x7F800000#32
  let main_v10 : FVec F S128x101 .f32 := broadcastInDim S128x101 ![] bcast_S_S128x101 main_cst_2
  let main_v11 : IVec S128x101 1 := cmpf .olt main_v9 main_v10
  let main_c_3 : IVec S_ 1 := constantI S_ 1 1#1
  let main_v12 : IVec S_ 1 := (fun x v => Host.reduce IntOp.andi x v reducesTo_S128x101_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x512x1024x8x8 : Shape := ⟨5, ![4, 512, 1024, 8, 8]⟩
abbrev S128x512 : Shape := ⟨2, ![128, 512]⟩
abbrev S128x101 : Shape := ⟨2, ![128, 101]⟩
abbrev S128 : Shape := ⟨1, ![128]⟩
abbrev S4x512x1024x64 : Shape := ⟨4, ![4, 512, 1024, 64]⟩
abbrev S4x512x1024 : Shape := ⟨3, ![4, 512, 1024]⟩
abbrev S1x128x128x64 : Shape := ⟨4, ![1, 128, 128, 64]⟩
abbrev S1x128x128 : Shape := ⟨3, ![1, 128, 128]⟩
abbrev S4x1024x512 : Shape := ⟨3, ![4, 1024, 512]⟩
abbrev S101x128 : Shape := ⟨2, ![101, 128]⟩
abbrev S1x128 : Shape := ⟨2, ![1, 128]⟩
abbrev S4x1024x128 : Shape := ⟨3, ![4, 1024, 128]⟩
abbrev S1x1024x512 : Shape := ⟨3, ![1, 1024, 512]⟩
abbrev S1x1024x128 : Shape := ⟨3, ![1, 1024, 128]⟩
abbrev S1152x128 : Shape := ⟨2, ![1152, 128]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x512x1024x8x8, .f32⟩
  | .hbm, ⟨1, _⟩ => ⟨S128x512, .f32⟩
  | .hbm, ⟨2, _⟩ => ⟨S128x101, .f32⟩
  | .hbm, ⟨3, _⟩ => ⟨S128, .f32⟩
  | .hbm, ⟨4, _⟩ => ⟨S4x512x1024x64, .f32⟩
  | .hbm, ⟨5, _⟩ => ⟨S4x512x1024, .f32⟩
  | .hbm, ⟨6, _⟩ => ⟨S4x1024x512, .f32⟩
  | .hbm, ⟨7, _⟩ => ⟨S101x128, .f32⟩
  | .hbm, ⟨8, _⟩ => ⟨S1x128, .f32⟩
  | .hbm, ⟨9, _⟩ => ⟨S4x1024x128, .f32⟩
  | .local _ .vmem, ⟨0, _⟩ => ⟨S1x128x128x64, .f32⟩
  | .local _ .vmem, ⟨1, _⟩ => ⟨S1x128x128x64, .f32⟩
  | .local _ .vmem, ⟨2, _⟩ => ⟨S1x128x128, .f32⟩
  | .local _ .vmem, ⟨3, _⟩ => ⟨S1x128x128, .f32⟩
  | .local _ .vmem, ⟨4, _⟩ => ⟨S1x1024x512, .f32⟩
  | .local _ .vmem, ⟨5, _⟩ => ⟨S1x1024x512, .f32⟩
  | .local _ .vmem, ⟨6, _⟩ => ⟨S128x512, .f32⟩
  | .local _ .vmem, ⟨7, _⟩ => ⟨S101x128, .f32⟩
  | .local _ .vmem, ⟨8, _⟩ => ⟨S1x128, .f32⟩
  | .local _ .vmem, ⟨9, _⟩ => ⟨S1x1024x128, .f32⟩
  | .local _ .vmem, ⟨10, _⟩ => ⟨S1x1024x128, .f32⟩
  | .local _ .vmem, ⟨11, _⟩ => ⟨S1152x128, .f32⟩
  | _, _ => ⟨S4x512x1024x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S101x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S4x512x1024x8x8_S4x512x1024x64 : S4x512x1024x8x8.ShapeCasts S4x512x1024x64
  inb_S1x128x128x64_S1x128x128x64_0_0_0_0 : ∀ a, (![0, 0, 0, 0] : Fin 4 → Nat) a + S1x128x128x64.size a ≤ S1x128x128x64.size a
  h_S1x128x128x64 : 0 < S1x128x128x64.numel
  shapeCasts_S1x128x128x64_S1x128x128x64 : S1x128x128x64.ShapeCasts S1x128x128x64
  reduces_S1x128x128x64_S1x128x128 : S1x128x128x64.Reduces [3] S1x128x128
  inb_S1x128x128_S1x128x128_0_0_0 : ∀ a, (![0, 0, 0] : Fin 3 → Nat) a + S1x128x128.size a ≤ S1x128x128.size a
  h_S1x128x128 : 0 < S1x128x128.numel
  transposes_S4x512x1024_S4x1024x512_0_2_1 : S4x512x1024.Transposes [0, 2, 1] S4x1024x512
  transposes_S128x101_S101x128_1_0 : S128x101.Transposes [1, 0] S101x128
  shapeCasts_S128_S1x128 : S128.ShapeCasts S1x128
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  reduces_S1024x128_S1024 : S1024x128.Reduces [1] S1024
  shapeCasts_S1024_S1024x1 : S1024.ShapeCasts S1024x1
  broadcasts_S1024x1_S1024x128 : S1024x1.Broadcasts S1024x128
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S1152x128_S1024x128_50_0 : ∀ a, (![50, 0] : Fin 2 → Nat) a + S1024x128.size a ≤ S1152x128.size a
  h_S1024x128 : 0 < S1024x128.numel
  shapeCasts_S1024x128_S1024x128 : S1024x128.ShapeCasts S1024x128
  inb_S101x128_S101x128_0_0 : ∀ a, (![0, 0] : Fin 2 → Nat) a + S101x128.size a ≤ S101x128.size a
  h_S101x128 : 0 < S101x128.numel
  shapeCasts_S101x128_S101x128 : S101x128.ShapeCasts S101x128
  inb_S1152x128_S1024x128_0_0 : ∀ a, (![0, 0] : Fin 2 → Nat) a + S1024x128.size a ≤ S1152x128.size a
  slices_S101x128_o0_0_S1x128 : S101x128.Slices ![0, 0] S1x128
  broadcasts_S1x128_S1024x128 : S1x128.Broadcasts S1024x128
  inb_S1152x128_S1024x128_1_0 : ∀ a, (![1, 0] : Fin 2 → Nat) a + S1024x128.size a ≤ S1152x128.size a
  slices_S101x128_o1_0_S1x128 : S101x128.Slices ![1, 0] S1x128
  inb_S1152x128_S1024x128_2_0 : ∀ a, (![2, 0] : Fin 2 → Nat) a + S1024x128.size a ≤ S1152x128.size a
  slices_S101x128_o2_0_S1x128 : S101x128.Slices ![2, 0] S1x128
  inb_S1152x128_S1024x128_3_0 : ∀ a, (![3, 0] : Fin 2 → Nat) a + S1024x128.size a ≤ S1152x128.size a
  slices_S101x128_o3_0_S1x128 : S101x128.Slices ![3, 0] S1x128
  inb_S1152x128_S1024x128_4_0 : ∀ a, (![4, 0] : Fin 2 → Nat) a + S1024x128.size a ≤ S1152x128.size a
  slices_S101x128_o4_0_S1x128 : S101x128.Slices ![4, 0] S1x128
  inb_S1152x128_S1024x128_5_0 : ∀ a, (![5, 0] : Fin 2 → Nat) a + S1024x128.size a ≤ S1152x128.size a
  slices_S101x128_o5_0_S1x128 : S101x128.Slices ![5, 0] S1x128
  inb_S1152x128_S1024x128_6_0 : ∀ a, (![6, 0] : Fin 2 → Nat) a + S1024x128.size a ≤ S1152x128.size a
  slices_S101x128_o6_0_S1x128 : S101x128.Slices ![6, 0] S1x128
  inb_S1152x128_S1024x128_7_0 : ∀ a, (![7, 0] : Fin 2 → Nat) a + S1024x128.size a ≤ S1152x128.size a
  slices_S101x128_o7_0_S1x128 : S101x128.Slices ![7, 0] S1x128
  inb_S1152x128_S1024x128_8_0 : ∀ a, (![8, 0] : Fin 2 → Nat) a + S1024x128.size a ≤ S1152x128.size a
  slices_S101x128_o8_0_S1x128 : S101x128.Slices ![8, 0] S1x128
  inb_S1152x128_S1024x128_9_0 : ∀ a, (![9, 0] : Fin 2 → Nat) a + S1024x128.size a ≤ S1152x128.size a
  slices_S101x128_o9_0_S1x128 : S101x128.Slices ![9, 0] S1x128
  inb_S1152x128_S1024x128_10_0 : ∀ a, (![10, 0] : Fin 2 → Nat) a + S1024x128.size a ≤ S1152x128.size a
  slices_S101x128_o10_0_S1x128 : S101x128.Slices ![10, 0] S1x128
  inb_S1152x128_S1024x128_11_0 : ∀ a, (![11, 0] : Fin 2 → Nat) a + S1024x128.size a ≤ S1152x128.size a
  slices_S101x128_o11_0_S1x128 : S101x128.Slices ![11, 0] S1x128
  inb_S1152x128_S1024x128_12_0 : ∀ a, (![12, 0] : Fin 2 → Nat) a + S1024x128.size a ≤ S1152x128.size a
  slices_S101x128_o12_0_S1x128 : S101x128.Slices ![12, 0] S1x128
  inb_S1152x128_S1024x128_13_0 : ∀ a, (![13, 0] : Fin 2 → Nat) a + S1024x128.size a ≤ S1152x128.size a
  slices_S101x128_o13_0_S1x128 : S101x128.Slices ![13, 0] S1x128
  inb_S1152x128_S1024x128_14_0 : ∀ a, (![14, 0] : Fin 2 → Nat) a + S1024x128.size a ≤ S1152x128.size a
  slices_S101x128_o14_0_S1x128 : S101x128.Slices ![14, 0] S1x128
  inb_S1152x128_S1024x128_15_0 : ∀ a, (![15, 0] : Fin 2 → Nat) a + S1024x128.size a ≤ S1152x128.size a
  slices_S101x128_o15_0_S1x128 : S101x128.Slices ![15, 0] S1x128
  inb_S1152x128_S1024x128_16_0 : ∀ a, (![16, 0] : Fin 2 → Nat) a + S1024x128.size a ≤ S1152x128.size a
  slices_S101x128_o16_0_S1x128 : S101x128.Slices ![16, 0] S1x128
  inb_S1152x128_S1024x128_17_0 : ∀ a, (![17, 0] : Fin 2 → Nat) a + S1024x128.size a ≤ S1152x128.size a
  slices_S101x128_o17_0_S1x128 : S101x128.Slices ![17, 0] S1x128
  inb_S1152x128_S1024x128_18_0 : ∀ a, (![18, 0] : Fin 2 → Nat) a + S1024x128.size a ≤ S1152x128.size a
  slices_S101x128_o18_0_S1x128 : S101x128.Slices ![18, 0] S1x128
  inb_S1152x128_S1024x128_19_0 : ∀ a, (![19, 0] : Fin 2 → Nat) a + S1024x128.size a ≤ S1152x128.size a
  slices_S101x128_o19_0_S1x128 : S101x128.Slices ![19, 0] S1x128
  inb_S1152x128_S1024x128_20_0 : ∀ a, (![20, 0] : Fin 2 → Nat) a + S1024x128.size a ≤ S1152x128.size a
  slices_S101x128_o20_0_S1x128 : S101x128.Slices ![20, 0] S1x128
  inb_S1152x128_S1024x128_21_0 : ∀ a, (![21, 0] : Fin 2 → Nat) a + S1024x128.size a ≤ S1152x128.size a
  slices_S101x128_o21_0_S1x128 : S101x128.Slices ![21, 0] S1x128
  inb_S1152x128_S1024x128_22_0 : ∀ a, (![22, 0] : Fin 2 → Nat) a + S1024x128.size a ≤ S1152x128.size a
  slices_S101x128_o22_0_S1x128 : S101x128.Slices ![22, 0] S1x128
  inb_S1152x128_S1024x128_23_0 : ∀ a, (![23, 0] : Fin 2 → Nat) a + S1024x128.size a ≤ S1152x128.size a
  slices_S101x128_o23_0_S1x128 : S101x128.Slices ![23, 0] S1x128
  inb_S1152x128_S1024x128_24_0 : ∀ a, (![24, 0] : Fin 2 → Nat) a + S1024x128.size a ≤ S1152x128.size a
  slices_S101x128_o24_0_S1x128 : S101x128.Slices ![24, 0] S1x128
  inb_S1152x128_S1024x128_25_0 : ∀ a, (![25, 0] : Fin 2 → Nat) a + S1024x128.size a ≤ S1152x128.size a
  slices_S101x128_o25_0_S1x128 : S101x128.Slices ![25, 0] S1x128
  inb_S1152x128_S1024x128_26_0 : ∀ a, (![26, 0] : Fin 2 → Nat) a + S1024x128.size a ≤ S1152x128.size a
  slices_S101x128_o26_0_S1x128 : S101x128.Slices ![26, 0] S1x128
  inb_S1152x128_S1024x128_27_0 : ∀ a, (![27, 0] : Fin 2 → Nat) a + S1024x128.size a ≤ S1152x128.size a
  slices_S101x128_o27_0_S1x128 : S101x128.Slices ![27, 0] S1x128
  inb_S1152x128_S1024x128_28_0 : ∀ a, (![28, 0] : Fin 2 → Nat) a + S1024x128.size a ≤ S1152x128.size a
  slices_S101x128_o28_0_S1x128 : S101x128.Slices ![28, 0] S1x128
  inb_S1152x128_S1024x128_29_0 : ∀ a, (![29, 0] : Fin 2 → Nat) a + S1024x128.size a ≤ S1152x128.size a
  slices_S101x128_o29_0_S1x128 : S101x128.Slices ![29, 0] S1x128
  inb_S1152x128_S1024x128_30_0 : ∀ a, (![30, 0] : Fin 2 → Nat) a + S1024x128.size a ≤ S1152x128.size a
  slices_S101x128_o30_0_S1x128 : S101x128.Slices ![30, 0] S1x128
  inb_S1152x128_S1024x128_31_0 : ∀ a, (![31, 0] : Fin 2 → Nat) a + S1024x128.size a ≤ S1152x128.size a
  slices_S101x128_o31_0_S1x128 : S101x128.Slices ![31, 0] S1x128
  inb_S1152x128_S1024x128_32_0 : ∀ a, (![32, 0] : Fin 2 → Nat) a + S1024x128.size a ≤ S1152x128.size a
  slices_S101x128_o32_0_S1x128 : S101x128.Slices ![32, 0] S1x128
  inb_S1152x128_S1024x128_33_0 : ∀ a, (![33, 0] : Fin 2 → Nat) a + S1024x128.size a ≤ S1152x128.size a
  slices_S101x128_o33_0_S1x128 : S101x128.Slices ![33, 0] S1x128
  inb_S1152x128_S1024x128_34_0 : ∀ a, (![34, 0] : Fin 2 → Nat) a + S1024x128.size a ≤ S1152x128.size a
  slices_S101x128_o34_0_S1x128 : S101x128.Slices ![34, 0] S1x128
  inb_S1152x128_S1024x128_35_0 : ∀ a, (![35, 0] : Fin 2 → Nat) a + S1024x128.size a ≤ S1152x128.size a
  slices_S101x128_o35_0_S1x128 : S101x128.Slices ![35, 0] S1x128
  inb_S1152x128_S1024x128_36_0 : ∀ a, (![36, 0] : Fin 2 → Nat) a + S1024x128.size a ≤ S1152x128.size a
  slices_S101x128_o36_0_S1x128 : S101x128.Slices ![36, 0] S1x128
  inb_S1152x128_S1024x128_37_0 : ∀ a, (![37, 0] : Fin 2 → Nat) a + S1024x128.size a ≤ S1152x128.size a
  slices_S101x128_o37_0_S1x128 : S101x128.Slices ![37, 0] S1x128
  inb_S1152x128_S1024x128_38_0 : ∀ a, (![38, 0] : Fin 2 → Nat) a + S1024x128.size a ≤ S1152x128.size a
  slices_S101x128_o38_0_S1x128 : S101x128.Slices ![38, 0] S1x128
  inb_S1152x128_S1024x128_39_0 : ∀ a, (![39, 0] : Fin 2 → Nat) a + S1024x128.size a ≤ S1152x128.size a
  slices_S101x128_o39_0_S1x128 : S101x128.Slices ![39, 0] S1x128
  inb_S1152x128_S1024x128_40_0 : ∀ a, (![40, 0] : Fin 2 → Nat) a + S1024x128.size a ≤ S1152x128.size a
  slices_S101x128_o40_0_S1x128 : S101x128.Slices ![40, 0] S1x128
  inb_S1152x128_S1024x128_41_0 : ∀ a, (![41, 0] : Fin 2 → Nat) a + S1024x128.size a ≤ S1152x128.size a
  slices_S101x128_o41_0_S1x128 : S101x128.Slices ![41, 0] S1x128
  inb_S1152x128_S1024x128_42_0 : ∀ a, (![42, 0] : Fin 2 → Nat) a + S1024x128.size a ≤ S1152x128.size a
  slices_S101x128_o42_0_S1x128 : S101x128.Slices ![42, 0] S1x128
  inb_S1152x128_S1024x128_43_0 : ∀ a, (![43, 0] : Fin 2 → Nat) a + S1024x128.size a ≤ S1152x128.size a
  slices_S101x128_o43_0_S1x128 : S101x128.Slices ![43, 0] S1x128
  inb_S1152x128_S1024x128_44_0 : ∀ a, (![44, 0] : Fin 2 → Nat) a + S1024x128.size a ≤ S1152x128.size a
  slices_S101x128_o44_0_S1x128 : S101x128.Slices ![44, 0] S1x128
  inb_S1152x128_S1024x128_45_0 : ∀ a, (![45, 0] : Fin 2 → Nat) a + S1024x128.size a ≤ S1152x128.size a
  slices_S101x128_o45_0_S1x128 : S101x128.Slices ![45, 0] S1x128
  inb_S1152x128_S1024x128_46_0 : ∀ a, (![46, 0] : Fin 2 → Nat) a + S1024x128.size a ≤ S1152x128.size a
  slices_S101x128_o46_0_S1x128 : S101x128.Slices ![46, 0] S1x128
  inb_S1152x128_S1024x128_47_0 : ∀ a, (![47, 0] : Fin 2 → Nat) a + S1024x128.size a ≤ S1152x128.size a
  slices_S101x128_o47_0_S1x128 : S101x128.Slices ![47, 0] S1x128
  inb_S1152x128_S1024x128_48_0 : ∀ a, (![48, 0] : Fin 2 → Nat) a + S1024x128.size a ≤ S1152x128.size a
  slices_S101x128_o48_0_S1x128 : S101x128.Slices ![48, 0] S1x128
  inb_S1152x128_S1024x128_49_0 : ∀ a, (![49, 0] : Fin 2 → Nat) a + S1024x128.size a ≤ S1152x128.size a
  slices_S101x128_o49_0_S1x128 : S101x128.Slices ![49, 0] S1x128
  slices_S101x128_o50_0_S1x128 : S101x128.Slices ![50, 0] S1x128
  inb_S1152x128_S1024x128_51_0 : ∀ a, (![51, 0] : Fin 2 → Nat) a + S1024x128.size a ≤ S1152x128.size a
  slices_S101x128_o51_0_S1x128 : S101x128.Slices ![51, 0] S1x128
  inb_S1152x128_S1024x128_52_0 : ∀ a, (![52, 0] : Fin 2 → Nat) a + S1024x128.size a ≤ S1152x128.size a
  slices_S101x128_o52_0_S1x128 : S101x128.Slices ![52, 0] S1x128
  inb_S1152x128_S1024x128_53_0 : ∀ a, (![53, 0] : Fin 2 → Nat) a + S1024x128.size a ≤ S1152x128.size a
  slices_S101x128_o53_0_S1x128 : S101x128.Slices ![53, 0] S1x128
  inb_S1152x128_S1024x128_54_0 : ∀ a, (![54, 0] : Fin 2 → Nat) a + S1024x128.size a ≤ S1152x128.size a
  slices_S101x128_o54_0_S1x128 : S101x128.Slices ![54, 0] S1x128
  inb_S1152x128_S1024x128_55_0 : ∀ a, (![55, 0] : Fin 2 → Nat) a + S1024x128.size a ≤ S1152x128.size a
  slices_S101x128_o55_0_S1x128 : S101x128.Slices ![55, 0] S1x128
  inb_S1152x128_S1024x128_56_0 : ∀ a, (![56, 0] : Fin 2 → Nat) a + S1024x128.size a ≤ S1152x128.size a
  slices_S101x128_o56_0_S1x128 : S101x128.Slices ![56, 0] S1x128
  inb_S1152x128_S1024x128_57_0 : ∀ a, (![57, 0] : Fin 2 → Nat) a + S1024x128.size a ≤ S1152x128.size a
  slices_S101x128_o57_0_S1x128 : S101x128.Slices ![57, 0] S1x128
  inb_S1152x128_S1024x128_58_0 : ∀ a, (![58, 0] : Fin 2 → Nat) a + S1024x128.size a ≤ S1152x128.size a
  slices_S101x128_o58_0_S1x128 : S101x128.Slices ![58, 0] S1x128
  inb_S1152x128_S1024x128_59_0 : ∀ a, (![59, 0] : Fin 2 → Nat) a + S1024x128.size a ≤ S1152x128.size a
  slices_S101x128_o59_0_S1x128 : S101x128.Slices ![59, 0] S1x128
  inb_S1152x128_S1024x128_60_0 : ∀ a, (![60, 0] : Fin 2 → Nat) a + S1024x128.size a ≤ S1152x128.size a
  slices_S101x128_o60_0_S1x128 : S101x128.Slices ![60, 0] S1x128
  inb_S1152x128_S1024x128_61_0 : ∀ a, (![61, 0] : Fin 2 → Nat) a + S1024x128.size a ≤ S1152x128.size a
  slices_S101x128_o61_0_S1x128 : S101x128.Slices ![61, 0] S1x128
  inb_S1152x128_S1024x128_62_0 : ∀ a, (![62, 0] : Fin 2 → Nat) a + S1024x128.size a ≤ S1152x128.size a
  slices_S101x128_o62_0_S1x128 : S101x128.Slices ![62, 0] S1x128
  inb_S1152x128_S1024x128_63_0 : ∀ a, (![63, 0] : Fin 2 → Nat) a + S1024x128.size a ≤ S1152x128.size a
  slices_S101x128_o63_0_S1x128 : S101x128.Slices ![63, 0] S1x128
  inb_S1152x128_S1024x128_64_0 : ∀ a, (![64, 0] : Fin 2 → Nat) a + S1024x128.size a ≤ S1152x128.size a
  slices_S101x128_o64_0_S1x128 : S101x128.Slices ![64, 0] S1x128
  inb_S1152x128_S1024x128_65_0 : ∀ a, (![65, 0] : Fin 2 → Nat) a + S1024x128.size a ≤ S1152x128.size a
  slices_S101x128_o65_0_S1x128 : S101x128.Slices ![65, 0] S1x128
  inb_S1152x128_S1024x128_66_0 : ∀ a, (![66, 0] : Fin 2 → Nat) a + S1024x128.size a ≤ S1152x128.size a
  slices_S101x128_o66_0_S1x128 : S101x128.Slices ![66, 0] S1x128
  inb_S1152x128_S1024x128_67_0 : ∀ a, (![67, 0] : Fin 2 → Nat) a + S1024x128.size a ≤ S1152x128.size a
  slices_S101x128_o67_0_S1x128 : S101x128.Slices ![67, 0] S1x128
  inb_S1152x128_S1024x128_68_0 : ∀ a, (![68, 0] : Fin 2 → Nat) a + S1024x128.size a ≤ S1152x128.size a
  slices_S101x128_o68_0_S1x128 : S101x128.Slices ![68, 0] S1x128
  inb_S1152x128_S1024x128_69_0 : ∀ a, (![69, 0] : Fin 2 → Nat) a + S1024x128.size a ≤ S1152x128.size a
  slices_S101x128_o69_0_S1x128 : S101x128.Slices ![69, 0] S1x128
  inb_S1152x128_S1024x128_70_0 : ∀ a, (![70, 0] : Fin 2 → Nat) a + S1024x128.size a ≤ S1152x128.size a
  slices_S101x128_o70_0_S1x128 : S101x128.Slices ![70, 0] S1x128
  inb_S1152x128_S1024x128_71_0 : ∀ a, (![71, 0] : Fin 2 → Nat) a + S1024x128.size a ≤ S1152x128.size a
  slices_S101x128_o71_0_S1x128 : S101x128.Slices ![71, 0] S1x128
  inb_S1152x128_S1024x128_72_0 : ∀ a, (![72, 0] : Fin 2 → Nat) a + S1024x128.size a ≤ S1152x128.size a
  slices_S101x128_o72_0_S1x128 : S101x128.Slices ![72, 0] S1x128
  inb_S1152x128_S1024x128_73_0 : ∀ a, (![73, 0] : Fin 2 → Nat) a + S1024x128.size a ≤ S1152x128.size a
  slices_S101x128_o73_0_S1x128 : S101x128.Slices ![73, 0] S1x128
  inb_S1152x128_S1024x128_74_0 : ∀ a, (![74, 0] : Fin 2 → Nat) a + S1024x128.size a ≤ S1152x128.size a
  slices_S101x128_o74_0_S1x128 : S101x128.Slices ![74, 0] S1x128
  inb_S1152x128_S1024x128_75_0 : ∀ a, (![75, 0] : Fin 2 → Nat) a + S1024x128.size a ≤ S1152x128.size a
  slices_S101x128_o75_0_S1x128 : S101x128.Slices ![75, 0] S1x128
  inb_S1152x128_S1024x128_76_0 : ∀ a, (![76, 0] : Fin 2 → Nat) a + S1024x128.size a ≤ S1152x128.size a
  slices_S101x128_o76_0_S1x128 : S101x128.Slices ![76, 0] S1x128
  inb_S1152x128_S1024x128_77_0 : ∀ a, (![77, 0] : Fin 2 → Nat) a + S1024x128.size a ≤ S1152x128.size a
  slices_S101x128_o77_0_S1x128 : S101x128.Slices ![77, 0] S1x128
  inb_S1152x128_S1024x128_78_0 : ∀ a, (![78, 0] : Fin 2 → Nat) a + S1024x128.size a ≤ S1152x128.size a
  slices_S101x128_o78_0_S1x128 : S101x128.Slices ![78, 0] S1x128
  inb_S1152x128_S1024x128_79_0 : ∀ a, (![79, 0] : Fin 2 → Nat) a + S1024x128.size a ≤ S1152x128.size a
  slices_S101x128_o79_0_S1x128 : S101x128.Slices ![79, 0] S1x128
  inb_S1152x128_S1024x128_80_0 : ∀ a, (![80, 0] : Fin 2 → Nat) a + S1024x128.size a ≤ S1152x128.size a
  slices_S101x128_o80_0_S1x128 : S101x128.Slices ![80, 0] S1x128
  inb_S1152x128_S1024x128_81_0 : ∀ a, (![81, 0] : Fin 2 → Nat) a + S1024x128.size a ≤ S1152x128.size a
  slices_S101x128_o81_0_S1x128 : S101x128.Slices ![81, 0] S1x128
  inb_S1152x128_S1024x128_82_0 : ∀ a, (![82, 0] : Fin 2 → Nat) a + S1024x128.size a ≤ S1152x128.size a
  slices_S101x128_o82_0_S1x128 : S101x128.Slices ![82, 0] S1x128
  inb_S1152x128_S1024x128_83_0 : ∀ a, (![83, 0] : Fin 2 → Nat) a + S1024x128.size a ≤ S1152x128.size a
  slices_S101x128_o83_0_S1x128 : S101x128.Slices ![83, 0] S1x128
  inb_S1152x128_S1024x128_84_0 : ∀ a, (![84, 0] : Fin 2 → Nat) a + S1024x128.size a ≤ S1152x128.size a
  slices_S101x128_o84_0_S1x128 : S101x128.Slices ![84, 0] S1x128
  inb_S1152x128_S1024x128_85_0 : ∀ a, (![85, 0] : Fin 2 → Nat) a + S1024x128.size a ≤ S1152x128.size a
  slices_S101x128_o85_0_S1x128 : S101x128.Slices ![85, 0] S1x128
  inb_S1152x128_S1024x128_86_0 : ∀ a, (![86, 0] : Fin 2 → Nat) a + S1024x128.size a ≤ S1152x128.size a
  slices_S101x128_o86_0_S1x128 : S101x128.Slices ![86, 0] S1x128
  inb_S1152x128_S1024x128_87_0 : ∀ a, (![87, 0] : Fin 2 → Nat) a + S1024x128.size a ≤ S1152x128.size a
  slices_S101x128_o87_0_S1x128 : S101x128.Slices ![87, 0] S1x128
  inb_S1152x128_S1024x128_88_0 : ∀ a, (![88, 0] : Fin 2 → Nat) a + S1024x128.size a ≤ S1152x128.size a
  slices_S101x128_o88_0_S1x128 : S101x128.Slices ![88, 0] S1x128
  inb_S1152x128_S1024x128_89_0 : ∀ a, (![89, 0] : Fin 2 → Nat) a + S1024x128.size a ≤ S1152x128.size a
  slices_S101x128_o89_0_S1x128 : S101x128.Slices ![89, 0] S1x128
  inb_S1152x128_S1024x128_90_0 : ∀ a, (![90, 0] : Fin 2 → Nat) a + S1024x128.size a ≤ S1152x128.size a
  slices_S101x128_o90_0_S1x128 : S101x128.Slices ![90, 0] S1x128
  inb_S1152x128_S1024x128_91_0 : ∀ a, (![91, 0] : Fin 2 → Nat) a + S1024x128.size a ≤ S1152x128.size a
  slices_S101x128_o91_0_S1x128 : S101x128.Slices ![91, 0] S1x128
  inb_S1152x128_S1024x128_92_0 : ∀ a, (![92, 0] : Fin 2 → Nat) a + S1024x128.size a ≤ S1152x128.size a
  slices_S101x128_o92_0_S1x128 : S101x128.Slices ![92, 0] S1x128
  inb_S1152x128_S1024x128_93_0 : ∀ a, (![93, 0] : Fin 2 → Nat) a + S1024x128.size a ≤ S1152x128.size a
  slices_S101x128_o93_0_S1x128 : S101x128.Slices ![93, 0] S1x128
  inb_S1152x128_S1024x128_94_0 : ∀ a, (![94, 0] : Fin 2 → Nat) a + S1024x128.size a ≤ S1152x128.size a
  slices_S101x128_o94_0_S1x128 : S101x128.Slices ![94, 0] S1x128
  inb_S1152x128_S1024x128_95_0 : ∀ a, (![95, 0] : Fin 2 → Nat) a + S1024x128.size a ≤ S1152x128.size a
  slices_S101x128_o95_0_S1x128 : S101x128.Slices ![95, 0] S1x128
  inb_S1152x128_S1024x128_96_0 : ∀ a, (![96, 0] : Fin 2 → Nat) a + S1024x128.size a ≤ S1152x128.size a
  slices_S101x128_o96_0_S1x128 : S101x128.Slices ![96, 0] S1x128
  inb_S1152x128_S1024x128_97_0 : ∀ a, (![97, 0] : Fin 2 → Nat) a + S1024x128.size a ≤ S1152x128.size a
  slices_S101x128_o97_0_S1x128 : S101x128.Slices ![97, 0] S1x128
  inb_S1152x128_S1024x128_98_0 : ∀ a, (![98, 0] : Fin 2 → Nat) a + S1024x128.size a ≤ S1152x128.size a
  slices_S101x128_o98_0_S1x128 : S101x128.Slices ![98, 0] S1x128
  inb_S1152x128_S1024x128_99_0 : ∀ a, (![99, 0] : Fin 2 → Nat) a + S1024x128.size a ≤ S1152x128.size a
  slices_S101x128_o99_0_S1x128 : S101x128.Slices ![99, 0] S1x128
  inb_S1152x128_S1024x128_100_0 : ∀ a, (![100, 0] : Fin 2 → Nat) a + S1024x128.size a ≤ S1152x128.size a
  slices_S101x128_o100_0_S1x128 : S101x128.Slices ![100, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x512_S128x512_S1024x128_1_1_0_0_n_n_wf : DotDims.WF S1024x512 S128x512 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x64.size a ≤ S4x512x1024x64.size a
  hwx0_0 : ∀ i : grid0.Coords, EltTy.bits .f32 = 32 ∨ (Rect.block (s := S4x512x1024x64) S1x128x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S4x512x1024.size a
  hwx0_1 : ∀ i : grid0.Coords, EltTy.bits .f32 = 32 ∨ (Rect.block (s := S4x512x1024) S1x128x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S4x1024x512.size a
  hwx1_0 : ∀ i : grid1.Coords, EltTy.bits .f32 = 32 ∨ (Rect.block (s := S4x1024x512) S1x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S101x128.size a ≤ S101x128.size a
  hwx1_2 : ∀ i : grid1.Coords, EltTy.bits .f32 = 32 ∨ (Rect.block (s := S101x128) S101x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x128.size a ≤ S4x1024x128.size a
  hwx1_4 : ∀ i : grid1.Coords, EltTy.bits .f32 = 32 ∨ (Rect.block (s := S4x1024x128) S1x1024x128.size (cc1_transform_4 i) (hinb1_4 i)).WholeWords (EltTy.packing .f32)

variable [Facts₀]

def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf

abbrev win0_0 : Pipeline.Window sig grid0 :=
  Pipeline.Window.ofSpec (Memref.whole main_v0) S1x128x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S101x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x512x1024x8x8 : Shape := ⟨5, ![4, 512, 1024, 8, 8]⟩
abbrev S128x512 : Shape := ⟨2, ![128, 512]⟩
abbrev S128x101 : Shape := ⟨2, ![128, 101]⟩
abbrev S128 : Shape := ⟨1, ![128]⟩
abbrev S_ : Shape := ⟨0, ![]⟩
abbrev S4x512x1024 : Shape := ⟨3, ![4, 512, 1024]⟩
abbrev S4x1024x512 : Shape := ⟨3, ![4, 1024, 512]⟩
abbrev S4x1024x128 : Shape := ⟨3, ![4, 1024, 128]⟩
abbrev S4x1024 : Shape := ⟨2, ![4, 1024]⟩
abbrev S4x1024x1 : Shape := ⟨3, ![4, 1024, 1]⟩
abbrev S4x1024x1024 : Shape := ⟨3, ![4, 1024, 1024]⟩
abbrev S4x1024x1124 : Shape := ⟨3, ![4, 1024, 1124]⟩
abbrev S1024 : Shape := ⟨1, ![1024]⟩
abbrev S1024x1 : Shape := ⟨2, ![1024, 1]⟩
abbrev S101 : Shape := ⟨1, ![101]⟩
abbrev S1x101 : Shape := ⟨2, ![1, 101]⟩
abbrev S1024x101 : Shape := ⟨2, ![1024, 101]⟩
abbrev S1024x101x1 : Shape := ⟨3, ![1024, 101, 1]⟩
abbrev S1024x101x2 : Shape := ⟨3, ![1024, 101, 2]⟩
abbrev S4x1024x101 : Shape := ⟨3, ![4, 1024, 101]⟩
abbrev S1x1x128 : Shape := ⟨3, ![1, 1, 128]⟩

abbrev nBuf : Space → Nat
  | .hbm => 60
  | .vmem => 0
  | .smem => 0
  | _ => 0

abbrev bufTy : (tb : Table) → Fin (tcTables nBuf tb) → BufTy
  | .hbm, ⟨0, _⟩ => ⟨S4x512x1024x8x8, .f32⟩
  | .hbm, ⟨1, _⟩ => ⟨S128x512, .f32⟩
  | .hbm, ⟨2, _⟩ => ⟨S128x101, .f32⟩
  | .hbm, ⟨3, _⟩ => ⟨S128, .f32⟩
  | .hbm, ⟨4, _⟩ => ⟨S_, .f32⟩
  | .hbm, ⟨5, _⟩ => ⟨S4x512x1024, .f32⟩
  | .hbm, ⟨6, _⟩ => ⟨S_, .f32⟩
  | .hbm, ⟨7, _⟩ => ⟨S4x512x1024, .f32⟩
  | .hbm, ⟨8, _⟩ => ⟨S4x512x1024, .f32⟩
  | .hbm, ⟨9, _⟩ => ⟨S4x1024x512, .f32⟩
  | .hbm, ⟨10, _⟩ => ⟨S4x1024x128, .f32⟩
  | .hbm, ⟨11, _⟩ => ⟨S4x1024x128, .f32⟩
  | .hbm, ⟨12, _⟩ => ⟨S_, .f32⟩
  | .hbm, ⟨13, _⟩ => ⟨S4x1024, .f32⟩
  | .hbm, ⟨14, _⟩ => ⟨S4x1024x1, .f32⟩
  | .hbm, ⟨15, _⟩ => ⟨S4x1024x1, .f32⟩
  | .hbm, ⟨16, _⟩ => ⟨S_, .f32⟩
  | .hbm, ⟨17, _⟩ => ⟨S4x1024x1, .f32⟩
  | .hbm, ⟨18, _⟩ => ⟨S4x1024x1, .f32⟩
  | .hbm, ⟨19, _⟩ => ⟨S4x1024x128, .f32⟩
  | .hbm, ⟨20, _⟩ => ⟨S4x1024x128, .f32⟩
  | .hbm, ⟨21, _⟩ => ⟨S4x1024x1024, .f32⟩
  | .hbm, ⟨22, _⟩ => ⟨S_, .i32⟩
  | .hbm, ⟨23, _⟩ => ⟨S_, .f32⟩
  | .hbm, ⟨24, _⟩ => ⟨S4x1024x1124, .f32⟩
  | .hbm, ⟨25, _⟩ => ⟨S1024, .i32⟩
  | .hbm, ⟨26, _⟩ => ⟨S1024x1, .i32⟩
  | .hbm, ⟨27, _⟩ => ⟨S101, .i32⟩
  | .hbm, ⟨28, _⟩ => ⟨S1x101, .i32⟩
  | .hbm, ⟨29, _⟩ => ⟨S1024x101, .i32⟩
  | .hbm, ⟨30, _⟩ => ⟨S1024x101, .i32⟩
  | .hbm, ⟨31, _⟩ => ⟨S1024x101, .i32⟩
  | .hbm, ⟨32, _⟩ => ⟨S1024, .i32⟩
  | .hbm, ⟨33, _⟩ => ⟨S1024x1, .i32⟩
  | .hbm, ⟨34, _⟩ => ⟨S_, .i32⟩
  | .hbm, ⟨35, _⟩ => ⟨S1024x1, .i32⟩
  | .hbm, ⟨36, _⟩ => ⟨S1024x1, .i1⟩
  | .hbm, ⟨37, _⟩ => ⟨S_, .i32⟩
  | .hbm, ⟨38, _⟩ => ⟨S1024x1, .i32⟩
  | .hbm, ⟨39, _⟩ => ⟨S1024x1, .i32⟩
  | .hbm, ⟨40, _⟩ => ⟨S1024x1, .i32⟩
  | .hbm, ⟨41, _⟩ => ⟨S_, .i32⟩
  | .hbm, ⟨42, _⟩ => ⟨S1024x101, .i32⟩
  | .hbm, ⟨43, _⟩ => ⟨S1024x101, .i1⟩
  | .hbm, ⟨44, _⟩ => ⟨S_, .i32⟩
  | .hbm, ⟨45, _⟩ => ⟨S1024x101, .i32⟩
  | .hbm, ⟨46, _⟩ => ⟨S1024x101, .i32⟩
  | .hbm, ⟨47, _⟩ => ⟨S1024x101, .i32⟩
  | .hbm, ⟨48, _⟩ => ⟨S1024x101, .i32⟩
  | .hbm, ⟨49, _⟩ => ⟨S1024x101x1, .i32⟩
  | .hbm, ⟨50, _⟩ => ⟨S1024x101x1, .i32⟩
  | .hbm, ⟨51, _⟩ => ⟨S1024x101x2, .i32⟩
  | .hbm, ⟨52, _⟩ => ⟨S4x1024x101, .f32⟩
  | .hbm, ⟨53, _⟩ => ⟨S4x1024x128, .f32⟩
  | .hbm, ⟨54, _⟩ => ⟨S1x1x128, .f32⟩
  | .hbm, ⟨55, _⟩ => ⟨S4x1024x128, .f32⟩
  | .hbm, ⟨56, _⟩ => ⟨S4x1024x128, .f32⟩
  | .hbm, ⟨57, _⟩ => ⟨S_, .f32⟩
  | .hbm, ⟨58, _⟩ => ⟨S4x1024x128, .f32⟩
  | .hbm, ⟨59, _⟩ => ⟨S4x1024x128, .f32⟩
  | _, _ => ⟨S4x512x1024x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call2_cst : Ref sig .tc := ⟨.hbm, 57, rfl⟩
abbrev main_call2_v0 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  reducesTo_S4x512x1024x8x8_S4x512x1024_d3_4 : S4x512x1024x8x8.ReducesTo [3, 4] S4x512x1024
  h_S_ : 0 < S_.numel
  bcast_S_S4x512x1024 : S_.BroadcastsInDim S4x512x1024 (![] : Fin 0 → Fin S4x512x1024.rank)
  transposes_S4x512x1024_S4x1024x512_0_2_1 : S4x512x1024.Transposes [0, 2, 1] S4x1024x512
  reducesTo_S4x1024x128_S4x1024_d2 : S4x1024x128.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x128_0_1_2 : S4x1024x1.BroadcastsInDim S4x1024x128 (![0, 1, 2] : Fin 3 → Fin S4x1024x128.rank)
  pads_S4x1024x1024_S4x1024x1124_000_000_50500 : S4x1024x1024.Pads (![0, 0, 50] : Fin 3 → Nat) ![0, 0, 50] ![0, 0, 0] S4x1024x1124
  bcast_S1024_S1024x1_0 : S1024.BroadcastsInDim S1024x1 (![0] : Fin 1 → Fin S1024x1.rank)
  bcast_S101_S1x101_1 : S101.BroadcastsInDim S1x101 (![1] : Fin 1 → Fin S1x101.rank)
  bcast_S1024x1_S1024x101_0_1 : S1024x1.BroadcastsInDim S1024x101 (![0, 1] : Fin 2 → Fin S1024x101.rank)
  bcast_S1x101_S1024x101_0_1 : S1x101.BroadcastsInDim S1024x101 (![0, 1] : Fin 2 → Fin S1024x101.rank)
  bcast_S_S1024x1 : S_.BroadcastsInDim S1024x1 (![] : Fin 0 → Fin S1024x1.rank)
  bcast_S_S1024x101 : S_.BroadcastsInDim S1024x101 (![] : Fin 0 → Fin S1024x101.rank)
  bcast_S1024x101_S1024x101x1_0_1 : S1024x101.BroadcastsInDim S1024x101x1 (![0, 1] : Fin 2 → Fin S1024x101x1.rank)
  concatenates_S1024x101x1_S1024x101x1_S1024x101x2_d2 : Shape.Concatenates [S1024x101x1, S1024x101x1] S1024x101x2 2
  bcast_S128_S1x1x128_2 : S128.BroadcastsInDim S1x1x128 (![2] : Fin 1 → Fin S1x1x128.rank)
  bcast_S1x1x128_S4x1024x128_0_1_2 : S1x1x128.BroadcastsInDim S4x1024x128 (![0, 1, 2] : Fin 3 → Fin S4x1024x128.rank)
  bcast_S_S4x1024x128 : S_.BroadcastsInDim S4x1024x128 (![] : Fin 0 → Fin S4x1024x128.rank)
  dot_S4x1024x512_S128x512_S4x1024x128_2_1_01_0_n_n_wf : DotDims.WF S4x1024x512 S128x512 S4x1024x128 [2] [1] [0, 1] [0] [] []
  dot_S4x1024x128_S4x1024x128_S4x1024x1024_2_2_1_1_0_0_wf : DotDims.WF S4x1024x128 S4x1024x128 S4x1024x1024 [2] [2] [1] [1] [0] [0]
  gather_S4x1024x1124_S1024x101x2_S4x1024x101_0_12_n_n_12_2_411_wf : GatherDims.WF S4x1024x1124 S1024x101x2 S4x1024x101 [0] [1, 2] [] [1, 2] [] 2 ![4, 1, 1]
  dot_S4x1024x101_S128x101_S4x1024x128_2_1_01_0_n_n_wf : DotDims.WF S4x1024x101 S128x101 S4x1024x128 [2] [1] [0, 1] [0] [] []

variable [Facts₀]

def dot_S4x1024x512_S128x512_S4x1024x128_2_1_01_0_n_n : DotDims S4x1024x512 S128x512 S4x1024x128 where
  lhsContracting := [2]
  rhsContracting := [1]
  lhsNonContracting := [0, 1]
  rhsNonContracting := [0]
  lhsBatch := []
  rhsBatch := []
  wf := dot_S4x1024x512_S128x512_S4x1024x128_2_1_01_0_n_n_wf
def dot_S4x1024x128_S4x1024x128_S4x1024x1024_2_2_1_1_0_0 : DotDims S4x1024x128 S4x1024x128 S4x1024x1024 where
  lhsContracting := [2]
  rhsContracting := [2]
  lhsNonContracting := [1]
  rhsNonContracting := [1]
  lhsBatch := [0]
  rhsBatch := [0]
  wf := dot_S4x1024x128_S4x1024x128_S4x1024x1024_2_2_1_1_0_0_wf
def gather_S4x1024x1124_S1024x101x2_S4x1024x101_0_12_n_n_12_2_411 : GatherDims S4x1024x1124 S1024x101x2 S4x1024x101 where
  offsetDims := [0]
  collapsedSliceDims := [1, 2]
  operandBatchingDims := []
  startIndicesBatchingDims := []
  startIndexMap := [1, 2]
  indexVectorDim := 2
  sliceSizes := ![4, 1, 1]
  wf := gather_S4x1024x1124_S1024x101x2_S4x1024x101_0_12_n_n_12_2_411_wf
def dot_S4x1024x101_S128x101_S4x1024x128_2_1_01_0_n_n : DotDims S4x1024x101 S128x101 S4x1024x128 where
  lhsContracting := [2]
  rhsContracting := [1]
  lhsNonContracting := [0, 1]
  rhsNonContracting := [0]
  lhsBatch := []
  rhsBatch := []
  wf := dot_S4x1024x101_S128x101_S4x1024x128_2_1_01_0_n_n_wf

class Facts : Prop extends Facts₀ where

variable [Facts]
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.BandStep.lean ====
/-
  One step of the band accumulation, read at an entry, and the partial sums the steps build.

  The kernel keeps the unit rows R : [1024, 128], the transposed weights W : [101, 128] and a table T : [1152, 128]
  (the unit rows with zero rows around them). For a diagonal l it multiplies R entrywise by rows l .. l + 1023 of T,
  sums each row (the sum kept as a column), multiplies the column by row l of W broadcast down the rows, and adds the
  result to the running table. At the entry (t, o) this adds
      term l = (sum over d of R t d * T (l + t) d) * W l o,
  and after the diagonals 0 .. n - 1 the running table holds the sum of term l over l < n.
-/
import proofs.«109527_j2748779070177_2_alg».proof.Proof.Gen.KernelIdeal.Skeleton
import proofs.«109527_j2748779070177_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BandKernel

open Idealize.ShloMosaic Idealize.ShloMosaic.ValueIdx Cert.KernelIdeal Cert.KernelIdeal.Gen

/-- The sum of row t of a [1024, 128] table. -/
def rowSum (a : FVec Ideal S1024x128 .f32) (t : Fin 1024) : EReal := ∑ d : Fin 128, a (ix2 t d)

/-- Row l of the weights at column o (zero past the last row: never read there). -/
def wAt (W : FVec Ideal S101x128 .f32) (l : ℕ) (o : Fin 128) : EReal :=
  if h : l < 101 then W (ix2 ⟨l, h⟩ o) else 0

/-- Rows l .. l + 1023 of a [1152, 128] table, as a [1024, 128] table (zero past the last row: never read there). -/
def rowsAt (T : S1152x128.Idx → EReal) (l : ℕ) : Vec Ideal S1024x128 .f32 := fun y =>
  if h : l + (y 0).val < 1152 then T (ix2 ⟨l + (y 0).val, h⟩ (y 1 : Fin 128)) else 0

/-- What diagonal l adds at the entry (t, o). -/
def term (R : FVec Ideal S1024x128 .f32) (W : FVec Ideal S101x128 .f32) (T : S1152x128.Idx → EReal) (l : ℕ)
    (t : Fin 1024) (o : Fin 128) : EReal :=
  rowSum (mulf R (rowsAt T l)) t * wAt W l o

/-- The running table after the diagonals 0 .. n - 1. -/
def partialSum (R : FVec Ideal S1024x128 .f32) (W : FVec Ideal S101x128 .f32) (T : S1152x128.Idx → EReal) (n : ℕ)
    (t : Fin 1024) (o : Fin 128) : EReal :=
  ∑ l ∈ Finset.range n, term R W T l t o

theorem partialSum_zero (R : FVec Ideal S1024x128 .f32) (W : FVec Ideal S101x128 .f32) (T : S1152x128.Idx → EReal)
    (t : Fin 1024) (o : Fin 128) : partialSum R W T 0 t o = 0 := by
  unfold partialSum; exact Finset.sum_range_zero _

theorem partialSum_succ (R : FVec Ideal S1024x128 .f32) (W : FVec Ideal S101x128 .f32) (T : S1152x128.Idx → EReal) (n : ℕ)
    (t : Fin 1024) (o : Fin 128) : partialSum R W T (n + 1) t o = partialSum R W T n t o + term R W T n t o := by
  unfold partialSum; exact Finset.sum_range_succ _ n

/-- Five more diagonals. -/
theorem partialSum_add_five (R : FVec Ideal S1024x128 .f32) (W : FVec Ideal S101x128 .f32) (T : S1152x128.Idx → EReal) (a : ℕ)
    (t : Fin 1024) (o : Fin 128) :
    partialSum R W T (a + 5) t o
      = partialSum R W T a t o + term R W T a t o + term R W T (a + 1) t o + term R W T (a + 2) t o
        + term R W T (a + 3) t o + term R W T (a + 4) t o := by
  rw [show a + 5 = a + 4 + 1 from rfl, partialSum_succ, show a + 4 = a + 3 + 1 from rfl, partialSum_succ,
    show a + 3 = a + 2 + 1 from rfl, partialSum_succ, show a + 2 = a + 1 + 1 from rfl, partialSum_succ, partialSum_succ]

/-- The row sums kept as a column and broadcast along the rows, times row l of the weights broadcast down the
    rows: at (t, o) the product of row t's sum with the weight (l, o). -/
theorem contribution_apply (prod : FVec Ideal S1024x128 .f32) (W : FVec Ideal S101x128 .f32) (l : ℕ) (hl : l < 101)
    (hs : S101x128.Slices ![l, 0] S1x128) (t : Fin 1024) (o : Fin 128) :
    mulf (broadcastTo S1024x128 (shapeCast S1024x1 (multiReduction .add [1] S1024 prod 0x00000000#32 reduces_S1024x128_S1024 (.inl rfl) rfl) shapeCasts_S1024_S1024x1) broadcasts_S1024x1_S1024x128)
        (broadcastTo S1024x128 (extractStridedSlice S1x128 ![l, 0] W hs) broadcasts_S1x128_S1024x128) (ix2 t o)
      = rowSum prod t * wAt W l o := by
  refine (mulf_apply _ _ _).trans ?_
  refine congrArg₂ (· * ·) ?_ ?_
  · refine (broadcastTo_a1_ab_apply _ _ t o).trans ?_
    refine (shapeCast_a_a1_apply _ _ t 0).trans ?_
    exact multiReduction_add_axis1_apply prod _ _ _ t
  · refine (broadcastTo_1b_ab_apply _ _ t o).trans ?_
    refine (extractStridedSlice_apply ![l, 0] W hs (ix2 (0 : Fin 1) o) (ix2 ⟨l, hl⟩ o) (by intro a; fin_cases a <;> simp [ix2])).trans ?_
    unfold wAt; rw [dif_pos hl]

end Cert.KernelIdeal.BandKernel

end
-- ==== Proof.BandChain.lean ====
/-
  The band accumulation, five diagonals at a time.

  The kernel's body is unrolled: its first part forms the unit rows, fills the table and adds diagonal 0; each of the
  twenty parts after it adds five diagonals (the first of the five from a product formed at the end of the part before);
  the end adds the bias and clamps at zero. Each lemma here reads one part at an entry (t, o) and says that the running
  table moves from the sum of the first a diagonals to the sum of the first a + 5.
-/
import proofs.«109527_j2748779070177_2_alg».proof.Proof.BandStep

noncomputable section

namespace Cert.KernelIdeal.BandKernel

open Idealize.ShloMosaic Idealize.ShloMosaic.ValueIdx Cert.KernelIdeal Cert.KernelIdeal.Gen

/-- Diagonal 0, added to the zero table. -/
theorem first_step (x0 : Vec Ideal S1x1024x512 .f32) (x1 : Vec Ideal S128x512 .f32) (x2 : Vec Ideal S101x128 .f32)
    (T : S1152x128.Idx → EReal) (A : Vec Ideal S1024x128 .f32) (t : Fin 1024) (o : Fin 128) (hA : A = rowsAt T 0) :
    k1_pay6 x0 x1 x2 A (ix2 t o) = partialSum (k1_pay2 x0 x1) (k1_pay5 x2) T 1 t o := by
  subst hA
  rw [partialSum_succ, partialSum_zero]
  unfold k1_pay6
  refine (addf_apply _ _ _).trans ?_
  exact congrArg₂ (· + ·) Ideal.ofBits_zero_f32 (contribution_apply _ (k1_pay5 x2) 0 (by norm_num) _ t o)

/-- The product a part forms for the next part's first diagonal. -/
theorem carried_product (x0 : Vec Ideal S1x1024x512 .f32) (x1 : Vec Ideal S128x512 .f32) (V : Vec Ideal S1024x128 .f32) :
    k1_pay7 x0 x1 V = mulf (k1_pay2 x0 x1) V := rfl

/-- Diagonals 1 .. 5: the running table goes from the first 1 diagonals to the first 6. -/
theorem steps_1 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 1 t o) (hprod : prod = mulf R (rowsAt T 1))
    (hA : A = rowsAt T 2) (hB : B = rowsAt T 3) (hC : C = rowsAt T 4) (hD : D = rowsAt T 5) :
    k1_pay8 R W acc prod A B C D (ix2 t o) = partialSum R W T 6 t o := by
  subst hprod hA hB hC hD
  refine Eq.trans ?_ (partialSum_add_five R W T 1 t o).symm
  rw [← hacc]
  unfold k1_pay8
  refine (addf_apply _ _ _).trans ?_
  refine congrArg₂ (· + ·) ?_ (contribution_apply _ W 5 (by norm_num) _ t o)
  refine (addf_apply _ _ _).trans ?_
  refine congrArg₂ (· + ·) ?_ (contribution_apply _ W 4 (by norm_num) _ t o)
  refine (addf_apply _ _ _).trans ?_
  refine congrArg₂ (· + ·) ?_ (contribution_apply _ W 3 (by norm_num) _ t o)
  refine (addf_apply _ _ _).trans ?_
  refine congrArg₂ (· + ·) ?_ (contribution_apply _ W 2 (by norm_num) _ t o)
  refine (addf_apply _ _ _).trans ?_
  exact congrArg₂ (· + ·) rfl (contribution_apply _ W 1 (by norm_num) _ t o)

/-- Diagonals 6 .. 10: the running table goes from the first 6 diagonals to the first 11. -/
theorem steps_2 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 6 t o) (hprod : prod = mulf R (rowsAt T 6))
    (hA : A = rowsAt T 7) (hB : B = rowsAt T 8) (hC : C = rowsAt T 9) (hD : D = rowsAt T 10) :
    k1_pay10 R W acc prod A B C D (ix2 t o) = partialSum R W T 11 t o := by
  subst hprod hA hB hC hD
  refine Eq.trans ?_ (partialSum_add_five R W T 6 t o).symm
  rw [← hacc]
  unfold k1_pay10
  refine (addf_apply _ _ _).trans ?_
  refine congrArg₂ (· + ·) ?_ (contribution_apply _ W 10 (by norm_num) _ t o)
  refine (addf_apply _ _ _).trans ?_
  refine congrArg₂ (· + ·) ?_ (contribution_apply _ W 9 (by norm_num) _ t o)
  refine (addf_apply _ _ _).trans ?_
  refine congrArg₂ (· + ·) ?_ (contribution_apply _ W 8 (by norm_num) _ t o)
  refine (addf_apply _ _ _).trans ?_
  refine congrArg₂ (· + ·) ?_ (contribution_apply _ W 7 (by norm_num) _ t o)
  refine (addf_apply _ _ _).trans ?_
  exact congrArg₂ (· + ·) rfl (contribution_apply _ W 6 (by norm_num) _ t o)

/-- Diagonals 11 .. 15: the running table goes from the first 11 diagonals to the first 16. -/
theorem steps_3 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 11 t o) (hprod : prod = mulf R (rowsAt T 11))
    (hA : A = rowsAt T 12) (hB : B = rowsAt T 13) (hC : C = rowsAt T 14) (hD : D = rowsAt T 15) :
    k1_pay12 R W acc prod A B C D (ix2 t o) = partialSum R W T 16 t o := by
  subst hprod hA hB hC hD
  refine Eq.trans ?_ (partialSum_add_five R W T 11 t o).symm
  rw [← hacc]
  unfold k1_pay12
  refine (addf_apply _ _ _).trans ?_
  refine congrArg₂ (· + ·) ?_ (contribution_apply _ W 15 (by norm_num) _ t o)
  refine (addf_apply _ _ _).trans ?_
  refine congrArg₂ (· + ·) ?_ (contribution_apply _ W 14 (by norm_num) _ t o)
  refine (addf_apply _ _ _).trans ?_
  refine congrArg₂ (· + ·) ?_ (contribution_apply _ W 13 (by norm_num) _ t o)
  refine (addf_apply _ _ _).trans ?_
  refine congrArg₂ (· + ·) ?_ (contribution_apply _ W 12 (by norm_num) _ t o)
  refine (addf_apply _ _ _).trans ?_
  exact congrArg₂ (· + ·) rfl (contribution_apply _ W 11 (by norm_num) _ t o)

/-- Diagonals 16 .. 20: the running table goes from the first 16 diagonals to the first 21. -/
theorem steps_4 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 16 t o) (hprod : prod = mulf R (rowsAt T 16))
    (hA : A = rowsAt T 17) (hB : B = rowsAt T 18) (hC : C = rowsAt T 19) (hD : D = rowsAt T 20) :
    k1_pay14 R W acc prod A B C D (ix2 t o) = partialSum R W T 21 t o := by
  subst hprod hA hB hC hD
  refine Eq.trans ?_ (partialSum_add_five R W T 16 t o).symm
  rw [← hacc]
  unfold k1_pay14
  refine (addf_apply _ _ _).trans ?_
  refine congrArg₂ (· + ·) ?_ (contribution_apply _ W 20 (by norm_num) _ t o)
  refine (addf_apply _ _ _).trans ?_
  refine congrArg₂ (· + ·) ?_ (contribution_apply _ W 19 (by norm_num) _ t o)
  refine (addf_apply _ _ _).trans ?_
  refine congrArg₂ (· + ·) ?_ (contribution_apply _ W 18 (by norm_num) _ t o)
  refine (addf_apply _ _ _).trans ?_
  refine congrArg₂ (· + ·) ?_ (contribution_apply _ W 17 (by norm_num) _ t o)
  refine (addf_apply _ _ _).trans ?_
  exact congrArg₂ (· + ·) rfl (contribution_apply _ W 16 (by norm_num) _ t o)

/-- Diagonals 21 .. 25: the running table goes from the first 21 diagonals to the first 26. -/
theorem steps_5 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 21 t o) (hprod : prod = mulf R (rowsAt T 21))
    (hA : A = rowsAt T 22) (hB : B = rowsAt T 23) (hC : C = rowsAt T 24) (hD : D = rowsAt T 25) :
    k1_pay16 R W acc prod A B C D (ix2 t o) = partialSum R W T 26 t o := by
  subst hprod hA hB hC hD
  refine Eq.trans ?_ (partialSum_add_five R W T 21 t o).symm
  rw [← hacc]
  unfold k1_pay16
  refine (addf_apply _ _ _).trans ?_
  refine congrArg₂ (· + ·) ?_ (contribution_apply _ W 25 (by norm_num) _ t o)
  refine (addf_apply _ _ _).trans ?_
  refine congrArg₂ (· + ·) ?_ (contribution_apply _ W 24 (by norm_num) _ t o)
  refine (addf_apply _ _ _).trans ?_
  refine congrArg₂ (· + ·) ?_ (contribution_apply _ W 23 (by norm_num) _ t o)
  refine (addf_apply _ _ _).trans ?_
  refine congrArg₂ (· + ·) ?_ (contribution_apply _ W 22 (by norm_num) _ t o)
  refine (addf_apply _ _ _).trans ?_
  exact congrArg₂ (· + ·) rfl (contribution_apply _ W 21 (by norm_num) _ t o)

/-- Diagonals 26 .. 30: the running table goes from the first 26 diagonals to the first 31. -/
theorem steps_6 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 26 t o) (hprod : prod = mulf R (rowsAt T 26))
    (hA : A = rowsAt T 27) (hB : B = rowsAt T 28) (hC : C = rowsAt T 29) (hD : D = rowsAt T 30) :
    k1_pay18 R W acc prod A B C D (ix2 t o) = partialSum R W T 31 t o := by
  subst hprod hA hB hC hD
  refine Eq.trans ?_ (partialSum_add_five R W T 26 t o).symm
  rw [← hacc]
  unfold k1_pay18
  refine (addf_apply _ _ _).trans ?_
  refine congrArg₂ (· + ·) ?_ (contribution_apply _ W 30 (by norm_num) _ t o)
  refine (addf_apply _ _ _).trans ?_
  refine congrArg₂ (· + ·) ?_ (contribution_apply _ W 29 (by norm_num) _ t o)
  refine (addf_apply _ _ _).trans ?_
  refine congrArg₂ (· + ·) ?_ (contribution_apply _ W 28 (by norm_num) _ t o)
  refine (addf_apply _ _ _).trans ?_
  refine congrArg₂ (· + ·) ?_ (contribution_apply _ W 27 (by norm_num) _ t o)
  refine (addf_apply _ _ _).trans ?_
  exact congrArg₂ (· + ·) rfl (contribution_apply _ W 26 (by norm_num) _ t o)

/-- Diagonals 31 .. 35: the running table goes from the first 31 diagonals to the first 36. -/
theorem steps_7 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 31 t o) (hprod : prod = mulf R (rowsAt T 31))
    (hA : A = rowsAt T 32) (hB : B = rowsAt T 33) (hC : C = rowsAt T 34) (hD : D = rowsAt T 35) :
    k1_pay20 R W acc prod A B C D (ix2 t o) = partialSum R W T 36 t o := by
  subst hprod hA hB hC hD
  refine Eq.trans ?_ (partialSum_add_five R W T 31 t o).symm
  rw [← hacc]
  unfold k1_pay20
  refine (addf_apply _ _ _).trans ?_
  refine congrArg₂ (· + ·) ?_ (contribution_apply _ W 35 (by norm_num) _ t o)
  refine (addf_apply _ _ _).trans ?_
  refine congrArg₂ (· + ·) ?_ (contribution_apply _ W 34 (by norm_num) _ t o)
  refine (addf_apply _ _ _).trans ?_
  refine congrArg₂ (· + ·) ?_ (contribution_apply _ W 33 (by norm_num) _ t o)
  refine (addf_apply _ _ _).trans ?_
  refine congrArg₂ (· + ·) ?_ (contribution_apply _ W 32 (by norm_num) _ t o)
  refine (addf_apply _ _ _).trans ?_
  exact congrArg₂ (· + ·) rfl (contribution_apply _ W 31 (by norm_num) _ t o)

/-- Diagonals 36 .. 40: the running table goes from the first 36 diagonals to the first 41. -/
theorem steps_8 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 36 t o) (hprod : prod = mulf R (rowsAt T 36))
    (hA : A = rowsAt T 37) (hB : B = rowsAt T 38) (hC : C = rowsAt T 39) (hD : D = rowsAt T 40) :
    k1_pay22 R W acc prod A B C D (ix2 t o) = partialSum R W T 41 t o := by
  subst hprod hA hB hC hD
  refine Eq.trans ?_ (partialSum_add_five R W T 36 t o).symm
  rw [← hacc]
  unfold k1_pay22
  refine (addf_apply _ _ _).trans ?_
  refine congrArg₂ (· + ·) ?_ (contribution_apply _ W 40 (by norm_num) _ t o)
  refine (addf_apply _ _ _).trans ?_
  refine congrArg₂ (· + ·) ?_ (contribution_apply _ W 39 (by norm_num) _ t o)
  refine (addf_apply _ _ _).trans ?_
  refine congrArg₂ (· + ·) ?_ (contribution_apply _ W 38 (by norm_num) _ t o)
  refine (addf_apply _ _ _).trans ?_
  refine congrArg₂ (· + ·) ?_ (contribution_apply _ W 37 (by norm_num) _ t o)
  refine (addf_apply _ _ _).trans ?_
  exact congrArg₂ (· + ·) rfl (contribution_apply _ W 36 (by norm_num) _ t o)

/-- Diagonals 41 .. 45: the running table goes from the first 41 diagonals to the first 46. -/
theorem steps_9 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 41 t o) (hprod : prod = mulf R (rowsAt T 41))
    (hA : A = rowsAt T 42) (hB : B = rowsAt T 43) (hC : C = rowsAt T 44) (hD : D = rowsAt T 45) :
    k1_pay24 R W acc prod A B C D (ix2 t o) = partialSum R W T 46 t o := by
  subst hprod hA hB hC hD
  refine Eq.trans ?_ (partialSum_add_five R W T 41 t o).symm
  rw [← hacc]
  unfold k1_pay24
  refine (addf_apply _ _ _).trans ?_
  refine congrArg₂ (· + ·) ?_ (contribution_apply _ W 45 (by norm_num) _ t o)
  refine (addf_apply _ _ _).trans ?_
  refine congrArg₂ (· + ·) ?_ (contribution_apply _ W 44 (by norm_num) _ t o)
  refine (addf_apply _ _ _).trans ?_
  refine congrArg₂ (· + ·) ?_ (contribution_apply _ W 43 (by norm_num) _ t o)
  refine (addf_apply _ _ _).trans ?_
  refine congrArg₂ (· + ·) ?_ (contribution_apply _ W 42 (by norm_num) _ t o)
  refine (addf_apply _ _ _).trans ?_
  exact congrArg₂ (· + ·) rfl (contribution_apply _ W 41 (by norm_num) _ t o)

/-- Diagonals 46 .. 50: the running table goes from the first 46 diagonals to the first 51. -/
theorem steps_10 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 46 t o) (hprod : prod = mulf R (rowsAt T 46))
    (hA : A = rowsAt T 47) (hB : B = rowsAt T 48) (hC : C = rowsAt T 49) (hD : D = rowsAt T 50) :
    k1_pay26 R W acc prod A B C D (ix2 t o) = partialSum R W T 51 t o := by
  subst hprod hA hB hC hD
  refine Eq.trans ?_ (partialSum_add_five R W T 46 t o).symm
  rw [← hacc]
  unfold k1_pay26
  refine (addf_apply _ _ _).trans ?_
  refine congrArg₂ (· + ·) ?_ (contribution_apply _ W 50 (by norm_num) _ t o)
  refine (addf_apply _ _ _).trans ?_
  refine congrArg₂ (· + ·) ?_ (contribution_apply _ W 49 (by norm_num) _ t o)
  refine (addf_apply _ _ _).trans ?_
  refine congrArg₂ (· + ·) ?_ (contribution_apply _ W 48 (by norm_num) _ t o)
  refine (addf_apply _ _ _).trans ?_
  refine congrArg₂ (· + ·) ?_ (contribution_apply _ W 47 (by norm_num) _ t o)
  refine (addf_apply _ _ _).trans ?_
  exact congrArg₂ (· + ·) rfl (contribution_apply _ W 46 (by norm_num) _ t o)

/-- Diagonals 51 .. 55: the running table goes from the first 51 diagonals to the first 56. -/
theorem steps_11 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 51 t o) (hprod : prod = mulf R (rowsAt T 51))
    (hA : A = rowsAt T 52) (hB : B = rowsAt T 53) (hC : C = rowsAt T 54) (hD : D = rowsAt T 55) :
    k1_pay28 R W acc prod A B C D (ix2 t o) = partialSum R W T 56 t o := by
  subst hprod hA hB hC hD
  refine Eq.trans ?_ (partialSum_add_five R W T 51 t o).symm
  rw [← hacc]
  unfold k1_pay28
  refine (addf_apply _ _ _).trans ?_
  refine congrArg₂ (· + ·) ?_ (contribution_apply _ W 55 (by norm_num) _ t o)
  refine (addf_apply _ _ _).trans ?_
  refine congrArg₂ (· + ·) ?_ (contribution_apply _ W 54 (by norm_num) _ t o)
  refine (addf_apply _ _ _).trans ?_
  refine congrArg₂ (· + ·) ?_ (contribution_apply _ W 53 (by norm_num) _ t o)
  refine (addf_apply _ _ _).trans ?_
  refine congrArg₂ (· + ·) ?_ (contribution_apply _ W 52 (by norm_num) _ t o)
  refine (addf_apply _ _ _).trans ?_
  exact congrArg₂ (· + ·) rfl (contribution_apply _ W 51 (by norm_num) _ t o)

/-- Diagonals 56 .. 60: the running table goes from the first 56 diagonals to the first 61. -/
theorem steps_12 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 56 t o) (hprod : prod = mulf R (rowsAt T 56))
    (hA : A = rowsAt T 57) (hB : B = rowsAt T 58) (hC : C = rowsAt T 59) (hD : D = rowsAt T 60) :
    k1_pay30 R W acc prod A B C D (ix2 t o) = partialSum R W T 61 t o := by
  subst hprod hA hB hC hD
  refine Eq.trans ?_ (partialSum_add_five R W T 56 t o).symm
  rw [← hacc]
  unfold k1_pay30
  refine (addf_apply _ _ _).trans ?_
  refine congrArg₂ (· + ·) ?_ (contribution_apply _ W 60 (by norm_num) _ t o)
  refine (addf_apply _ _ _).trans ?_
  refine congrArg₂ (· + ·) ?_ (contribution_apply _ W 59 (by norm_num) _ t o)
  refine (addf_apply _ _ _).trans ?_
  refine congrArg₂ (· + ·) ?_ (contribution_apply _ W 58 (by norm_num) _ t o)
  refine (addf_apply _ _ _).trans ?_
  refine congrArg₂ (· + ·) ?_ (contribution_apply _ W 57 (by norm_num) _ t o)
  refine (addf_apply _ _ _).trans ?_
  exact congrArg₂ (· + ·) rfl (contribution_apply _ W 56 (by norm_num) _ t o)

/-- Diagonals 61 .. 65: the running table goes from the first 61 diagonals to the first 66. -/
theorem steps_13 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 61 t o) (hprod : prod = mulf R (rowsAt T 61))
    (hA : A = rowsAt T 62) (hB : B = rowsAt T 63) (hC : C = rowsAt T 64) (hD : D = rowsAt T 65) :
    k1_pay32 R W acc prod A B C D (ix2 t o) = partialSum R W T 66 t o := by
  subst hprod hA hB hC hD
  refine Eq.trans ?_ (partialSum_add_five R W T 61 t o).symm
  rw [← hacc]
  unfold k1_pay32
  refine (addf_apply _ _ _).trans ?_
  refine congrArg₂ (· + ·) ?_ (contribution_apply _ W 65 (by norm_num) _ t o)
  refine (addf_apply _ _ _).trans ?_
  refine congrArg₂ (· + ·) ?_ (contribution_apply _ W 64 (by norm_num) _ t o)
  refine (addf_apply _ _ _).trans ?_
  refine congrArg₂ (· + ·) ?_ (contribution_apply _ W 63 (by norm_num) _ t o)
  refine (addf_apply _ _ _).trans ?_
  refine congrArg₂ (· + ·) ?_ (contribution_apply _ W 62 (by norm_num) _ t o)
  refine (addf_apply _ _ _).trans ?_
  exact congrArg₂ (· + ·) rfl (contribution_apply _ W 61 (by norm_num) _ t o)

/-- Diagonals 66 .. 70: the running table goes from the first 66 diagonals to the first 71. -/
theorem steps_14 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 66 t o) (hprod : prod = mulf R (rowsAt T 66))
    (hA : A = rowsAt T 67) (hB : B = rowsAt T 68) (hC : C = rowsAt T 69) (hD : D = rowsAt T 70) :
    k1_pay34 R W acc prod A B C D (ix2 t o) = partialSum R W T 71 t o := by
  subst hprod hA hB hC hD
  refine Eq.trans ?_ (partialSum_add_five R W T 66 t o).symm
  rw [← hacc]
  unfold k1_pay34
  refine (addf_apply _ _ _).trans ?_
  refine congrArg₂ (· + ·) ?_ (contribution_apply _ W 70 (by norm_num) _ t o)
  refine (addf_apply _ _ _).trans ?_
  refine congrArg₂ (· + ·) ?_ (contribution_apply _ W 69 (by norm_num) _ t o)
  refine (addf_apply _ _ _).trans ?_
  refine congrArg₂ (· + ·) ?_ (contribution_apply _ W 68 (by norm_num) _ t o)
  refine (addf_apply _ _ _).trans ?_
  refine congrArg₂ (· + ·) ?_ (contribution_apply _ W 67 (by norm_num) _ t o)
  refine (addf_apply _ _ _).trans ?_
  exact congrArg₂ (· + ·) rfl (contribution_apply _ W 66 (by norm_num) _ t o)

/-- Diagonals 71 .. 75: the running table goes from the first 71 diagonals to the first 76. -/
theorem steps_15 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 71 t o) (hprod : prod = mulf R (rowsAt T 71))
    (hA : A = rowsAt T 72) (hB : B = rowsAt T 73) (hC : C = rowsAt T 74) (hD : D = rowsAt T 75) :
    k1_pay36 R W acc prod A B C D (ix2 t o) = partialSum R W T 76 t o := by
  subst hprod hA hB hC hD
  refine Eq.trans ?_ (partialSum_add_five R W T 71 t o).symm
  rw [← hacc]
  unfold k1_pay36
  refine (addf_apply _ _ _).trans ?_
  refine congrArg₂ (· + ·) ?_ (contribution_apply _ W 75 (by norm_num) _ t o)
  refine (addf_apply _ _ _).trans ?_
  refine congrArg₂ (· + ·) ?_ (contribution_apply _ W 74 (by norm_num) _ t o)
  refine (addf_apply _ _ _).trans ?_
  refine congrArg₂ (· + ·) ?_ (contribution_apply _ W 73 (by norm_num) _ t o)
  refine (addf_apply _ _ _).trans ?_
  refine congrArg₂ (· + ·) ?_ (contribution_apply _ W 72 (by norm_num) _ t o)
  refine (addf_apply _ _ _).trans ?_
  exact congrArg₂ (· + ·) rfl (contribution_apply _ W 71 (by norm_num) _ t o)

/-- Diagonals 76 .. 80: the running table goes from the first 76 diagonals to the first 81. -/
theorem steps_16 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 76 t o) (hprod : prod = mulf R (rowsAt T 76))
    (hA : A = rowsAt T 77) (hB : B = rowsAt T 78) (hC : C = rowsAt T 79) (hD : D = rowsAt T 80) :
    k1_pay38 R W acc prod A B C D (ix2 t o) = partialSum R W T 81 t o := by
  subst hprod hA hB hC hD
  refine Eq.trans ?_ (partialSum_add_five R W T 76 t o).symm
  rw [← hacc]
  unfold k1_pay38
  refine (addf_apply _ _ _).trans ?_
  refine congrArg₂ (· + ·) ?_ (contribution_apply _ W 80 (by norm_num) _ t o)
  refine (addf_apply _ _ _).trans ?_
  refine congrArg₂ (· + ·) ?_ (contribution_apply _ W 79 (by norm_num) _ t o)
  refine (addf_apply _ _ _).trans ?_
  refine congrArg₂ (· + ·) ?_ (contribution_apply _ W 78 (by norm_num) _ t o)
  refine (addf_apply _ _ _).trans ?_
  refine congrArg₂ (· + ·) ?_ (contribution_apply _ W 77 (by norm_num) _ t o)
  refine (addf_apply _ _ _).trans ?_
  exact congrArg₂ (· + ·) rfl (contribution_apply _ W 76 (by norm_num) _ t o)

/-- Diagonals 81 .. 85: the running table goes from the first 81 diagonals to the first 86. -/
theorem steps_17 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 81 t o) (hprod : prod = mulf R (rowsAt T 81))
    (hA : A = rowsAt T 82) (hB : B = rowsAt T 83) (hC : C = rowsAt T 84) (hD : D = rowsAt T 85) :
    k1_pay40 R W acc prod A B C D (ix2 t o) = partialSum R W T 86 t o := by
  subst hprod hA hB hC hD
  refine Eq.trans ?_ (partialSum_add_five R W T 81 t o).symm
  rw [← hacc]
  unfold k1_pay40
  refine (addf_apply _ _ _).trans ?_
  refine congrArg₂ (· + ·) ?_ (contribution_apply _ W 85 (by norm_num) _ t o)
  refine (addf_apply _ _ _).trans ?_
  refine congrArg₂ (· + ·) ?_ (contribution_apply _ W 84 (by norm_num) _ t o)
  refine (addf_apply _ _ _).trans ?_
  refine congrArg₂ (· + ·) ?_ (contribution_apply _ W 83 (by norm_num) _ t o)
  refine (addf_apply _ _ _).trans ?_
  refine congrArg₂ (· + ·) ?_ (contribution_apply _ W 82 (by norm_num) _ t o)
  refine (addf_apply _ _ _).trans ?_
  exact congrArg₂ (· + ·) rfl (contribution_apply _ W 81 (by norm_num) _ t o)

/-- Diagonals 86 .. 90: the running table goes from the first 86 diagonals to the first 91. -/
theorem steps_18 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 86 t o) (hprod : prod = mulf R (rowsAt T 86))
    (hA : A = rowsAt T 87) (hB : B = rowsAt T 88) (hC : C = rowsAt T 89) (hD : D = rowsAt T 90) :
    k1_pay42 R W acc prod A B C D (ix2 t o) = partialSum R W T 91 t o := by
  subst hprod hA hB hC hD
  refine Eq.trans ?_ (partialSum_add_five R W T 86 t o).symm
  rw [← hacc]
  unfold k1_pay42
  refine (addf_apply _ _ _).trans ?_
  refine congrArg₂ (· + ·) ?_ (contribution_apply _ W 90 (by norm_num) _ t o)
  refine (addf_apply _ _ _).trans ?_
  refine congrArg₂ (· + ·) ?_ (contribution_apply _ W 89 (by norm_num) _ t o)
  refine (addf_apply _ _ _).trans ?_
  refine congrArg₂ (· + ·) ?_ (contribution_apply _ W 88 (by norm_num) _ t o)
  refine (addf_apply _ _ _).trans ?_
  refine congrArg₂ (· + ·) ?_ (contribution_apply _ W 87 (by norm_num) _ t o)
  refine (addf_apply _ _ _).trans ?_
  exact congrArg₂ (· + ·) rfl (contribution_apply _ W 86 (by norm_num) _ t o)

/-- Diagonals 91 .. 95: the running table goes from the first 91 diagonals to the first 96. -/
theorem steps_19 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 91 t o) (hprod : prod = mulf R (rowsAt T 91))
    (hA : A = rowsAt T 92) (hB : B = rowsAt T 93) (hC : C = rowsAt T 94) (hD : D = rowsAt T 95) :
    k1_pay44 R W acc prod A B C D (ix2 t o) = partialSum R W T 96 t o := by
  subst hprod hA hB hC hD
  refine Eq.trans ?_ (partialSum_add_five R W T 91 t o).symm
  rw [← hacc]
  unfold k1_pay44
  refine (addf_apply _ _ _).trans ?_
  refine congrArg₂ (· + ·) ?_ (contribution_apply _ W 95 (by norm_num) _ t o)
  refine (addf_apply _ _ _).trans ?_
  refine congrArg₂ (· + ·) ?_ (contribution_apply _ W 94 (by norm_num) _ t o)
  refine (addf_apply _ _ _).trans ?_
  refine congrArg₂ (· + ·) ?_ (contribution_apply _ W 93 (by norm_num) _ t o)
  refine (addf_apply _ _ _).trans ?_
  refine congrArg₂ (· + ·) ?_ (contribution_apply _ W 92 (by norm_num) _ t o)
  refine (addf_apply _ _ _).trans ?_
  exact congrArg₂ (· + ·) rfl (contribution_apply _ W 91 (by norm_num) _ t o)

/-- Diagonals 96 .. 100: the running table goes from the first 96 diagonals to the first 101. -/
theorem steps_20 (R : FVec Ideal S1024x128 .f32) (W : FVec Ideal S101x128 .f32) (T : S1152x128.Idx → EReal)
    (acc prod : FVec Ideal S1024x128 .f32) (A B C D : Vec Ideal S1024x128 .f32) (t : Fin 1024) (o : Fin 128)
    (hacc : acc (ix2 t o) = partialSum R W T 96 t o) (hprod : prod = mulf R (rowsAt T 96))
    (hA : A = rowsAt T 97) (hB : B = rowsAt T 98) (hC : C = rowsAt T 99) (hD : D = rowsAt T 100) :
    k1_pay46 R W acc prod A B C D (ix2 t o) = partialSum R W T 101 t o := by
  subst hprod hA hB hC hD
  refine Eq.trans ?_ (partialSum_add_five R W T 96 t o).symm
  rw [← hacc]
  unfold k1_pay46
  refine (addf_apply _ _ _).trans ?_
  refine congrArg₂ (· + ·) ?_ (contribution_apply _ W 100 (by norm_num) _ t o)
  refine (addf_apply _ _ _).trans ?_
  refine congrArg₂ (· + ·) ?_ (contribution_apply _ W 99 (by norm_num) _ t o)
  refine (addf_apply _ _ _).trans ?_
  refine congrArg₂ (· + ·) ?_ (contribution_apply _ W 98 (by norm_num) _ t o)
  refine (addf_apply _ _ _).trans ?_
  refine congrArg₂ (· + ·) ?_ (contribution_apply _ W 97 (by norm_num) _ t o)
  refine (addf_apply _ _ _).trans ?_
  exact congrArg₂ (· + ·) rfl (contribution_apply _ W 96 (by norm_num) _ t o)

end Cert.KernelIdeal.BandKernel

end
-- ==== Proof.BandLoads.lean ====
/-
  What the kernel's table holds and what a load of 1024 consecutive rows of it reads.

  The table [1152, 128] is first filled with zeros and then rows 50 .. 1073 are overwritten with the unit rows P.
  So row j holds P (j - 50) when 50 <= j < 1074 and zero otherwise, and a load of rows l .. l + 1023 reads, at (t, d),
  the table at (l + t, d).
-/
import proofs.«109527_j2748779070177_2_alg».proof.Proof.BandStep
import Idealize.ShloMosaic.Lib.Pipeline.FrameBody
import Idealize.ShloMosaic.Lib.Pipeline.RowLoads

noncomputable section

namespace Cert.KernelIdeal.BandKernel

open Idealize.ShloMosaic Idealize.ShloMosaic.ValueIdx Cert.KernelIdeal Cert.KernelIdeal.Gen

/-- The unit rows with fifty zero rows before and seventy-eight after. -/
def paddedTable (P : FVec Ideal S1024x128 .f32) : S1152x128.Idx → EReal := fun i =>
  if h : 50 ≤ (i 0).val ∧ (i 0).val < 1074 then P (ix2 ⟨(i 0).val - 50, by omega⟩ (i 1 : Fin 128)) else 0

/-- The all-zero table the kernel fills its scratch with. -/
theorem zero_table_apply (i : S1152x128.Idx) : k1_pay3 (F := Ideal) i = 0 := by
  unfold k1_pay3
  refine (congrFun (shapeCast_self _ _) i).trans ?_
  exact Ideal.ofBits_zero_f32

/-- Two stores into an [m, n] table, the later first: k rows from row off at P, over the whole table at Z. At row j
    the table holds P's row j - off when off <= j < off + k, and Z's row j otherwise. -/
theorem canon_rows_over_whole {Val : EltTy → Type} [∀ e, Nonempty (Val e)] {e : EltTy} {m n k off : ℕ}
    (P : (⟨2, ![k, n]⟩ : Shape).Idx → Val e) (Z : (⟨2, ![m, n]⟩ : Shape).Idx → Val e)
    (inbP : ∀ a, (![off, 0] : Fin 2 → Nat) a + (⟨2, ![k, n]⟩ : Shape).size a ≤ (⟨2, ![m, n]⟩ : Shape).size a)
    (inbZ : ∀ a, (![0, 0] : Fin 2 → Nat) a + (⟨2, ![m, n]⟩ : Shape).size a ≤ (⟨2, ![m, n]⟩ : Shape).size a)
    (j : Fin m) (d : Fin n) :
    View.canon (Val := Val) (s := (⟨2, ![m, n]⟩ : Shape)) (e := e)
        [⟨Rect.unit (s := (⟨2, ![m, n]⟩ : Shape)) ![off, 0] (⟨2, ![k, n]⟩ : Shape).size inbP, P⟩,
         ⟨Rect.unit (s := (⟨2, ![m, n]⟩ : Shape)) ![0, 0] (⟨2, ![m, n]⟩ : Shape).size inbZ, Z⟩] (ix2 j d)
      = if h : off ≤ j.val ∧ j.val < off + k then P (ix2 (⟨j.val - off, by omega⟩ : Fin k) d) else Z (ix2 j d) := by
  by_cases h : off ≤ j.val ∧ j.val < off + k
  · rw [dif_pos h]
    have he : ix2 j d = (Rect.unit (s := (⟨2, ![m, n]⟩ : Shape)) ![off, 0] (⟨2, ![k, n]⟩ : Shape).size inbP).emb
        (ix2 (⟨j.val - off, by omega⟩ : Fin k) d) := by
      funext a; apply Fin.ext
      fin_cases a
      · show j.val = off + 1 * (j.val - off); omega
      · show d.val = 0 + 1 * d.val; omega
    exact (congrArg (View.canon _) he).trans
      (View.canon_cons_emb (Val := Val) (Rect.unit (s := (⟨2, ![m, n]⟩ : Shape)) ![off, 0] (⟨2, ![k, n]⟩ : Shape).size inbP) P _
        (ix2 (⟨j.val - off, by omega⟩ : Fin k) d))
  · rw [dif_neg h]
    refine (View.canon_cons_of_not_mem _ _ ?_).trans ?_
    · intro hm
      have h0 := (Rect.mem_set_unit (inb := inbP)).mp hm 0
      apply h
      have h1 : (![off, 0] : Fin 2 → Nat) 0 = off := rfl
      have h2 : (⟨2, ![k, n]⟩ : Shape).size 0 = k := rfl
      have h3 : ((ix2 j d : (⟨2, ![m, n]⟩ : Shape).Idx) 0).val = j.val := rfl
      omega
    · exact congrFun (View.canon_cons_unit_zero (by funext a; fin_cases a <;> rfl) inbZ Z []) (ix2 j d)

/-- The kernel's two stores: rows 50 .. 1073 at P over the all-zero table. -/
theorem canon_scratch (P : FVec Ideal S1024x128 .f32)
    (inb50 : ∀ a, (![50, 0] : Fin 2 → Nat) a + S1024x128.size a ≤ S1152x128.size a)
    (inb0 : ∀ a, (![0, 0] : Fin 2 → Nat) a + S1152x128.size a ≤ S1152x128.size a) :
    View.canon (Val := Elt Ideal) (s := S1152x128) (e := .f32)
        [⟨Rect.unit (s := S1152x128) ![50, 0] S1024x128.size inb50, P⟩,
         ⟨Rect.unit (s := S1152x128) ![0, 0] S1152x128.size inb0, k1_pay3 (F := Ideal)⟩]
      = paddedTable P := by
  funext i
  rw [eq_ix2 i]
  refine (canon_rows_over_whole (Val := Elt Ideal) (e := .f32) (m := 1152) (n := 128) (k := 1024) (off := 50)
    P (k1_pay3 (F := Ideal)) inb50 inb0 (i 0) (i 1)).trans ?_
  unfold paddedTable
  by_cases h : 50 ≤ (i 0).val ∧ (i 0).val < 1074
  · rw [dif_pos h, dif_pos (show 50 ≤ (i 0).val ∧ (i 0).val < 50 + 1024 from ⟨h.1, by omega⟩)]
  · rw [dif_neg h, dif_neg (show ¬(50 ≤ (i 0).val ∧ (i 0).val < 50 + 1024) from fun h' => h ⟨h'.1, by omega⟩)]
    exact zero_table_apply _

/-- A load of rows l .. l + 1023 after the stores L reads the rows of what the stores left. -/
theorem load_rows {sig' : RefSig} {κ : Kind} {sp : Space} (v : View sig' κ sp S1152x128 .f32)
    (L : List (View.Piece (Elt Ideal) S1152x128 .f32)) (l : ℕ)
    (inb : ∀ a, (![l, 0] : Fin 2 → Nat) a + S1024x128.size a ≤ S1152x128.size a) :
    v.readCov L (Rect.unit (s := S1152x128) ![l, 0] S1024x128.size inb).toLoadRect = rowsAt (View.canon L) l := by
  rw [View.readCov_eq_canon']
  funext y
  have hb : l + (y 0).val < 1152 := by
    have h0 := inb 0
    have h1 : (![l, 0] : Fin 2 → Nat) 0 = l := rfl
    have h2 : S1024x128.size 0 = 1024 := rfl
    have h3 : S1152x128.size 0 = 1152 := rfl
    have h4 : (y 0).val < 1024 := (y 0).isLt
    omega
  unfold rowsAt
  rw [dif_pos hb]
  refine congrArg (View.canon L) ?_
  funext a; apply Fin.ext
  fin_cases a
  · show l + 1 * (y 0).val = l + (y 0).val; omega
  · show 0 + 1 * (y 1).val = (y 1).val; omega

end Cert.KernelIdeal.BandKernel

end
-- ==== Proof.BandBlock.lean ====
/-
  One block of the result, read at an entry.

  At a grid point the kernel is given a block x0 : [1, 1024, 512] of features, the projection x1 : [128, 512], the
  transposed weights x2 : [101, 128] and the bias row x3 : [1, 128]. With R the unit rows of x0 against x1 and T the
  table holding R between zero rows, the block it writes holds at (0, t, o)
      max ((sum over l < 101 of (sum over d of R t d * T (l + t) d) * x2 l o) + x3 0 o) 0.
-/
import proofs.«109527_j2748779070177_2_alg».proof.Proof.Gen.KernelIdeal.Frame
import proofs.«109527_j2748779070177_2_alg».proof.Proof.BandChain
import proofs.«109527_j2748779070177_2_alg».proof.Proof.BandLoads

set_option maxRecDepth 16384

noncomputable section

namespace Cert.KernelIdeal.BandKernel

open Idealize.ShloMosaic Idealize.ShloMosaic.ValueIdx Idealize.ShloMosaic.TcCoe Idealize.ShloMosaic.Tactic Idealize.SL.Sem
open Cert.KernelIdeal Cert.KernelIdeal.Gen

theorem zeros2 : (![0, 0] : Fin 2 → Nat) = fun _ => 0 := by funext a; fin_cases a <;> rfl
theorem zeros3 : (![0, 0, 0] : Fin 3 → Nat) = fun _ => 0 := by funext a; fin_cases a <;> rfl

/-- The rows the kernel stores into its table are the unit rows themselves. -/
theorem stored_rows (x0 : Vec Ideal S1x1024x512 .f32) (x1 : Vec Ideal S128x512 .f32) : k1_pay4 x0 x1 = k1_pay2 x0 x1 := by
  unfold k1_pay4; exact shapeCast_self _ _

/-- A load of rows l .. l + 1023 of the table after the kernel's two stores. -/
theorem load_eq {sig' : RefSig} {κ : Kind} {sp : Space} (v : View sig' κ sp S1152x128 .f32)
    (x0 : Vec Ideal S1x1024x512 .f32) (x1 : Vec Ideal S128x512 .f32) (l : ℕ)
    (inb50 : ∀ a, (![50, 0] : Fin 2 → Nat) a + S1024x128.size a ≤ S1152x128.size a)
    (inb0 : ∀ a, (![0, 0] : Fin 2 → Nat) a + S1152x128.size a ≤ S1152x128.size a)
    (inb : ∀ a, (![l, 0] : Fin 2 → Nat) a + S1024x128.size a ≤ S1152x128.size a) :
    v.readCov (Val := Elt Ideal)
        [⟨Rect.unit (s := S1152x128) ![50, 0] S1024x128.size inb50, k1_pay4 x0 x1⟩,
         ⟨Rect.unit (s := S1152x128) ![0, 0] S1152x128.size inb0, k1_pay3 (F := Ideal)⟩]
        (Rect.unit (s := S1152x128) ![l, 0] S1024x128.size inb).toLoadRect
      = rowsAt (paddedTable (k1_pay2 x0 x1)) l := by
  rw [load_rows, canon_scratch, stored_rows]

/-- The end of the body: the bias added, the clamp at zero, the unit axis put back. -/
theorem final_apply (A B : FVec Ideal S1024x128 .f32) (tt : Fin 1024) (o : Fin 128) :
    k1_pay1 A B (ix3 (0 : Fin 1) tt o) = max (A (ix2 tt o) + B (ix2 tt o)) 0 := by
  unfold k1_pay1
  refine (shapeCast_ab_1ab_apply _ _ 0 tt o).trans ?_
  refine (maximumf_apply _ _ _).trans ?_
  exact congrArg₂ max (addf_apply _ _ _) Ideal.ofBits_zero_f32

/-- The bias row broadcast down the rows. -/
theorem bias_apply (x3 : Vec Ideal S1x128 .f32) (tt : Fin 1024) (o : Fin 128) :
    k1_pay47 x3 (ix2 tt o) = x3 (ix2 (0 : Fin 1) o) := by
  unfold k1_pay47
  refine (broadcastTo_1b_ab_apply _ _ tt o).trans ?_
  exact congrFun (shapeCast_self _ _) _

set_option maxHeartbeats 4000000 in
/-- What the body leaves in the output block, at an entry. -/
theorem block_apply (c : Dev nD) (i : grid1.Coords) (arg1 : Memref sig .tc .vmem S1x1024x512 .f32) (harg1 : arg1.IsWhole) (arg2 : Memref sig .tc .vmem S128x512 .f32) (harg2 : arg2.IsWhole) (arg3 : Memref sig .tc .vmem S101x128 .f32) (harg3 : arg3.IsWhole) (arg4 : Memref sig .tc .vmem S1x128 .f32) (harg4 : arg4.IsWhole) (arg5 : Memref sig .tc .vmem S1x1024x128 .f32) (harg5 : arg5.IsWhole) (arg6 : Memref sig .tc .vmem S1152x128 .f32) (harg6 : arg6.IsWhole)
    (x0 : Vec Ideal S1x1024x512 .f32) (x1 : Vec Ideal S128x512 .f32) (x2 : Vec Ideal S101x128 .f32) (x3 : Vec Ideal S1x128 .f32) (tt : Fin 1024) (o : Fin 128) :
    out1_A_4 (F := Ideal) c i arg1 harg1 arg2 harg2 arg3 harg3 arg4 harg4 arg5 harg5 arg6 harg6 x0 x1 x2 x3 (ix3 (0 : Fin 1) tt o)
      = max (partialSum (k1_pay2 x0 x1) (k1_pay5 x2) (paddedTable (k1_pay2 x0 x1)) 101 tt o + x3 (ix2 (0 : Fin 1) o)) 0 := by
  unfold out1_A_4
  rw [View.read_writes_junk_eq_canon]
  unfold kernelRun1_A
  dsimp only
  rw [View.canon_unit_zero zeros3]
  sl_unfold_run_names
  simp only [View.readAt_eq_ld, harg1.read_unread, harg2.read_unread, harg3.read_unread, harg4.read_unread,
    View.ld_unit_zero (S := S1x1024x512) zeros3, View.ld_unit_zero (S := S128x512) zeros2,
    View.ld_unit_zero (S := S101x128) zeros2, View.ld_unit_zero (S := S1x128) zeros2]
  refine (final_apply _ _ tt o).trans ?_
  refine congrArg₂ max (congrArg₂ (· + ·) ?_ (bias_apply x3 tt o)) rfl
  refine steps_20 (k1_pay2 x0 x1) (k1_pay5 x2) (paddedTable (k1_pay2 x0 x1)) _ _ _ _ _ _ tt o ?_
    (congrArg (mulf (k1_pay2 x0 x1)) (load_eq arg6.view x0 x1 96 _ _ _)) (load_eq arg6.view x0 x1 97 _ _ _) (load_eq arg6.view x0 x1 98 _ _ _) (load_eq arg6.view x0 x1 99 _ _ _) (load_eq arg6.view x0 x1 100 _ _ _)
  refine steps_19 (k1_pay2 x0 x1) (k1_pay5 x2) (paddedTable (k1_pay2 x0 x1)) _ _ _ _ _ _ tt o ?_
    (congrArg (mulf (k1_pay2 x0 x1)) (load_eq arg6.view x0 x1 91 _ _ _)) (load_eq arg6.view x0 x1 92 _ _ _) (load_eq arg6.view x0 x1 93 _ _ _) (load_eq arg6.view x0 x1 94 _ _ _) (load_eq arg6.view x0 x1 95 _ _ _)
  refine steps_18 (k1_pay2 x0 x1) (k1_pay5 x2) (paddedTable (k1_pay2 x0 x1)) _ _ _ _ _ _ tt o ?_
    (congrArg (mulf (k1_pay2 x0 x1)) (load_eq arg6.view x0 x1 86 _ _ _)) (load_eq arg6.view x0 x1 87 _ _ _) (load_eq arg6.view x0 x1 88 _ _ _) (load_eq arg6.view x0 x1 89 _ _ _) (load_eq arg6.view x0 x1 90 _ _ _)
  refine steps_17 (k1_pay2 x0 x1) (k1_pay5 x2) (paddedTable (k1_pay2 x0 x1)) _ _ _ _ _ _ tt o ?_
    (congrArg (mulf (k1_pay2 x0 x1)) (load_eq arg6.view x0 x1 81 _ _ _)) (load_eq arg6.view x0 x1 82 _ _ _) (load_eq arg6.view x0 x1 83 _ _ _) (load_eq arg6.view x0 x1 84 _ _ _) (load_eq arg6.view x0 x1 85 _ _ _)
  refine steps_16 (k1_pay2 x0 x1) (k1_pay5 x2) (paddedTable (k1_pay2 x0 x1)) _ _ _ _ _ _ tt o ?_
    (congrArg (mulf (k1_pay2 x0 x1)) (load_eq arg6.view x0 x1 76 _ _ _)) (load_eq arg6.view x0 x1 77 _ _ _) (load_eq arg6.view x0 x1 78 _ _ _) (load_eq arg6.view x0 x1 79 _ _ _) (load_eq arg6.view x0 x1 80 _ _ _)
  refine steps_15 (k1_pay2 x0 x1) (k1_pay5 x2) (paddedTable (k1_pay2 x0 x1)) _ _ _ _ _ _ tt o ?_
    (congrArg (mulf (k1_pay2 x0 x1)) (load_eq arg6.view x0 x1 71 _ _ _)) (load_eq arg6.view x0 x1 72 _ _ _) (load_eq arg6.view x0 x1 73 _ _ _) (load_eq arg6.view x0 x1 74 _ _ _) (load_eq arg6.view x0 x1 75 _ _ _)
  refine steps_14 (k1_pay2 x0 x1) (k1_pay5 x2) (paddedTable (k1_pay2 x0 x1)) _ _ _ _ _ _ tt o ?_
    (congrArg (mulf (k1_pay2 x0 x1)) (load_eq arg6.view x0 x1 66 _ _ _)) (load_eq arg6.view x0 x1 67 _ _ _) (load_eq arg6.view x0 x1 68 _ _ _) (load_eq arg6.view x0 x1 69 _ _ _) (load_eq arg6.view x0 x1 70 _ _ _)
  refine steps_13 (k1_pay2 x0 x1) (k1_pay5 x2) (paddedTable (k1_pay2 x0 x1)) _ _ _ _ _ _ tt o ?_
    (congrArg (mulf (k1_pay2 x0 x1)) (load_eq arg6.view x0 x1 61 _ _ _)) (load_eq arg6.view x0 x1 62 _ _ _) (load_eq arg6.view x0 x1 63 _ _ _) (load_eq arg6.view x0 x1 64 _ _ _) (load_eq arg6.view x0 x1 65 _ _ _)
  refine steps_12 (k1_pay2 x0 x1) (k1_pay5 x2) (paddedTable (k1_pay2 x0 x1)) _ _ _ _ _ _ tt o ?_
    (congrArg (mulf (k1_pay2 x0 x1)) (load_eq arg6.view x0 x1 56 _ _ _)) (load_eq arg6.view x0 x1 57 _ _ _) (load_eq arg6.view x0 x1 58 _ _ _) (load_eq arg6.view x0 x1 59 _ _ _) (load_eq arg6.view x0 x1 60 _ _ _)
  refine steps_11 (k1_pay2 x0 x1) (k1_pay5 x2) (paddedTable (k1_pay2 x0 x1)) _ _ _ _ _ _ tt o ?_
    (congrArg (mulf (k1_pay2 x0 x1)) (load_eq arg6.view x0 x1 51 _ _ _)) (load_eq arg6.view x0 x1 52 _ _ _) (load_eq arg6.view x0 x1 53 _ _ _) (load_eq arg6.view x0 x1 54 _ _ _) (load_eq arg6.view x0 x1 55 _ _ _)
  refine steps_10 (k1_pay2 x0 x1) (k1_pay5 x2) (paddedTable (k1_pay2 x0 x1)) _ _ _ _ _ _ tt o ?_
    (congrArg (mulf (k1_pay2 x0 x1)) (load_eq arg6.view x0 x1 46 _ _ _)) (load_eq arg6.view x0 x1 47 _ _ _) (load_eq arg6.view x0 x1 48 _ _ _) (load_eq arg6.view x0 x1 49 _ _ _) (load_eq arg6.view x0 x1 50 _ _ _)
  refine steps_9 (k1_pay2 x0 x1) (k1_pay5 x2) (paddedTable (k1_pay2 x0 x1)) _ _ _ _ _ _ tt o ?_
    (congrArg (mulf (k1_pay2 x0 x1)) (load_eq arg6.view x0 x1 41 _ _ _)) (load_eq arg6.view x0 x1 42 _ _ _) (load_eq arg6.view x0 x1 43 _ _ _) (load_eq arg6.view x0 x1 44 _ _ _) (load_eq arg6.view x0 x1 45 _ _ _)
  refine steps_8 (k1_pay2 x0 x1) (k1_pay5 x2) (paddedTable (k1_pay2 x0 x1)) _ _ _ _ _ _ tt o ?_
    (congrArg (mulf (k1_pay2 x0 x1)) (load_eq arg6.view x0 x1 36 _ _ _)) (load_eq arg6.view x0 x1 37 _ _ _) (load_eq arg6.view x0 x1 38 _ _ _) (load_eq arg6.view x0 x1 39 _ _ _) (load_eq arg6.view x0 x1 40 _ _ _)
  refine steps_7 (k1_pay2 x0 x1) (k1_pay5 x2) (paddedTable (k1_pay2 x0 x1)) _ _ _ _ _ _ tt o ?_
    (congrArg (mulf (k1_pay2 x0 x1)) (load_eq arg6.view x0 x1 31 _ _ _)) (load_eq arg6.view x0 x1 32 _ _ _) (load_eq arg6.view x0 x1 33 _ _ _) (load_eq arg6.view x0 x1 34 _ _ _) (load_eq arg6.view x0 x1 35 _ _ _)
  refine steps_6 (k1_pay2 x0 x1) (k1_pay5 x2) (paddedTable (k1_pay2 x0 x1)) _ _ _ _ _ _ tt o ?_
    (congrArg (mulf (k1_pay2 x0 x1)) (load_eq arg6.view x0 x1 26 _ _ _)) (load_eq arg6.view x0 x1 27 _ _ _) (load_eq arg6.view x0 x1 28 _ _ _) (load_eq arg6.view x0 x1 29 _ _ _) (load_eq arg6.view x0 x1 30 _ _ _)
  refine steps_5 (k1_pay2 x0 x1) (k1_pay5 x2) (paddedTable (k1_pay2 x0 x1)) _ _ _ _ _ _ tt o ?_
    (congrArg (mulf (k1_pay2 x0 x1)) (load_eq arg6.view x0 x1 21 _ _ _)) (load_eq arg6.view x0 x1 22 _ _ _) (load_eq arg6.view x0 x1 23 _ _ _) (load_eq arg6.view x0 x1 24 _ _ _) (load_eq arg6.view x0 x1 25 _ _ _)
  refine steps_4 (k1_pay2 x0 x1) (k1_pay5 x2) (paddedTable (k1_pay2 x0 x1)) _ _ _ _ _ _ tt o ?_
    (congrArg (mulf (k1_pay2 x0 x1)) (load_eq arg6.view x0 x1 16 _ _ _)) (load_eq arg6.view x0 x1 17 _ _ _) (load_eq arg6.view x0 x1 18 _ _ _) (load_eq arg6.view x0 x1 19 _ _ _) (load_eq arg6.view x0 x1 20 _ _ _)
  refine steps_3 (k1_pay2 x0 x1) (k1_pay5 x2) (paddedTable (k1_pay2 x0 x1)) _ _ _ _ _ _ tt o ?_
    (congrArg (mulf (k1_pay2 x0 x1)) (load_eq arg6.view x0 x1 11 _ _ _)) (load_eq arg6.view x0 x1 12 _ _ _) (load_eq arg6.view x0 x1 13 _ _ _) (load_eq arg6.view x0 x1 14 _ _ _) (load_eq arg6.view x0 x1 15 _ _ _)
  refine steps_2 (k1_pay2 x0 x1) (k1_pay5 x2) (paddedTable (k1_pay2 x0 x1)) _ _ _ _ _ _ tt o ?_
    (congrArg (mulf (k1_pay2 x0 x1)) (load_eq arg6.view x0 x1 6 _ _ _)) (load_eq arg6.view x0 x1 7 _ _ _) (load_eq arg6.view x0 x1 8 _ _ _) (load_eq arg6.view x0 x1 9 _ _ _) (load_eq arg6.view x0 x1 10 _ _ _)
  refine steps_1 (k1_pay2 x0 x1) (k1_pay5 x2) (paddedTable (k1_pay2 x0 x1)) _ _ _ _ _ _ tt o ?_
    (congrArg (mulf (k1_pay2 x0 x1)) (load_eq arg6.view x0 x1 1 _ _ _)) (load_eq arg6.view x0 x1 2 _ _ _) (load_eq arg6.view x0 x1 3 _ _ _) (load_eq arg6.view x0 x1 4 _ _ _) (load_eq arg6.view x0 x1 5 _ _ _)
  exact first_step x0 x1 x2 (paddedTable (k1_pay2 x0 x1)) _ tt o (load_eq arg6.view x0 x1 0 _ _ _)

end Cert.KernelIdeal.BandKernel

end
-- ==== Proof.BandArray.lean ====
/-
  From the blocks to the whole result array.

  The second region has four grid points, one per batch entry b. At point b the body is given block b of the
  transposed feature array (all 1024 time steps, all 512 channels), the whole projection, the whole transposed
  weights and the whole bias row, and writes block b of the result. The blocks tile the result, so the result array
  after the region is, entry by entry, what the body writes for that entry's batch.
-/
import proofs.«109527_j2748779070177_2_alg».proof.Proof.BandBlock

set_option maxRecDepth 16384

noncomputable section

namespace Cert.KernelIdeal.BandKernel

open Idealize.ShloMosaic Idealize.ShloMosaic.ValueIdx Idealize.ShloMosaic.TcCoe Idealize.SL.Sem
open Cert.KernelIdeal Cert.KernelIdeal.Gen

variable (V : (c : Dev nD) → (b : Ref sig .tc) → Buf (Elt Ideal) ((c : Thread nD τ).loc b))

/-- The index maps of the five windows, decided over the four grid points: the feature window and the result
    window move with the batch entry, the other three stay. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

theorem point_lt (t : Fin cfg1.N) : t.val < 4 := by
  have h := t.isLt
  have e : cfg1.N = 4 := N_1
  omega

/-- Block b of the transposed feature array. -/
def featBlock (c : Dev nD) (b : Fin 4) : Vec Ideal S1x1024x512 .f32 := fun y =>
  (V c main_v2 : S4x1024x512.Idx → EReal) (ix3 b (y 1 : Fin 1024) (y 2 : Fin 512))

/-- The result array, entry by entry: what the body writes for the entry's batch. -/
def arrayOut (c : Dev nD) : S4x1024x128.Idx → EReal := fun i =>
  max (partialSum (k1_pay2 (featBlock V c (i 0)) (V c main_arg1 : S128x512.Idx → EReal))
        (k1_pay5 (V c main_v3 : S101x128.Idx → EReal))
        (paddedTable (k1_pay2 (featBlock V c (i 0)) (V c main_arg1 : S128x512.Idx → EReal))) 101 (i 1) (i 2)
      + (V c main_v4 : S1x128.Idx → EReal) (ix2 (0 : Fin 1) (i 2))) 0

/-- The feature window's block at point t is block t of the transposed feature array. -/
theorem in_block0 (c : Dev nD) (t : Fin cfg1.N) :
    (iblk1 V c 0 t : Vec Ideal S1x1024x512 .f32) = featBlock V c ⟨t.val, point_lt t⟩ := by
  obtain ⟨e0, e1, e2, -⟩ := idx_facts1 t
  funext y
  unfold featBlock
  show (V c main_v2 : S4x1024x512.Idx → EReal) (((cfg1.win 0).blk t).view.emb y) = _
  refine congrArg _ ?_
  funext a; apply Fin.ext
  match a with
  | ⟨0, _⟩ => show win1_0.index t (0 : Fin 3) * 1 + 1 * (y 0).val = t.val; have hy : (y 0).val < 1 := (y 0).isLt; omega
  | ⟨1, _⟩ => show win1_0.index t (1 : Fin 3) * 1024 + 1 * (y 1).val = (y 1).val; omega
  | ⟨2, _⟩ => show win1_0.index t (2 : Fin 3) * 512 + 1 * (y 2).val = (y 2).val; omega

/-- The projection window's block is the whole projection. -/
theorem in_block1 (c : Dev nD) (t : Fin cfg1.N) :
    (iblk1 V c 1 t : Vec Ideal S128x512 .f32) = (V c main_arg1 : S128x512.Idx → EReal) := by
  obtain ⟨-, -, -, e0, e1, -⟩ := idx_facts1 t
  funext y
  show (V c main_arg1 : S128x512.Idx → EReal) (((cfg1.win 1).blk t).view.emb y) = _
  refine congrArg _ ?_
  funext a; apply Fin.ext
  match a with
  | ⟨0, _⟩ => show win1_1.index t (0 : Fin 2) * 128 + 1 * (y 0).val = (y 0).val; omega
  | ⟨1, _⟩ => show win1_1.index t (1 : Fin 2) * 512 + 1 * (y 1).val = (y 1).val; omega

/-- The weights window's block is the whole transposed weight table. -/
theorem in_block2 (c : Dev nD) (t : Fin cfg1.N) :
    (iblk1 V c 2 t : Vec Ideal S101x128 .f32) = (V c main_v3 : S101x128.Idx → EReal) := by
  obtain ⟨-, -, -, -, -, e0, e1, -⟩ := idx_facts1 t
  funext y
  show (V c main_v3 : S101x128.Idx → EReal) (((cfg1.win 2).blk t).view.emb y) = _
  refine congrArg _ ?_
  funext a; apply Fin.ext
  match a with
  | ⟨0, _⟩ => show win1_2.index t (0 : Fin 2) * 101 + 1 * (y 0).val = (y 0).val; omega
  | ⟨1, _⟩ => show win1_2.index t (1 : Fin 2) * 128 + 1 * (y 1).val = (y 1).val; omega

/-- The bias window's block is the whole bias row. -/
theorem in_block3 (c : Dev nD) (t : Fin cfg1.N) :
    (iblk1 V c 3 t : Vec Ideal S1x128 .f32) = (V c main_v4 : S1x128.Idx → EReal) := by
  obtain ⟨-, -, -, -, -, -, -, e0, e1, -⟩ := idx_facts1 t
  funext y
  show (V c main_v4 : S1x128.Idx → EReal) (((cfg1.win 3).blk t).view.emb y) = _
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- What point t writes back is block t of the result array. -/
theorem flushed1_eq (c : Dev nD) (t : Fin cfg1.N) :
    (dat1 V c).flushed 4 t = ((cfg1.win 4).blk t).view.read (Elt Ideal) (arrayOut V c) := by
  show (cfg1.win 4).cut (grid1.coords t) ((dat1 V c).after 4 t) = _
  rw [after1_4]
  unfold outsAt1
  obtain ⟨-, -, -, -, -, -, -, -, -, e0, e1, e2⟩ := idx_facts1 t
  funext (j : S1x1024x128.Idx)
  obtain ⟨u, tt, o, rfl⟩ : ∃ (u : Fin 1) (tt : Fin 1024) (o : Fin 128), j = ix3 u tt o := ⟨j 0, j 1, j 2, eq_ix3 j⟩
  obtain rfl : u = 0 := Subsingleton.elim _ _
  show out1_A_4 (F := Ideal) c (grid1.coords t) (ms1_0 t) (hs1_0 t) (ms1_1 t) (hs1_1 t) (ms1_2 t) (hs1_2 t) (ms1_3 t) (hs1_3 t)
      (ms1_4 t) (hs1_4 t) scM1_0 (Memref.isWhole_whole _) (iblk1 V c 0 t) (iblk1 V c 1 t) (iblk1 V c 2 t) (iblk1 V c 3 t)
      (ix3 (0 : Fin 1) tt o) = arrayOut V c (((cfg1.win 4).blk t).view.emb (ix3 (0 : Fin 1) tt o))
  refine (block_apply c (grid1.coords t) (ms1_0 t) (hs1_0 t) (ms1_1 t) (hs1_1 t) (ms1_2 t) (hs1_2 t) (ms1_3 t) (hs1_3 t)
      (ms1_4 t) (hs1_4 t) scM1_0 (Memref.isWhole_whole _) (iblk1 V c 0 t) (iblk1 V c 1 t) (iblk1 V c 2 t) (iblk1 V c 3 t) tt o).trans ?_
  rw [in_block0 V c t, in_block1 V c t, in_block2 V c t, in_block3 V c t]
  have he : ((cfg1.win 4).blk t).view.emb (ix3 (0 : Fin 1) tt o)
      = (ix3 (⟨t.val, point_lt t⟩ : Fin 4) tt o : S4x1024x128.Idx) := by
    funext a; apply Fin.ext
    match a with
    | ⟨0, _⟩ => show win1_4.index t (0 : Fin 3) * 1 + 1 * 0 = t.val; omega
    | ⟨1, _⟩ => show win1_4.index t (1 : Fin 3) * 1024 + 1 * tt.val = tt.val; omega
    | ⟨2, _⟩ => show win1_4.index t (2 : Fin 3) * 128 + 1 * o.val = o.val; omega
  rw [he]
  rfl

/-- An entry of the result is in point t's block iff each coordinate is in the block's range on its axis. -/
theorem mem_blk1 (t : Fin cfg1.N) (i : S4x1024x128.Idx) :
    i ∈ ((cfg1.win 4).blk t).view.set ↔ ∀ a : Fin 3, win1_4.index t a * S1x1024x128.size a ≤ (i a).val
      ∧ (i a).val < win1_4.index t a * S1x1024x128.size a + S1x1024x128.size a := by
  show i ∈ ((View.whole main_v5).slice (win1_4.rect t)).set ↔ _
  rw [View.set_slice_whole, Rect.mem_set_unit]
  exact Iff.rfl

/-- Every entry of the result is in the block of its batch's point. -/
theorem cover1 (i : S4x1024x128.Idx) :
    ∃ t : Fin cfg1.N, (cfg1.win 4).flush t = true ∧ i ∈ ((cfg1.win 4).blk t).view.set := by
  have h0 : (i 0).val < 4 := (i 0).isLt
  have h1 : (i 1).val < 1024 := (i 1).isLt
  have h2 : (i 2).val < 128 := (i 2).isLt
  have e : cfg1.N = 4 := N_1
  have e' : grid1.N = 4 := N_1
  refine ⟨⟨(i 0).val, by omega⟩, flush1_4 _, ?_⟩
  rw [mem_blk1]
  obtain ⟨-, -, -, -, -, -, -, -, -, e0, e1, e2⟩ := idx_facts1 ⟨(i 0).val, by omega⟩
  intro a
  match a with
  | ⟨0, _⟩ =>
    show win1_4.index ⟨(i 0).val, _⟩ (0 : Fin 3) * 1 ≤ (i 0).val ∧ (i 0).val < win1_4.index ⟨(i 0).val, _⟩ (0 : Fin 3) * 1 + 1
    have e0' : win1_4.index ⟨(i 0).val, by omega⟩ (0 : Fin 3) = (i 0).val := e0
    omega
  | ⟨1, _⟩ =>
    show win1_4.index ⟨(i 0).val, _⟩ (1 : Fin 3) * 1024 ≤ (i 1).val ∧ (i 1).val < win1_4.index ⟨(i 0).val, _⟩ (1 : Fin 3) * 1024 + 1024
    omega
  | ⟨2, _⟩ =>
    show win1_4.index ⟨(i 0).val, _⟩ (2 : Fin 3) * 128 ≤ (i 2).val ∧ (i 2).val < win1_4.index ⟨(i 0).val, _⟩ (2 : Fin 3) * 128 + 128
    omega

/-- The result array after the region. -/
theorem band_array (c : Dev nD) : (dat1 V c).arrAt 4 cfg1.N = arrayOut V c :=
  (dat1 V c).arrAt_eq_of_cover 4 (arrayOut V c) (fun t _ => flushed1_eq V c t) cover1

end Cert.KernelIdeal.BandKernel

end
-- ==== Proof.BandRows.lean ====
/-
  The unit rows, read at an entry.

  From a block x0 : [1, 1024, 512] of features and the projection x1 : [128, 512] the kernel forms
      q t d = sum over c of x0 0 t c * x1 d c                        (one matrix product, accumulated from zero),
  the length of each row, sqrt (sum over d of (q t d)^2), clamped below by eps, kept as a column, and
      unit t d = q t d / max (length t) eps.
-/
import proofs.«109527_j2748779070177_2_alg».proof.Proof.BandStep

noncomputable section

namespace Cert.KernelIdeal.BandKernel

open Idealize.ShloMosaic Idealize.ShloMosaic.ValueIdx Cert.KernelIdeal Cert.KernelIdeal.Gen

/-- The dimension record of the kernel's one matrix product, by a short name. -/
abbrev projDims : DotDims S1024x512 S128x512 S1024x128 := dot_S1024x512_S128x512_S1024x128_1_1_0_0_n_n

/-- The product's left index keeps the output's row. -/
theorem lhs_row (j : S1024x128.Idx) (q : projDims.contr.Idx) : (projDims.lhsIdx j q 0).val = (j 0).val := by
  unfold DotDims.lhsIdx
  rw [dif_neg (show ¬(0 : Fin S1024x512.rank) ∈ projDims.lhsBatch by decide),
    dif_pos (show (0 : Fin S1024x512.rank) ∈ projDims.lhsNonContracting by decide)]
  rfl

/-- The product's right index takes the output's column as its row. -/
theorem rhs_row (j : S1024x128.Idx) (q : projDims.contr.Idx) : (projDims.rhsIdx j q 0).val = (j 1).val := by
  unfold DotDims.rhsIdx
  rw [dif_neg (show ¬(0 : Fin S128x512.rank) ∈ projDims.rhsBatch by decide),
    dif_pos (show (0 : Fin S128x512.rank) ∈ projDims.rhsNonContracting by decide)]
  rfl

/-- Row t of a [1024, 512] table against row d of a [128, 512] table. -/
theorem matmul_rows (a : FVec Ideal S1024x512 .bf16) (w : FVec Ideal S128x512 .bf16) (t : Fin 1024) (d : Fin 128) :
    matmul projDims none a w (constant S1024x128 .f32 0x00000000#32) (ix2 t d) = ∑ c : Fin 512, a (ix2 t c) * w (ix2 d c) := by
  simp only [matmul]
  rw [Ideal.matmul_constant_zero_apply, ← Equiv.sum_comp (contrEquiv1 projDims 512 rfl rfl).symm]
  refine Finset.sum_congr rfl fun k _ => ?_
  have hk := contrEquiv1_symm_val projDims 512 rfl rfl k
  have el : projDims.lhsIdx (ix2 t d) ((contrEquiv1 projDims 512 rfl rfl).symm k) = ix2 t k := funext fun ax => Fin.ext (by
    match ax with
    | ⟨0, _⟩ => exact lhs_row _ _
    | ⟨1, _⟩ => exact (projDims.lhsIdx_val_of_single (cl := 1) rfl _ _).trans hk)
  have er : projDims.rhsIdx (ix2 t d) ((contrEquiv1 projDims 512 rfl rfl).symm k) = ix2 d k := funext fun ax => Fin.ext (by
    match ax with
    | ⟨0, _⟩ => exact rhs_row _ _
    | ⟨1, _⟩ => exact (projDims.rhsIdx_val_of_single (cr := 1) rfl _ _).trans hk)
  rw [el, er]

/-- The projection of row t onto direction d. -/
def projRow (x0 : Vec Ideal S1x1024x512 .f32) (x1 : Vec Ideal S128x512 .f32) (t : Fin 1024) (d : Fin 128) : EReal :=
  ∑ c : Fin 512, x0 (ix3 (0 : Fin 1) t c) * x1 (ix2 d c)

/-- The clamped length of row t. -/
def rowLen (x0 : Vec Ideal S1x1024x512 .f32) (x1 : Vec Ideal S128x512 .f32) (t : Fin 1024) : EReal :=
  max (Ideal.sqrt (∑ d : Fin 128, projRow x0 x1 t d * projRow x0 x1 t d)) (Ideal.ofBits .f32 0x2B8CBCCC#32)

/-- The product inside the kernel's unit rows, at an entry. -/
theorem proj_apply (x0 : Vec Ideal S1x1024x512 .f32) (x1 : Vec Ideal S128x512 .f32) (t : Fin 1024) (d : Fin 128) :
    matmul (F := Ideal) projDims none (truncf (F := Ideal) .bf16 (shapeCast S1024x512 x0 shapeCasts_S1x1024x512_S1024x512) bitsLt_bf16_f32)
        (truncf (F := Ideal) .bf16 x1 bitsLt_bf16_f32) (constant (F := Ideal) S1024x128 .f32 0x00000000#32) (ix2 t d)
      = projRow x0 x1 t d := by
  refine (matmul_rows _ _ t d).trans ?_
  unfold projRow
  refine Finset.sum_congr rfl fun c _ => ?_
  refine congrArg₂ (· * ·) ?_ rfl
  exact shapeCast_1ab_ab_apply x0 _ t c

/-- The unit rows at an entry. -/
theorem unit_rows_apply (x0 : Vec Ideal S1x1024x512 .f32) (x1 : Vec Ideal S128x512 .f32) (t : Fin 1024) (d : Fin 128) :
    k1_pay2 x0 x1 (ix2 t d) = Ideal.div (projRow x0 x1 t d) (rowLen x0 x1 t) := by
  unfold k1_pay2
  refine (divf_apply _ _ _).trans ?_
  refine congrArg₂ Ideal.div (proj_apply x0 x1 t d) ?_
  refine (broadcastTo_a1_ab_apply _ _ t d).trans ?_
  refine (maximumf_apply _ _ _).trans ?_
  unfold rowLen
  refine congrArg₂ max ?_ rfl
  show Ideal.sqrt _ = Ideal.sqrt _
  refine congrArg Ideal.sqrt ?_
  refine (shapeCast_a_a1_apply _ _ t 0).trans ?_
  refine (multiReduction_add_axis1_apply _ _ _ _ t).trans ?_
  refine Finset.sum_congr rfl fun d' _ => ?_
  refine (mulf_apply _ _ _).trans ?_
  exact congrArg₂ (· * ·) (proj_apply x0 x1 t d') (proj_apply x0 x1 t d')

end Cert.KernelIdeal.BandKernel

end
-- ==== Proof.Spec.lean ====
/-
  The result both programs compute, written once as a function of the four argument arrays
  x : [4, 512, 1024, 8, 8], W_proj : [128, 512], W_fc : [128, 101], b_fc : [128], on the extended reals.

  feat b t c   = (sum over the 64 entries (h, w) of x b c t h w) * (1/64)
  proj b t d   = sum over c of feat b t c * W_proj d c
  nrm b t      = max (sqrt (sum over d of (proj b t d)^2)) eps
  unit b t d   = proj b t d / nrm b t                      (the projected row, scaled to unit length)
  padded b j d = unit b (j - 50) d  when 50 <= j < 1074, and 0 otherwise   (fifty zero rows before and after)
  band b t l   = sum over d of unit b t d * padded b (t + l) d              (the l-th diagonal of the similarity)
  out b t o    = max ((sum over l < 101 of band b t l * W_fc o l) + b_fc o) 0

  Every stage after the first is stated over the feature table (a function of b, t, c), so that a program which
  forms the features in one step and the band in another can be read one step at a time.
-/
import Idealize.ShloMosaic.PureOps.Ideal
import Idealize.ShloMosaic.Lib.ValueIdx

noncomputable section

namespace Cert.BandSpec

open Idealize.ShloMosaic Idealize.ShloMosaic.ValueIdx

abbrev SX : Shape := ⟨5, ![4, 512, 1024, 8, 8]⟩
abbrev SWp : Shape := ⟨2, ![128, 512]⟩
abbrev SWf : Shape := ⟨2, ![128, 101]⟩
abbrev SBias : Shape := ⟨1, ![128]⟩
abbrev SOut : Shape := ⟨3, ![4, 1024, 128]⟩

/-- The feature table's type: batch, time step, channel. -/
abbrev Feat : Type := Fin 4 → Fin 1024 → Fin 512 → EReal

/-- The lower clamp of the norm, the single-precision word both programs spell for 1e-12. -/
def eps : EReal := Ideal.ofBits .f32 0x2B8CBCCC#32

/-- The mean of the 64 spatial entries. -/
def feat (x : SX.Idx → EReal) : Feat := fun b t c =>
  (∑ h : Fin 8, ∑ w : Fin 8, x (ix5 b c t h w)) * ((1 / 64 : ℝ) : EReal)

/-- The projection of a time step's features onto the 128 similarity directions. -/
def proj (ft : Feat) (wp : SWp.Idx → EReal) (b : Fin 4) (t : Fin 1024) (d : Fin 128) : EReal :=
  ∑ c : Fin 512, ft b t c * wp (ix2 d c)

/-- The Euclidean length of a projected row, clamped below by eps. -/
def nrm (ft : Feat) (wp : SWp.Idx → EReal) (b : Fin 4) (t : Fin 1024) : EReal :=
  max (Ideal.sqrt (∑ d : Fin 128, proj ft wp b t d * proj ft wp b t d)) eps

/-- The projected row divided by its clamped length. -/
def unit (ft : Feat) (wp : SWp.Idx → EReal) (b : Fin 4) (t : Fin 1024) (d : Fin 128) : EReal :=
  Ideal.div (proj ft wp b t d) (nrm ft wp b t)

/-- The unit rows with fifty zero rows before the first and after the last: row j of the padded table is
    time step j - 50 when that is a time step, and zero otherwise. -/
def padded (ft : Feat) (wp : SWp.Idx → EReal) (b : Fin 4) (j : ℕ) (d : Fin 128) : EReal :=
  if h : 50 ≤ j ∧ j < 1074 then unit ft wp b ⟨j - 50, by omega⟩ d else 0

/-- The l-th entry of the band at time t: the inner product of row t with row t + l - 50, zero outside the table. -/
def band (ft : Feat) (wp : SWp.Idx → EReal) (b : Fin 4) (t : Fin 1024) (l : ℕ) : EReal :=
  ∑ d : Fin 128, unit ft wp b t d * padded ft wp b (t.val + l) d

/-- The result from the feature table: the band through the fully connected layer, the bias added, clamped
    below at zero. -/
def outF (ft : Feat) (wp : SWp.Idx → EReal) (wf : SWf.Idx → EReal) (bias : SBias.Idx → EReal) :
    SOut.Idx → EReal := fun i =>
  max ((∑ l : Fin 101, band ft wp (i 0) (i 1) l.val * wf (ix2 (i 2) l)) + bias (ix1 (i 2))) 0

/-- The result array as a function of the four arguments. -/
def out (x : SX.Idx → EReal) (wp : SWp.Idx → EReal) (wf : SWf.Idx → EReal) (bias : SBias.Idx → EReal) :
    SOut.Idx → EReal := outF (feat x) wp wf bias

end Cert.BandSpec

end
-- ==== Proof.BandBridge.lean ====
/-
  The kernel's value for one batch entry is the specified one.

  For batch entry b the kernel's unit rows R are the specification's unit rows of that entry: the same projection of
  the same features, the same clamped length, the same quotient. Its table T is R with zero rows around it, so row j
  of T is the specification's padded row j. Hence the row sum of R times rows l .. l + 1023 of T is, at row t, the
  sum over d of unit t d * padded (t + l) d, the l-th entry of the band; the weight the kernel multiplies it by is
  the fully connected weight (o, l), stored transposed; and the 101 diagonals add up to the specification's sum over
  l. The bias and the clamp at zero are the specification's last line.
-/
import proofs.«109527_j2748779070177_2_alg».proof.Proof.BandLoads
import proofs.«109527_j2748779070177_2_alg».proof.Proof.BandRows
import proofs.«109527_j2748779070177_2_alg».proof.Proof.Spec

noncomputable section

namespace Cert.KernelIdeal.BandKernel

open Idealize.ShloMosaic Idealize.ShloMosaic.ValueIdx Cert.KernelIdeal Cert.KernelIdeal.Gen

/-- The kernel's projection of row t is the specification's, for the batch entry whose features the block holds. -/
theorem projRow_eq_proj (x0 : Vec Ideal S1x1024x512 .f32) (x1 : Vec Ideal S128x512 .f32) (ft : Cert.BandSpec.Feat)
    (wp : Cert.BandSpec.SWp.Idx → EReal) (b : Fin 4)
    (hx0 : ∀ (t : Fin 1024) (ch : Fin 512), x0 (ix3 (0 : Fin 1) t ch) = ft b t ch) (hx1 : x1 = wp)
    (t : Fin 1024) (d : Fin 128) : projRow x0 x1 t d = Cert.BandSpec.proj ft wp b t d := by
  unfold projRow Cert.BandSpec.proj
  refine Finset.sum_congr rfl fun c _ => ?_
  rw [hx0, hx1]

/-- The clamped lengths agree: the clamp is the same word on both sides. -/
theorem rowLen_eq_nrm (x0 : Vec Ideal S1x1024x512 .f32) (x1 : Vec Ideal S128x512 .f32) (ft : Cert.BandSpec.Feat)
    (wp : Cert.BandSpec.SWp.Idx → EReal) (b : Fin 4)
    (hx0 : ∀ (t : Fin 1024) (ch : Fin 512), x0 (ix3 (0 : Fin 1) t ch) = ft b t ch) (hx1 : x1 = wp)
    (t : Fin 1024) : rowLen x0 x1 t = Cert.BandSpec.nrm ft wp b t := by
  unfold rowLen Cert.BandSpec.nrm Cert.BandSpec.eps
  have h : ∀ d : Fin 128, projRow x0 x1 t d = Cert.BandSpec.proj ft wp b t d :=
    fun d => projRow_eq_proj x0 x1 ft wp b hx0 hx1 t d
  simp only [h]

/-- The kernel's unit rows are the specification's. -/
theorem unit_rows_eq_unit (x0 : Vec Ideal S1x1024x512 .f32) (x1 : Vec Ideal S128x512 .f32) (ft : Cert.BandSpec.Feat)
    (wp : Cert.BandSpec.SWp.Idx → EReal) (b : Fin 4)
    (hx0 : ∀ (t : Fin 1024) (ch : Fin 512), x0 (ix3 (0 : Fin 1) t ch) = ft b t ch) (hx1 : x1 = wp)
    (t : Fin 1024) (d : Fin 128) : k1_pay2 x0 x1 (ix2 t d) = Cert.BandSpec.unit ft wp b t d := by
  rw [unit_rows_apply, projRow_eq_proj x0 x1 ft wp b hx0 hx1, rowLen_eq_nrm x0 x1 ft wp b hx0 hx1]
  rfl

/-- Row j of the table built from the unit rows is the specification's padded row j. -/
theorem paddedTable_eq_padded (R : FVec Ideal S1024x128 .f32) (ft : Cert.BandSpec.Feat) (wp : Cert.BandSpec.SWp.Idx → EReal)
    (b : Fin 4) (hR : ∀ (t : Fin 1024) (d : Fin 128), R (ix2 t d) = Cert.BandSpec.unit ft wp b t d)
    (j : Fin 1152) (d : Fin 128) : paddedTable R (ix2 j d) = Cert.BandSpec.padded ft wp b j.val d := by
  unfold paddedTable Cert.BandSpec.padded
  by_cases h : 50 ≤ j.val ∧ j.val < 1074
  · rw [dif_pos (show 50 ≤ ((ix2 j d : S1152x128.Idx) 0).val ∧ ((ix2 j d : S1152x128.Idx) 0).val < 1074 from h), dif_pos h]
    exact hR ⟨j.val - 50, by omega⟩ d
  · rw [dif_neg (show ¬(50 ≤ ((ix2 j d : S1152x128.Idx) 0).val ∧ ((ix2 j d : S1152x128.Idx) 0).val < 1074) from h), dif_neg h]

/-- The row sum of the unit rows times rows l .. l + 1023 of the table is the l-th entry of the band. -/
theorem rowSum_eq_band (R : FVec Ideal S1024x128 .f32) (ft : Cert.BandSpec.Feat) (wp : Cert.BandSpec.SWp.Idx → EReal)
    (b : Fin 4) (hR : ∀ (t : Fin 1024) (d : Fin 128), R (ix2 t d) = Cert.BandSpec.unit ft wp b t d)
    (l : ℕ) (hl : l < 101) (t : Fin 1024) :
    rowSum (mulf R (rowsAt (paddedTable R) l)) t = Cert.BandSpec.band ft wp b t l := by
  unfold rowSum Cert.BandSpec.band
  refine Finset.sum_congr rfl fun d _ => ?_
  refine (mulf_apply _ _ _).trans ?_
  refine congrArg₂ (· * ·) (hR t d) ?_
  have hb : l + t.val < 1152 := by have := t.isLt; omega
  unfold rowsAt
  rw [dif_pos (show l + ((ix2 t d : S1024x128.Idx) 0).val < 1152 from hb)]
  refine (paddedTable_eq_padded R ft wp b hR ⟨l + t.val, hb⟩ d).trans ?_
  show Cert.BandSpec.padded ft wp b (l + t.val) d = Cert.BandSpec.padded ft wp b (t.val + l) d
  rw [Nat.add_comm]

/-- The weight of diagonal l at column o is the fully connected weight (o, l): the kernel holds them transposed. -/
theorem wAt_eq (x2 : Vec Ideal S101x128 .f32) (wf : Cert.BandSpec.SWf.Idx → EReal)
    (hx2 : ∀ (l : Fin 101) (o : Fin 128), x2 (ix2 l o) = wf (ix2 o l)) (l : Fin 101) (o : Fin 128) :
    wAt (k1_pay5 x2) l.val o = wf (ix2 o l) := by
  unfold wAt
  rw [dif_pos l.isLt]
  unfold k1_pay5
  refine (congrFun (shapeCast_self _ _) _).trans ?_
  exact hx2 l o

/-- The 101 diagonals add up to the band through the fully connected layer. -/
theorem partialSum_eq (x0 : Vec Ideal S1x1024x512 .f32) (x1 : Vec Ideal S128x512 .f32) (x2 : Vec Ideal S101x128 .f32)
    (ft : Cert.BandSpec.Feat) (wp : Cert.BandSpec.SWp.Idx → EReal) (wf : Cert.BandSpec.SWf.Idx → EReal) (b : Fin 4)
    (hx0 : ∀ (t : Fin 1024) (ch : Fin 512), x0 (ix3 (0 : Fin 1) t ch) = ft b t ch) (hx1 : x1 = wp)
    (hx2 : ∀ (l : Fin 101) (o : Fin 128), x2 (ix2 l o) = wf (ix2 o l)) (t : Fin 1024) (o : Fin 128) :
    partialSum (k1_pay2 x0 x1) (k1_pay5 x2) (paddedTable (k1_pay2 x0 x1)) 101 t o
      = ∑ l : Fin 101, Cert.BandSpec.band ft wp b t l.val * wf (ix2 o l) := by
  unfold partialSum
  refine (Fin.sum_univ_eq_sum_range (fun l => term (k1_pay2 x0 x1) (k1_pay5 x2) (paddedTable (k1_pay2 x0 x1)) l t o) 101).symm.trans ?_
  refine Finset.sum_congr rfl fun l _ => ?_
  unfold term
  rw [rowSum_eq_band (k1_pay2 x0 x1) ft wp b (unit_rows_eq_unit x0 x1 ft wp b hx0 hx1) l.val l.isLt t, wAt_eq x2 wf hx2 l o]

/-- The kernel's value at (t, o) of the block of batch entry b is the specified result at (b, t, o). -/
theorem block_value_eq_spec (x0 : Vec Ideal S1x1024x512 .f32) (x1 : Vec Ideal S128x512 .f32) (x2 : Vec Ideal S101x128 .f32)
    (x3 : Vec Ideal S1x128 .f32) (ft : Cert.BandSpec.Feat) (wp : Cert.BandSpec.SWp.Idx → EReal)
    (wf : Cert.BandSpec.SWf.Idx → EReal) (bias : Cert.BandSpec.SBias.Idx → EReal) (b : Fin 4)
    (hx0 : ∀ (t : Fin 1024) (ch : Fin 512), x0 (ix3 (0 : Fin 1) t ch) = ft b t ch) (hx1 : x1 = wp)
    (hx2 : ∀ (l : Fin 101) (o : Fin 128), x2 (ix2 l o) = wf (ix2 o l))
    (hx3 : ∀ o : Fin 128, x3 (ix2 (0 : Fin 1) o) = bias (ix1 o)) (t : Fin 1024) (o : Fin 128) :
    max (partialSum (k1_pay2 x0 x1) (k1_pay5 x2) (paddedTable (k1_pay2 x0 x1)) 101 t o + x3 (ix2 (0 : Fin 1) o)) 0
      = Cert.BandSpec.outF ft wp wf bias (ix3 b t o) := by
  rw [partialSum_eq x0 x1 x2 ft wp wf b hx0 hx1 hx2 t o, hx3]
  rfl

end Cert.KernelIdeal.BandKernel

end
-- ==== Proof.Consts.lean ====
/-
  The three single-precision words whose values the proof uses, as the extended reals they denote:
  1/64 (the kernel's factor of the mean), 64 (the reference's divisor of the mean), and zero.
-/
import Idealize.ShloMosaic.PureOps.Ideal

noncomputable section

namespace Cert.BandConsts

open Idealize.ShloMosaic

/-- The word 0x3C800000 is 2^(-6) = 1/64. -/
theorem ofBits_inv64 : Ideal.ofBits .f32 0x3C800000#32 = ((1 / 64 : ℝ) : EReal) := by
  simp [Ideal.ofBits, Ideal.ieee, -EReal.coe_mul]; norm_num

/-- The word 0x42800000 is 2^6 = 64. -/
theorem ofBits_64 : Ideal.ofBits .f32 0x42800000#32 = ((64 : ℝ) : EReal) := by
  simp [Ideal.ofBits, Ideal.ieee, -EReal.coe_mul]; norm_num

/-- The all-zero word is 0. -/
theorem ofBits_zero : Ideal.ofBits .f32 0x00000000#32 = 0 := by
  simp [Ideal.ofBits, Ideal.ieee]

end Cert.BandConsts

end
-- ==== Proof.KernRun.lean ====
/-
  The kernel's run with its result named.  Every weakly fair execution of the idealized kernel's @main ends, without
  a fault, in a state where the result buffer holds what the second region's write-backs leave of its output array,
  and the four argument arrays hold what they held at launch.
-/
import proofs.«109527_j2748779070177_2_alg».proof.Proof.Gen.KernelIdeal.Frame
import proofs.«109527_j2748779070177_2_alg».proof.Proof.Spec
import proofs.«109527_j2748779070177_2_alg».proof.Proof.Consts

set_option maxRecDepth 16384

noncomputable section

namespace Cert.KernelIdeal.BandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the result buffer ends at the second region's output array after its last write-back, and the
    argument arrays end as launched.  The last thread state holds every unscoped buffer at the contents after the
    second region; the result buffer is that region's output array, and the arguments are read back to the launch. -/
theorem run_named : θ_run (defs (F := Ideal)) (onTc (τ := τ) (main (F := Ideal))) ⟨m, fun _ => 0, ρ⟩ (fun r => ∀ c : Dev nD,
      r.2.mem ((c.tc : Thread nD τ).loc main_v5) = (Gen.dat1 (Gen.V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.BandRun

end
-- ==== Proof.KernGlue.lean ====
/-
  The arrays the kernel's two regions read, as the host operations around them leave them, read at an index.
-/
import proofs.«109527_j2748779070177_2_alg».proof.Proof.Gen.KernelIdeal.Frame
import proofs.«109527_j2748779070177_2_alg».proof.Proof.Spec
import proofs.«109527_j2748779070177_2_alg».proof.Proof.Consts
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.BandRun

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal.Gen

variable (m : (ℓ : Loc nD τ sig) → Buf (Elt Ideal) ℓ) (ρ : Dev nD → PrngReg)

/-! ## The buffers the two regions find, as the host operations leave them

Before the first region the input is viewed with its two spatial axes merged into one axis of 64 entries; between the
regions the table of means is transposed to put the time step before the channel, the last layer's weights are
transposed, and the bias gains a leading unit axis.  Each is read here at an index. -/

/-- The first region's input array is the input viewed with its last two axes merged. -/
theorem V1_v0_eq (c : Dev nD) :
    (Gen.V1 m ρ c main_v0 : S4x512x1024x64.Idx → EReal)
      = shapeCast S4x512x1024x64 (m ((c.tc : Thread nD τ).loc main_arg0) : S4x512x1024x8x8.Idx → EReal) shapeCasts_S4x512x1024x8x8_S4x512x1024x64 := by
  show StableHlo.after hostOps0 (W0 m ρ c) (Proc.devRef .tc main_v0) = _
  after_results
  rfl

/-- Entry k of the merged axis is the spatial entry (k / 8, k % 8). -/
theorem V1_v0 (c : Dev nD) (b : Fin 4) (ch : Fin 512) (t : Fin 1024) (k : Fin 64) :
    (Gen.V1 m ρ c main_v0 : S4x512x1024x64.Idx → EReal) (ix4 b ch t k)
      = (m ((c.tc : Thread nD τ).loc main_arg0) : S4x512x1024x8x8.Idx → EReal)
          (ix5 b ch t ⟨k.val / 8, by omega⟩ ⟨k.val % 8, by omega⟩) := by
  rw [V1_v0_eq]
  refine shapeCast_apply _ _ _ _ ?_
  show (S4x512x1024x8x8.rowMajor (ix5 b ch t ⟨k.val / 8, by omega⟩ ⟨k.val % 8, by omega⟩)).val = (S4x512x1024x64.rowMajor (ix4 b ch t k)).val
  rw [Shape.rowMajor_val_five, Shape.rowMajor_val_four]
  show (((b.val * 512 + ch.val) * 1024 + t.val) * 8 + k.val / 8) * 8 + k.val % 8 = ((b.val * 512 + ch.val) * 1024 + t.val) * 64 + k.val
  omega

/-- The second region's first input array is the first region's output array, transposed in its last two axes. -/
theorem V3_v2_eq (c : Dev nD) :
    (Gen.V3 m ρ c main_v2 : S4x1024x512.Idx → EReal)
      = transpose S4x1024x512 [0, 2, 1] ((Gen.dat0 (Gen.V1 m ρ) c).arrAt 1 cfg0.N : S4x512x1024.Idx → EReal) transposes_S4x512x1024_S4x1024x512_0_2_1 := by
  show StableHlo.after hostOps1 (W2 m ρ c) (Proc.devRef .tc main_v2) = _
  after_results
  exact congrArg (fun x : S4x512x1024.Idx → EReal => transpose S4x1024x512 [0, 2, 1] x transposes_S4x512x1024_S4x1024x512_0_2_1) (W2_arr m ρ c 1)

/-- Its entry at (batch, time, channel) is the first region's output at (batch, channel, time). -/
theorem V3_v2 (c : Dev nD) (b : Fin 4) (t : Fin 1024) (ch : Fin 512) :
    (Gen.V3 m ρ c main_v2 : S4x1024x512.Idx → EReal) (ix3 b t ch)
      = ((Gen.dat0 (Gen.V1 m ρ) c).arrAt 1 cfg0.N : S4x512x1024.Idx → EReal) (ix3 b ch t) := by
  rw [V3_v2_eq]
  refine transpose_apply _ _ _ _ _ fun a => ?_
  match a with
  | ⟨0, _⟩ => rfl
  | ⟨1, _⟩ => rfl
  | ⟨2, _⟩ => rfl

/-- The projection weights reach the second region as launched. -/
theorem V3_arg1 (c : Dev nD) : Gen.V3 m ρ c main_arg1 = m ((c.tc : Thread nD τ).loc main_arg1) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

/-- The last layer's weights reach the second region transposed. -/
theorem V3_v3_eq (c : Dev nD) :
    (Gen.V3 m ρ c main_v3 : S101x128.Idx → EReal)
      = transpose S101x128 [1, 0] (m ((c.tc : Thread nD τ).loc main_arg2) : S128x101.Idx → EReal) transposes_S128x101_S101x128_1_0 := by
  show StableHlo.after hostOps1 (W2 m ρ c) (Proc.devRef .tc main_v3) = _
  after_results
  rw [W2_of_ne m ρ c main_arg2 (by decide)]
  show transpose S101x128 [1, 0] (StableHlo.after hostOps0 (W0 m ρ c) (Proc.devRef .tc main_arg2)) _ = _
  after_results

theorem V3_v3 (c : Dev nD) (l : Fin 101) (o : Fin 128) :
    (Gen.V3 m ρ c main_v3 : S101x128.Idx → EReal) (ix2 l o)
      = (m ((c.tc : Thread nD τ).loc main_arg2) : S128x101.Idx → EReal) (ix2 o l) := by
  rw [V3_v3_eq]
  refine transpose_apply _ _ _ _ _ fun a => ?_
  match a with
  | ⟨0, _⟩ => rfl
  | ⟨1, _⟩ => rfl

/-- The bias reaches the second region with a leading unit axis. -/
theorem V3_v4_eq (c : Dev nD) :
    (Gen.V3 m ρ c main_v4 : S1x128.Idx → EReal)
      = shapeCast S1x128 (m ((c.tc : Thread nD τ).loc main_arg3) : S128.Idx → EReal) shapeCasts_S128_S1x128 := by
  show StableHlo.after hostOps1 (W2 m ρ c) (Proc.devRef .tc main_v4) = _
  after_results
  rw [W2_of_ne m ρ c main_arg3 (by decide)]
  show (fun i => shapeCast S1x128 (StableHlo.after hostOps0 (W0 m ρ c) (Proc.devRef .tc main_arg3)) _ i) = _
  after_results

theorem V3_v4 (c : Dev nD) (o : Fin 128) :
    (Gen.V3 m ρ c main_v4 : S1x128.Idx → EReal) (ix2 (0 : Fin 1) o)
      = (m ((c.tc : Thread nD τ).loc main_arg3) : S128.Idx → EReal) (ix1 o) := by
  rw [V3_v4_eq]
  refine shapeCast_apply _ _ _ _ ?_
  show (S128.rowMajor (ix1 o)).val = (S1x128.rowMajor (ix2 (0 : Fin 1) o)).val
  rw [Shape.rowMajor_val_one, Shape.rowMajor_val_two]
  show o.val = 0 * 128 + o.val
  omega

end Cert.KernelIdeal.BandRun

end
-- ==== Proof.KernMean.lean ====
/-
  The kernel's first region.  Its grid of 4 x 4 x 8 points cuts the [4, 512, 1024, 64] input into blocks of
  [1, 128, 128, 64] and the [4, 512, 1024] output into blocks of [1, 128, 128]; at each point the body sums each row
  of 64 lanes of the input block and multiplies by the word for 1/64.  So the output array, after the last write-back,
  is the table of row means of the input array.
-/
import proofs.«109527_j2748779070177_2_alg».proof.Proof.Gen.KernelIdeal.Frame
import proofs.«109527_j2748779070177_2_alg».proof.Proof.Spec
import proofs.«109527_j2748779070177_2_alg».proof.Proof.Consts
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.BandRun

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal.Gen

variable (m : (ℓ : Loc nD τ sig) → Buf (Elt Ideal) ℓ) (ρ : Dev nD → PrngReg)

/-- The mean of each row of 64 entries of a [4, 512, 1024, 64] array: the row's sum times the word for 1/64. -/
def meanRows (a : S4x512x1024x64.Idx → EReal) : S4x512x1024.Idx → EReal := fun i =>
  (∑ k : Fin 64, a (ix4 (n0 := 4) (n1 := 512) (n2 := 1024) (n3 := 64) (i 0) (i 1) (i 2) k)) * Ideal.ofBits .f32 0x3C800000#32

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index of the block's row (o, p, q) with lane k inserted on the reduced axis. -/
theorem lift_row (o : Fin 1) (p q : Fin 128) (k : Fin 64) :
    reduces_S1x128x128x64_S1x128x128.lift (ix3 o p q) k = ix4 o p q k := by
  funext a
  apply Fin.ext
  match a with
  | ⟨0, _⟩ => rfl
  | ⟨1, _⟩ => rfl
  | ⟨2, _⟩ => rfl
  | ⟨3, _⟩ => rfl

/-- What the body stores at (o, p, q): the sum of the block's row (o, p, q) over its 64 lanes, times the word for 1/64. -/
theorem pay_row (x0 : Vec Ideal S1x128x128x64 .f32) (o : Fin 1) (p q : Fin 128) :
    k0_pay1 (F := Ideal) x0 (ix3 o p q) = (∑ k : Fin 64, x0 (ix4 o p q k)) * Ideal.ofBits .f32 0x3C800000#32 := by
  unfold k0_pay1
  rw [shapeCast_self]
  refine congrArg₂ (· * ·) ?_ rfl
  refine (Ideal.multiReduction_add_single x0 0x00000000#32 reduces_S1x128x128x64_S1x128x128 (.inl rfl) rfl (ix3 o p q)).trans ?_
  exact Finset.sum_congr rfl fun k _ => congrArg x0 (lift_row o p q k)

/-- A block whose rows are rows of the array A stores, at y, the mean of A's row: the body's arithmetic at one
    entry, with the block's entries named through the array's. -/
theorem block_mean (A : S4x512x1024x64.Idx → EReal) (x0 : Vec Ideal S1x128x128x64 .f32) (y : S1x128x128.Idx)
    (i : S4x512x1024.Idx)
    (hx : ∀ k : Fin 64, x0 (ix4 (n0 := 1) (n1 := 128) (n2 := 128) (n3 := 64) (y 0) (y 1) (y 2) k)
      = A (ix4 (n0 := 4) (n1 := 512) (n2 := 1024) (n3 := 64) (i 0) (i 1) (i 2) k)) :
    k0_pay1 (F := Ideal) x0 y = meanRows A i := by
  obtain ⟨o, p, q, rfl⟩ : ∃ (o : Fin 1) (p q : Fin 128), y = ix3 o p q := ⟨y 0, y 1, y 2, eq_ix3 y⟩
  rw [pay_row]
  unfold meanRows
  exact congrArg₂ (· * ·) (Finset.sum_congr rfl fun k _ => hx k) rfl

section Region0
variable (V : (c : Dev nD) → (b : Ref sig .tc) → Buf (Elt Ideal) ((c : Thread nD τ).loc b))

/-- The two windows move together: at every grid point the input's block index is the output's on the three
    shared axes and 0 on the lane axis, and the output's block indices range over [4, 4, 8]. -/
theorem idx_facts0 : ∀ t : Fin cfg0.N, win0_0.index t (0 : Fin 4) = win0_1.index t (0 : Fin 3)
    ∧ win0_0.index t (1 : Fin 4) = win0_1.index t (1 : Fin 3)
    ∧ win0_0.index t (2 : Fin 4) = win0_1.index t (2 : Fin 3)
    ∧ win0_0.index t (3 : Fin 4) = 0
    ∧ win0_1.index t (0 : Fin 3) ≤ 3
    ∧ win0_1.index t (1 : Fin 3) ≤ 3
    ∧ win0_1.index t (2 : Fin 3) ≤ 7 :=
  (by decide +kernel : ∀ t : Fin grid0.N, _)

/-- Every block of the output array is some grid point's. -/
theorem idx_onto0 : ∀ (q0 : Fin 4) (q1 : Fin 4) (q2 : Fin 8), ∃ t : Fin cfg0.N, win0_1.index t = ![q0.val, q1.val, q2.val] :=
  (by decide +kernel : ∀ (q0 : Fin 4) (q1 : Fin 4) (q2 : Fin 8), ∃ t : Fin grid0.N, win0_1.index t = ![q0.val, q1.val, q2.val])

/-- What grid point t writes back is block t of the table of row means of the region's input array. -/
theorem flushed0_eq (c : Dev nD) (t : Fin cfg0.N) :
    (Gen.dat0 V c).flushed 1 t = ((cfg0.win 1).blk t).view.read (Elt Ideal) (meanRows (V c main_v0)) := by
  show (cfg0.win 1).cut (grid0.coords t) ((Gen.dat0 V c).after 1 t) = _
  rw [after0_1]
  unfold out0_1
  rw [View.canon_unit_zero hz3]
  simp only [View.ld_unit_zero (S := S1x128x128x64) hz4]
  obtain ⟨e0, e1, e2, e3, -, -, -⟩ := idx_facts0 t
  funext j
  show k0_pay1 (iblk0 V c 0 t) j = meanRows (V c main_v0) (((cfg0.win 1).blk t).view.emb j)
  refine block_mean (V c main_v0) _ j _ fun k => ?_
  show V c main_v0 (((cfg0.win 0).blk t).view.emb (ix4 (n0 := 1) (n1 := 128) (n2 := 128) (n3 := 64) (j 0) (j 1) (j 2) k)) = V c main_v0 _
  refine congrArg (V c main_v0) (funext fun a => Fin.ext ?_)
  match a with
  | ⟨0, _⟩ => show win0_0.index t (0 : Fin 4) * 1 + 1 * (j 0).val = win0_1.index t (0 : Fin 3) * 1 + 1 * (j 0).val; omega
  | ⟨1, _⟩ => show win0_0.index t (1 : Fin 4) * 128 + 1 * (j 1).val = win0_1.index t (1 : Fin 3) * 128 + 1 * (j 1).val; omega
  | ⟨2, _⟩ => show win0_0.index t (2 : Fin 4) * 128 + 1 * (j 2).val = win0_1.index t (2 : Fin 3) * 128 + 1 * (j 2).val; omega
  | ⟨3, _⟩ => show win0_0.index t (3 : Fin 4) * 64 + 1 * k.val = k.val; omega

/-- An index of the output array is in grid point t's block iff each coordinate is in the block's range. -/
theorem mem_blk0 (t : Fin cfg0.N) (i : S4x512x1024.Idx) :
    i ∈ ((cfg0.win 1).blk t).view.set ↔ ∀ a : Fin 3, win0_1.index t a * S1x128x128.size a ≤ (i a).val ∧ (i a).val < win0_1.index t a * S1x128x128.size a + S1x128x128.size a := by
  show i ∈ ((View.whole main_v1).slice (win0_1.rect t)).set ↔ _
  rw [View.set_slice_whole, Rect.mem_set_unit]
  exact Iff.rfl

/-- The blocks tile the output array: the entry (b, ch, t) lies in block (b, ch / 128, t / 128). -/
theorem cover0 (i : S4x512x1024.Idx) :
    ∃ t : Fin cfg0.N, (cfg0.win 1).flush t = true ∧ i ∈ ((cfg0.win 1).blk t).view.set := by
  have hi0 : (i 0).val < 4 := (i 0).isLt
  have hi1 : (i 1).val < 512 := (i 1).isLt
  have hi2 : (i 2).val < 1024 := (i 2).isLt
  obtain ⟨t, ht⟩ := idx_onto0 ⟨(i 0).val, hi0⟩ ⟨(i 1).val / 128, by omega⟩ ⟨(i 2).val / 128, by omega⟩
  have q0 : win0_1.index t (0 : Fin 3) = (i 0).val := congrFun ht 0
  have q1 : win0_1.index t (1 : Fin 3) = (i 1).val / 128 := congrFun ht 1
  have q2 : win0_1.index t (2 : Fin 3) = (i 2).val / 128 := congrFun ht 2
  refine ⟨t, flush0_1 t, ?_⟩
  rw [mem_blk0]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 128 ≤ (i 1).val ∧ (i 1).val < win0_1.index t (1 : Fin 3) * 128 + 128; omega
  | ⟨2, _⟩ => show win0_1.index t (2 : Fin 3) * 128 ≤ (i 2).val ∧ (i 2).val < win0_1.index t (2 : Fin 3) * 128 + 128; omega

/-- The first region's output array after its last write-back: the table of row means of its input array. -/
theorem mean_array (c : Dev nD) : (Gen.dat0 V c).arrAt 1 cfg0.N = meanRows (V c main_v0) :=
  (Gen.dat0 V c).arrAt_eq_of_cover 1 (meanRows (V c main_v0)) (fun t _ => flushed0_eq V c t) cover0

/-- The table of row means at an entry. -/
theorem meanRows_apply (a : S4x512x1024x64.Idx → EReal) (b : Fin 4) (ch : Fin 512) (t : Fin 1024) :
    meanRows a (ix3 b ch t) = (∑ k : Fin 64, a (ix4 b ch t k)) * Ideal.ofBits .f32 0x3C800000#32 := rfl

/-- The first region's output at (b, ch, t) is the mean of row (b, ch, t) of its input. -/
theorem mean_array_apply (c : Dev nD) (b : Fin 4) (ch : Fin 512) (t : Fin 1024) :
    ((Gen.dat0 V c).arrAt 1 cfg0.N : S4x512x1024.Idx → EReal) (ix3 b ch t) = meanRows (V c main_v0) (ix3 b ch t) := by
  rw [mean_array]

end Region0

end Cert.KernelIdeal.BandRun

end
-- ==== Proof.KernFeat.lean ====
/-
  The feature table the kernel's second region reads.  The first region leaves the table of row means of the input
  with its two spatial axes merged; the transpose between the regions puts the time step before the channel.  Lane k of
  the merged axis is the spatial entry (k / 8, k % 8), so the sum over the 64 lanes is the double sum over the 8 x 8
  spatial entries, and the word the body multiplies by is 1/64: the entry at (b, t, ch) is the mean of x b ch t.
-/
import proofs.«109527_j2748779070177_2_alg».proof.Proof.KernGlue
import proofs.«109527_j2748779070177_2_alg».proof.Proof.KernMean
import Mathlib.Algebra.BigOperators.Fin
import Mathlib.Logic.Equiv.Fin.Basic

set_option maxRecDepth 16384

noncomputable section

namespace Cert.KernelIdeal.BandRun

open Idealize.ShloMosaic Idealize.ShloMosaic.TcCoe Idealize.ShloMosaic.ValueIdx
open Idealize.SL.Sem
open Cert.KernelIdeal.Gen

/-- A sum over 64 lanes, lane k read as the pair (k / 8, k % 8), is the double sum over the 8 x 8 pairs. -/
theorem sum_lanes (f : Fin 8 → Fin 8 → EReal) :
    ∑ k : Fin 64, f ⟨k.val / 8, by omega⟩ ⟨k.val % 8, by omega⟩ = ∑ h : Fin 8, ∑ w : Fin 8, f h w := by
  rw [← Fintype.sum_prod_type']
  exact Fintype.sum_equiv (finProdFinEquiv (m := 8) (n := 8)).symm _ _ fun k => rfl

variable (m : (ℓ : Loc nD τ sig) → Buf (Elt Ideal) ℓ) (ρ : Dev nD → PrngReg)

/-- The second region's first input array is the feature table of the input. -/
theorem feat_table (c : Dev nD) (b : Fin 4) (t : Fin 1024) (ch : Fin 512) :
    (Gen.V3 m ρ c main_v2 : S4x1024x512.Idx → EReal) (ix3 b t ch)
      = Cert.BandSpec.feat (m ((c.tc : Thread nD τ).loc main_arg0)) b t ch := by
  rw [V3_v2, mean_array_apply (Gen.V1 m ρ) c b ch t, meanRows_apply]
  refine (congrArg (· * Ideal.ofBits .f32 0x3C800000#32) (Finset.sum_congr rfl fun k _ => V1_v0 m ρ c b ch t k)).trans ?_
  rw [sum_lanes (fun h w => (m ((c.tc : Thread nD τ).loc main_arg0) : S4x512x1024x8x8.Idx → EReal) (ix5 b ch t h w)),
    Cert.BandConsts.ofBits_inv64]
  rfl

end Cert.KernelIdeal.BandRun

end
-- ==== Proof.KernelValue.lean ====
/-
  The kernel's result array is the specified function of the four arguments.

  After the first region and the host's transposes and reshapes, the second region is entered with the transposed
  feature array (the mean of the 64 spatial entries, at (b, t, c)), the projection as given, the weights transposed
  and the bias as a row. Each entry of the result it leaves is the body's value for the entry's batch, which is the
  specification's value from the feature table.
-/
import proofs.«109527_j2748779070177_2_alg».proof.Proof.BandArray
import proofs.«109527_j2748779070177_2_alg».proof.Proof.BandBridge
import proofs.«109527_j2748779070177_2_alg».proof.Proof.KernRun
import proofs.«109527_j2748779070177_2_alg».proof.Proof.KernFeat

set_option maxRecDepth 16384

noncomputable section

namespace Cert.KernelIdeal.BandResult

open Idealize.ShloMosaic Idealize.ShloMosaic.ValueIdx Idealize.ShloMosaic.TcCoe Idealize.SL.Sem
open Cert.KernelIdeal Cert.KernelIdeal.Gen Cert.KernelIdeal.BandKernel Cert.KernelIdeal.BandRun

variable (m : (ℓ : Loc nD τ sig) → Buf (Elt Ideal) ℓ) (ρ : Dev nD → PrngReg)

/-- The result array after the run. -/
theorem result_array (c : Dev nD) :
    (dat1 (V3 m ρ) c).arrAt 4 cfg1.N
      = Cert.BandSpec.out (m ((c.tc : Thread nD τ).loc main_arg0)) (m ((c.tc : Thread nD τ).loc main_arg1))
          (m ((c.tc : Thread nD τ).loc main_arg2)) (m ((c.tc : Thread nD τ).loc main_arg3)) := by
  rw [band_array]
  funext i
  obtain ⟨b, t, o, rfl⟩ : ∃ (b : Fin 4) (t : Fin 1024) (o : Fin 128), i = ix3 b t o := ⟨i 0, i 1, i 2, eq_ix3 i⟩
  exact block_value_eq_spec (featBlock (V3 m ρ) c b) (V3 m ρ c main_arg1) (V3 m ρ c main_v3) (V3 m ρ c main_v4)
    (Cert.BandSpec.feat (m ((c.tc : Thread nD τ).loc main_arg0))) (m ((c.tc : Thread nD τ).loc main_arg1))
    (m ((c.tc : Thread nD τ).loc main_arg2)) (m ((c.tc : Thread nD τ).loc main_arg3)) b
    (fun t' ch => feat_table m ρ c b t' ch) (V3_arg1 m ρ c) (fun l o' => V3_v3 m ρ c l o') (fun o' => V3_v4 m ρ c o') t o

end Cert.KernelIdeal.BandResult

end
-- ==== Proof.RefMean.lean ====
/-
  The reference's first stage read at an index: the sum of a [4, 512, 1024, 8, 8] array over its last two axes,
  divided by 64 and with the channel and time axes exchanged, is the table of spatial means.

  The entries of the operand that reduce to (b, c, t) are exactly the 64 entries (b, c, t, h, w); the sum over that
  fibre is re-indexed as the double sum over h and w. Dividing by 64 is multiplying by 1/64.
-/
import proofs.«109527_j2748779070177_2_alg».proof.Proof.Gen.ReferenceIdeal.Read
import proofs.«109527_j2748779070177_2_alg».proof.Proof.Spec
import proofs.«109527_j2748779070177_2_alg».proof.Proof.Consts

noncomputable section

namespace Cert.ReferenceIdeal.RefBand

open Cert.ReferenceIdeal Cert.ReferenceIdeal.Gen Cert.ReferenceIdeal.Read Idealize.ShloMosaic Idealize.ShloMosaic.ValueIdx

/-- An entry of the operand reduces to (b, c, t) exactly when its first three coordinates are b, c, t. -/
theorem drop_ix5 (b : Fin 4) (c : Fin 512) (t : Fin 1024) (h : Fin 8) (w : Fin 8) :
    reducesTo_S4x512x1024x8x8_S4x512x1024_d3_4.drop (ix5 b c t h w) = ix3 b c t :=
  funext fun a => Fin.ext (by
    match a with
    | ⟨0, _⟩ => exact reducesTo_S4x512x1024x8x8_S4x512x1024_d3_4.drop_apply_val_of_eq (ix5 b c t h w) 0 0
    | ⟨1, _⟩ => exact reducesTo_S4x512x1024x8x8_S4x512x1024_d3_4.drop_apply_val_of_eq (ix5 b c t h w) 1 1
    | ⟨2, _⟩ => exact reducesTo_S4x512x1024x8x8_S4x512x1024_d3_4.drop_apply_val_of_eq (ix5 b c t h w) 2 2)

theorem of_drop_eq (i : S4x512x1024x8x8.Idx) (b : Fin 4) (c : Fin 512) (t : Fin 1024)
    (hi : reducesTo_S4x512x1024x8x8_S4x512x1024_d3_4.drop i = ix3 b c t) :
    ix5 b c t (i 3) (i 4) = i := by
  have h0 : (i 0).val = b.val :=
    (reducesTo_S4x512x1024x8x8_S4x512x1024_d3_4.drop_apply_val_of_eq i 0 0).symm.trans (by rw [hi])
  have h1 : (i 1).val = c.val :=
    (reducesTo_S4x512x1024x8x8_S4x512x1024_d3_4.drop_apply_val_of_eq i 1 1).symm.trans (by rw [hi])
  have h2 : (i 2).val = t.val :=
    (reducesTo_S4x512x1024x8x8_S4x512x1024_d3_4.drop_apply_val_of_eq i 2 2).symm.trans (by rw [hi])
  funext a
  match a with
  | ⟨0, _⟩ => exact Fin.ext h0.symm
  | ⟨1, _⟩ => exact Fin.ext h1.symm
  | ⟨2, _⟩ => exact Fin.ext h2.symm
  | ⟨3, _⟩ => rfl
  | ⟨4, _⟩ => rfl

/-- The sum over the two spatial axes at (b, c, t) is the double sum over h and w. -/
theorem v0_apply (x0 : (⟨S4x512x1024x8x8, .f32⟩ : BufTy).Contents (Elt Ideal)) (b : Fin 4) (c : Fin 512) (t : Fin 1024) :
    val_main_v0 (F := Ideal) x0 (ix3 b c t) = ∑ h : Fin 8, ∑ w : Fin 8, x0 (ix5 b c t h w) := by
  unfold val_main_v0
  simp only [Host.reduceAdd, Ideal.hostReduceAdd_def]
  unfold Ideal.hostReduceAdd
  rw [val_main_cst_apply, Ideal.ofBits_def, Ideal.ofBits_zero_f32, zero_add]
  refine (Finset.sum_nbij' (s := Finset.univ.filter fun i => reducesTo_S4x512x1024x8x8_S4x512x1024_d3_4.drop i = ix3 b c t)
    (t := (Finset.univ : Finset (Fin 8 × Fin 8))) (f := x0) (g := fun p => x0 (ix5 b c t p.1 p.2))
    (fun i => ((i 3 : Fin 8), (i 4 : Fin 8))) (fun p => ix5 b c t p.1 p.2)
    (fun _ _ => Finset.mem_univ _)
    (fun p _ => Finset.mem_filter.2 ⟨Finset.mem_univ _, drop_ix5 b c t p.1 p.2⟩)
    (fun i hi => of_drop_eq i b c t (Finset.mem_filter.1 hi).2)
    (fun _ _ => rfl)
    (fun i hi => congrArg x0 (of_drop_eq i b c t (Finset.mem_filter.1 hi).2).symm)).trans ?_
  exact Fintype.sum_prod_type' (fun h w => x0 (ix5 b c t h w))

/-- The transposed stage reads (b, t, c) where the untransposed one has (b, c, t). -/
theorem idx_v3 (b : Fin 4) (t : Fin 1024) (c : Fin 512) : idx_main_v3 (ix3 b t c) = ix3 b c t :=
  funext fun a => Fin.ext (by match a with | ⟨0, _⟩ => rfl | ⟨1, _⟩ => rfl | ⟨2, _⟩ => rfl)

/-- The reference's feature table is the table of spatial means: the sum divided by 64 is the sum times 1/64. -/
theorem v3_apply (x0 : (⟨S4x512x1024x8x8, .f32⟩ : BufTy).Contents (Elt Ideal)) (b : Fin 4) (t : Fin 1024) (c : Fin 512) :
    val_main_v3 (F := Ideal) x0 (ix3 b t c) = Cert.BandSpec.feat x0 b t c := by
  rw [val_main_v3_apply, idx_v3, val_main_v2_apply, v0_apply, val_main_v1_apply, val_main_cst_0_apply]
  simp only [Ideal.hostDivf_def, Ideal.ofBits_def]
  rw [Cert.BandConsts.ofBits_64, Ideal.div_coe (by norm_num)]
  rfl

end Cert.ReferenceIdeal.RefBand

end
-- ==== Proof.RefUnit.lean ====
/-
  The reference's projection, clamped length and unit rows read at an index.

  The contraction of the feature table with the projection weights over the channel axis is the projection; the
  square root of the sum of its squares over the 128 directions, clamped below, is the length; the quotient is the
  unit row.
-/
import proofs.«109527_j2748779070177_2_alg».proof.Proof.RefMean

noncomputable section

namespace Cert.ReferenceIdeal.RefBand

open Cert.ReferenceIdeal Cert.ReferenceIdeal.Gen Cert.ReferenceIdeal.Read Idealize.ShloMosaic Idealize.ShloMosaic.ValueIdx

theorem lidx_v4 (b : Fin 4) (t : Fin 1024) (d : Fin 128) (k : Fin 512) : lidx_main_v4 (ix3 b t d) k = ix3 b t k :=
  funext fun a => Fin.ext (by match a with | ⟨0, _⟩ => rfl | ⟨1, _⟩ => rfl | ⟨2, _⟩ => rfl)

theorem ridx_v4 (b : Fin 4) (t : Fin 1024) (d : Fin 128) (k : Fin 512) : ridx_main_v4 (ix3 b t d) k = ix2 d k :=
  funext fun a => Fin.ext (by match a with | ⟨0, _⟩ => rfl | ⟨1, _⟩ => rfl)

/-- The first contraction is the projection of the spatial means. -/
theorem v4_apply (x0 : (⟨S4x512x1024x8x8, .f32⟩ : BufTy).Contents (Elt Ideal)) (x1 : (⟨S128x512, .f32⟩ : BufTy).Contents (Elt Ideal))
    (b : Fin 4) (t : Fin 1024) (d : Fin 128) :
    val_main_v4 (F := Ideal) x0 x1 (ix3 b t d) = Cert.BandSpec.proj (Cert.BandSpec.feat x0) x1 b t d := by
  rw [val_main_v4_apply]
  unfold Cert.BandSpec.proj
  refine Finset.sum_congr rfl fun k _ => ?_
  rw [lidx_v4, ridx_v4, v3_apply]

theorem idx_c0v2 (b : Fin 4) (t : Fin 1024) (z : Fin 1) : idx_main_call0_v2 (ix3 b t z) = ix2 b t :=
  funext fun a => Fin.ext (by match a with | ⟨0, _⟩ => rfl | ⟨1, _⟩ => rfl)

theorem idx_c0v1 (b : Fin 4) (t : Fin 1024) (k : Fin 128) : idx_main_call0_v1 (ix2 b t) k = ix3 b t k :=
  funext fun a => Fin.ext (by match a with | ⟨0, _⟩ => rfl | ⟨1, _⟩ => rfl | ⟨2, _⟩ => rfl)

/-- The clamped length of a projected row. -/
theorem v7_apply (x0 : (⟨S4x512x1024x8x8, .f32⟩ : BufTy).Contents (Elt Ideal)) (x1 : (⟨S128x512, .f32⟩ : BufTy).Contents (Elt Ideal))
    (b : Fin 4) (t : Fin 1024) (z : Fin 1) :
    val_main_v7 (F := Ideal) x0 x1 (ix3 b t z) = Cert.BandSpec.nrm (Cert.BandSpec.feat x0) x1 b t := by
  rw [val_main_v7_apply, val_main_v5_apply, val_main_call0_v2_apply, idx_c0v2, val_main_call0_v1_apply,
    val_main_call0_cst_apply, val_main_v6_apply, val_main_cst_1_apply]
  have hs : (∑ k : Fin 128, val_main_call0_v0 (F := Ideal) x0 x1 (idx_main_call0_v1 (ix2 b t) k))
      = ∑ d : Fin 128, Cert.BandSpec.proj (Cert.BandSpec.feat x0) x1 b t d * Cert.BandSpec.proj (Cert.BandSpec.feat x0) x1 b t d :=
    Finset.sum_congr rfl fun k _ => by
      rw [idx_c0v1, val_main_call0_v0_apply, v4_apply]; rfl
  rw [hs]
  simp only [Ideal.maximumf_def, Ideal.hostUnary_sqrt_def, Ideal.ofBits_def, Ideal.ofBits_zero_f32, zero_add]
  rfl

theorem idx_v8 (b : Fin 4) (t : Fin 1024) (d : Fin 128) : idx_main_v8 (ix3 b t d) = ix3 b t (0 : Fin 1) :=
  funext fun a => Fin.ext (by match a with | ⟨0, _⟩ => rfl | ⟨1, _⟩ => rfl | ⟨2, _⟩ => rfl)

/-- The unit rows. -/
theorem v9_apply (x0 : (⟨S4x512x1024x8x8, .f32⟩ : BufTy).Contents (Elt Ideal)) (x1 : (⟨S128x512, .f32⟩ : BufTy).Contents (Elt Ideal))
    (b : Fin 4) (t : Fin 1024) (d : Fin 128) :
    val_main_v9 (F := Ideal) x0 x1 (ix3 b t d) = Cert.BandSpec.unit (Cert.BandSpec.feat x0) x1 b t d := by
  rw [val_main_v9_apply, val_main_v8_apply, idx_v8, v7_apply, v4_apply]
  rfl

end Cert.ReferenceIdeal.RefBand

end
-- ==== Proof.RefSim.lean ====
/-
  The reference's similarity table and its padded form read at an index.

  The batched contraction of the unit rows with themselves over the 128 directions is the table of inner products
  sim b t s = sum over d of unit b t d * unit b s d. Padding its last axis with fifty zeros before and after gives a
  table of width 1124 whose column j is column j - 50 of the similarity when 50 <= j < 1074 and zero otherwise.
-/
import proofs.«109527_j2748779070177_2_alg».proof.Proof.RefUnit
import Idealize.ShloMosaic.Lib.KernelVsHost

noncomputable section

namespace Cert.ReferenceIdeal.RefBand

open Cert.ReferenceIdeal Cert.ReferenceIdeal.Gen Cert.ReferenceIdeal.Read Idealize.ShloMosaic Idealize.ShloMosaic.ValueIdx

theorem lidx_v10 (b : Fin 4) (t s : Fin 1024) (k : Fin 128) : lidx_main_v10 (ix3 b t s) k = ix3 b t k :=
  funext fun a => Fin.ext (by match a with | ⟨0, _⟩ => rfl | ⟨1, _⟩ => rfl | ⟨2, _⟩ => rfl)

theorem ridx_v10 (b : Fin 4) (t s : Fin 1024) (k : Fin 128) : ridx_main_v10 (ix3 b t s) k = ix3 b s k :=
  funext fun a => Fin.ext (by match a with | ⟨0, _⟩ => rfl | ⟨1, _⟩ => rfl | ⟨2, _⟩ => rfl)

/-- The similarity of time steps t and s. -/
theorem v10_apply (x0 : (⟨S4x512x1024x8x8, .f32⟩ : BufTy).Contents (Elt Ideal)) (x1 : (⟨S128x512, .f32⟩ : BufTy).Contents (Elt Ideal))
    (b : Fin 4) (t s : Fin 1024) :
    val_main_v10 (F := Ideal) x0 x1 (ix3 b t s)
      = ∑ d : Fin 128, Cert.BandSpec.unit (Cert.BandSpec.feat x0) x1 b t d * Cert.BandSpec.unit (Cert.BandSpec.feat x0) x1 b s d := by
  rw [val_main_v10_apply]
  refine Finset.sum_congr rfl fun k _ => ?_
  rw [lidx_v10, ridx_v10, v9_apply, v9_apply]

/-- The padding value, the integer zero converted to a float, is zero. -/
theorem pad_value : val_main_call1_v0 (F := Ideal) (Shape.Idx.first h_S_) = 0 := by
  rw [val_main_call1_v0_apply, val_main_c_apply]
  show (((0#32 : BitVec 32).toInt : ℝ) : EReal) = 0
  simp

/-- A column of the padded table inside the similarity. -/
theorem v11_apply_inside (x0 : (⟨S4x512x1024x8x8, .f32⟩ : BufTy).Contents (Elt Ideal)) (x1 : (⟨S128x512, .f32⟩ : BufTy).Contents (Elt Ideal))
    (b : Fin 4) (t : Fin 1024) (j : Fin 1124) (s : Fin 1024) (hj : j.val = 50 + s.val) :
    val_main_v11 (F := Ideal) x0 x1 (ix3 b t j) = val_main_v10 (F := Ideal) x0 x1 (ix3 b t s) := by
  unfold val_main_v11
  refine pad_apply_of_inside _ _ _ _ _ pads_S4x1024x1024_S4x1024x1124_000_000_50500 h_S_ (ix3 b t j) (ix3 b t s) ?_
  intro a
  match a with
  | ⟨0, _⟩ => show b.val = 0 + b.val * (0 + 1); omega
  | ⟨1, _⟩ => show t.val = 0 + t.val * (0 + 1); omega
  | ⟨2, _⟩ => show j.val = 50 + s.val * (0 + 1); omega

/-- A column of the padded table in the first or the last fifty. -/
theorem v11_apply_outside (x0 : (⟨S4x512x1024x8x8, .f32⟩ : BufTy).Contents (Elt Ideal)) (x1 : (⟨S128x512, .f32⟩ : BufTy).Contents (Elt Ideal))
    (b : Fin 4) (t : Fin 1024) (j : Fin 1124) (hj : ¬(50 ≤ j.val ∧ j.val < 1074)) :
    val_main_v11 (F := Ideal) x0 x1 (ix3 b t j) = 0 := by
  unfold val_main_v11
  rw [pad_apply_of_not_inside _ _ _ _ _ pads_S4x1024x1024_S4x1024x1124_000_000_50500 h_S_ (ix3 b t j) (2 : Fin 3) ?_]
  · exact pad_value
  · show ¬(50 ≤ j.val ∧ (j.val - 50) % (0 + 1) = 0 ∧ (j.val - 50) / (0 + 1) < 1024)
    intro h
    apply hj
    have := h.2.2
    rw [Nat.div_one] at this
    omega

end Cert.ReferenceIdeal.RefBand

end
-- ==== Proof.RefWords.lean ====
/-
  The index words of the band. The start indices of the gather are 32-bit words computed from row and column
  counters: the row index t and the column index t + l, each passed through "add the extent if negative". For
  0 <= t < 1024 and 0 <= l < 101 both are small non-negative numbers, so as signed words they are themselves, the
  negative branch is never taken, and a clamp into [0, extent - 1] leaves them alone.
-/
import Idealize.ShloMosaic.PureOps.Ideal
import Idealize.ShloMosaic.Lib.ValueIdx

namespace Cert.ReferenceIdeal.RefBand

open Idealize.ShloMosaic Idealize.ShloMosaic.ValueIdx

/-- A number below 2^31, as a 32-bit word read signed, is itself. -/
theorem toInt_ofNat_small (n : ℕ) (hn : n < 2147483648) : (BitVec.ofNat 32 n).toInt = (n : ℤ) := by
  rw [BitVec.toInt_eq_toNat_cond, BitVec.toNat_ofNat]
  have h : n % 2 ^ 32 = n := Nat.mod_eq_of_lt (by omega)
  rw [h, if_pos (by omega)]

/-- Such a word is not negative. -/
theorem slt_zero_ofNat (n : ℕ) (hn : n < 2147483648) : IntOp.cmpi .slt (BitVec.ofNat 32 n) 0#32 = 0#1 := by
  have h : (BitVec.ofNat 32 n).slt 0#32 = false := by
    rw [BitVec.slt, toInt_ofNat_small n hn]
    simp
  unfold IntOp.cmpi
  simp only [h]
  rfl

/-- "Add the extent if negative" leaves a small non-negative word alone. -/
theorem wrap_ofNat (n : ℕ) (hn : n < 2147483648) (e : BitVec 32) :
    Scalar.select (IntOp.cmpi .slt (BitVec.ofNat 32 n) 0#32) (IntOp.addi (BitVec.ofNat 32 n) e) (BitVec.ofNat 32 n)
      = BitVec.ofNat 32 n := by
  rw [slt_zero_ofNat n hn, select_zero]

/-- The sum of the row counter and the offset counter, as words, is the word of the sum. -/
theorem addi_ofNat (t l : ℕ) : IntOp.addi (BitVec.ofNat 32 t) (BitVec.ofNat 32 l) = BitVec.ofNat 32 (t + l) := by
  unfold IntOp.addi
  exact (BitVec.ofNat_add t l).symm

/-- Read signed, turned into a natural number and clamped to at most `m`, a small word at most `m` is itself. -/
theorem clamp_ofNat (n m : ℕ) (hn : n < 2147483648) (hm : n ≤ m) : min (BitVec.ofNat 32 n).toInt.toNat m = n := by
  rw [toInt_ofNat_small n hn, Int.toNat_natCast]
  exact Nat.min_eq_left hm

end Cert.ReferenceIdeal.RefBand
-- ==== Proof.RefIndex.lean ====
/-
  The start indices of the gather read at an index: the array of index pairs holds, at (t, l), the row index t and
  the column index t + l, as 32-bit words.

  Both come from counters along an axis, broadcast to [1024, 101]; each goes through "add the extent if negative",
  which does nothing to these small non-negative numbers; the two are then joined along a new last axis.
-/
import proofs.«109527_j2748779070177_2_alg».proof.Proof.Gen.ReferenceIdeal.Read
import proofs.«109527_j2748779070177_2_alg».proof.Proof.RefWords

noncomputable section

namespace Cert.ReferenceIdeal.RefBand

open Cert.ReferenceIdeal Cert.ReferenceIdeal.Gen Cert.ReferenceIdeal.Read Idealize.ShloMosaic Idealize.ShloMosaic.ValueIdx

variable {F : FTy → Type} [FloatOps F]

theorem idx_v20 (t : Fin 1024) (z : Fin 1) : idx_main_v20 (ix2 t z) = ix1 t :=
  funext fun a => Fin.ext (by match a with | ⟨0, _⟩ => rfl)

/-- The row counter, as a column. -/
theorem v20_apply (t : Fin 1024) (z : Fin 1) : val_main_v20 (F := F) (ix2 t z) = BitVec.ofNat 32 t.val := by
  rw [val_main_v20_apply, idx_v20, val_main_v19_apply]

/-- The row index after "add 1024 if negative" is the row counter. -/
theorem v25_apply (t : Fin 1024) (z : Fin 1) : val_main_v25 (F := F) (ix2 t z) = BitVec.ofNat 32 t.val := by
  rw [val_main_v25_apply, val_main_v22_apply, val_main_v24_apply, v20_apply, val_main_v21_apply, val_main_c_2_apply]
  exact wrap_ofNat t.val (by have := t.isLt; omega) _

theorem idx_v16 (t : Fin 1024) (l : Fin 101) : idx_main_v16 (ix2 t l) = ix2 t (0 : Fin 1) :=
  funext fun a => Fin.ext (by match a with | ⟨0, _⟩ => rfl | ⟨1, _⟩ => rfl)

theorem idx_v13 (t : Fin 1024) (z : Fin 1) : idx_main_v13 (ix2 t z) = ix1 t :=
  funext fun a => Fin.ext (by match a with | ⟨0, _⟩ => rfl)

theorem idx_v17 (t : Fin 1024) (l : Fin 101) : idx_main_v17 (ix2 t l) = ix2 (0 : Fin 1) l :=
  funext fun a => Fin.ext (by match a with | ⟨0, _⟩ => rfl | ⟨1, _⟩ => rfl)

theorem idx_v15 (z : Fin 1) (l : Fin 101) : idx_main_v15 (ix2 z l) = ix1 l :=
  funext fun a => Fin.ext (by match a with | ⟨0, _⟩ => rfl)

/-- The column index before the wrap: the row counter plus the offset counter. -/
theorem v18_apply (t : Fin 1024) (l : Fin 101) : val_main_v18 (F := F) (ix2 t l) = BitVec.ofNat 32 (t.val + l.val) := by
  rw [val_main_v18_apply, val_main_v16_apply, idx_v16, val_main_v13_apply, idx_v13, val_main_v12_apply,
    val_main_v17_apply, idx_v17, val_main_v15_apply, idx_v15, val_main_v14_apply]
  exact addi_ofNat t.val l.val

/-- The column index after "add 1124 if negative" is t + l. -/
theorem v30_apply (t : Fin 1024) (l : Fin 101) : val_main_v30 (F := F) (ix2 t l) = BitVec.ofNat 32 (t.val + l.val) := by
  rw [val_main_v30_apply, val_main_v27_apply, val_main_v29_apply, v18_apply, val_main_v26_apply, val_main_c_4_apply]
  exact wrap_ofNat (t.val + l.val) (by have := t.isLt; have := l.isLt; omega) _

theorem idx_v32 (t : Fin 1024) (l : Fin 101) (z : Fin 1) : idx_main_v32 (ix3 t l z) = ix2 t l :=
  funext fun a => Fin.ext (by match a with | ⟨0, _⟩ => rfl | ⟨1, _⟩ => rfl)

theorem idx_v31 (t : Fin 1024) (l : Fin 101) : idx_main_v31 (ix2 t l) = ix2 t (0 : Fin 1) :=
  funext fun a => Fin.ext (by match a with | ⟨0, _⟩ => rfl | ⟨1, _⟩ => rfl)

theorem idx_v33 (t : Fin 1024) (l : Fin 101) (z : Fin 1) : idx_main_v33 (ix3 t l z) = ix2 t l :=
  funext fun a => Fin.ext (by match a with | ⟨0, _⟩ => rfl | ⟨1, _⟩ => rfl)

theorem v32_apply (t : Fin 1024) (l : Fin 101) (z : Fin 1) : val_main_v32 (F := F) (ix3 t l z) = BitVec.ofNat 32 t.val := by
  rw [val_main_v32_apply, idx_v32, val_main_v31_apply, idx_v31, v25_apply]

theorem v33_apply (t : Fin 1024) (l : Fin 101) (z : Fin 1) :
    val_main_v33 (F := F) (ix3 t l z) = BitVec.ofNat 32 (t.val + l.val) := by
  rw [val_main_v33_apply, idx_v33, v30_apply]

/-- The first component of the index pair at (t, l) is the row index. -/
theorem v34_apply_row (t : Fin 1024) (l : Fin 101) :
    val_main_v34 (F := F) (ix3 t l (0 : Fin 2)) = BitVec.ofNat 32 t.val := by
  unfold val_main_v34
  rw [concatenate_pair_apply_left (2 : Fin S1024x101x2.rank) (val_main_v32 (F := F)) (val_main_v33 (F := F))
    concatenates_S1024x101x1_S1024x101x1_S1024x101x2_d2 (ix3 t l (0 : Fin 2)) rfl (ix3 t l (0 : Fin 1))
    (fun b => by match b with | ⟨0, _⟩ => rfl | ⟨1, _⟩ => rfl | ⟨2, _⟩ => rfl)]
  exact v32_apply t l 0

/-- The second component is the column index. -/
theorem v34_apply_col (t : Fin 1024) (l : Fin 101) :
    val_main_v34 (F := F) (ix3 t l (1 : Fin 2)) = BitVec.ofNat 32 (t.val + l.val) := by
  unfold val_main_v34
  rw [concatenate_pair_apply_right (2 : Fin S1024x101x2.rank) (val_main_v32 (F := F)) (val_main_v33 (F := F))
    concatenates_S1024x101x1_S1024x101x1_S1024x101x2_d2 (ix3 t l (1 : Fin 2)) rfl rfl (ix3 t l (0 : Fin 1))
    (fun b hb => by
      match b with
      | ⟨0, _⟩ => rfl
      | ⟨1, _⟩ => rfl
      | ⟨2, _⟩ => exact absurd rfl hb)
    rfl]
  exact v33_apply t l 0

end Cert.ReferenceIdeal.RefBand

end
-- ==== Proof.RefGather.lean ====
/-
  The gather of the band read at an index. With the row index t and the column index t + l as start indices, one
  collapsed entry per pair and the whole batch axis as the slice, result entry (b, t, l) is the operand's entry
  (b, t, t + l): on the batch axis the offset coordinate b, on the two collapsed axes the start index, read signed
  and clamped into the axis, which for 0 <= t <= 1023 and 0 <= t + l <= 1123 changes nothing.
-/
import proofs.«109527_j2748779070177_2_alg».proof.Proof.Gen.ReferenceIdeal.Read
import proofs.«109527_j2748779070177_2_alg».proof.Proof.RefWords

noncomputable section

namespace Cert.ReferenceIdeal.RefBand

open Cert.ReferenceIdeal Cert.ReferenceIdeal.Gen Cert.ReferenceIdeal.Read Idealize.ShloMosaic Idealize.ShloMosaic.ValueIdx

/-- The gather's dimension numbers. -/
abbrev gd : GatherDims S4x1024x1124 S1024x101x2 S4x1024x101 :=
  gather_S4x1024x1124_S1024x101x2_S4x1024x101_0_12_n_n_12_2_411

theorem gather_band {α : Type} (x : S4x1024x1124.Idx → α) (idx : IVec S1024x101x2 32)
    (b : Fin 4) (t : Fin 1024) (l : Fin 101)
    (hrow : idx (ix3 t l (0 : Fin 2)) = BitVec.ofNat 32 t.val)
    (hcol : idx (ix3 t l (1 : Fin 2)) = BitVec.ofNat 32 (t.val + l.val)) :
    Host.gather gd x idx (ix3 b t l)
      = x (ix3 b t (⟨t.val + l.val, by have := t.isLt; have := l.isLt; omega⟩ : Fin 1124)) := by
  unfold Host.gather
  congr 1
  funext a
  refine Fin.ext ?_
  match a with
  | ⟨0, _⟩ =>
    show gd.start (ix3 b t l) idx 0 + gd.batchCoord (ix3 b t l) 0 + gd.offCoord (ix3 b t l) 0 = b.val
    rw [GatherDims.batchCoord_eq_zero gd (ix3 b t l) 0 List.not_mem_nil]
    unfold GatherDims.start
    rw [dif_neg (show (0 : Fin 3) ∉ gd.startIndexMap by decide)]
    unfold GatherDims.offCoord
    rw [dif_pos (show (0 : Fin 3) ∈ gd.sKept by decide), Nat.zero_add]
    rfl
  | ⟨1, _⟩ =>
    show gd.start (ix3 b t l) idx 1 + gd.batchCoord (ix3 b t l) 1 + gd.offCoord (ix3 b t l) 1 = t.val
    rw [GatherDims.batchCoord_eq_zero gd (ix3 b t l) 1 List.not_mem_nil,
      GatherDims.offCoord_eq_zero gd (ix3 b t l) 1
        (fun h => ((gd.mem_sKept 1).mp h).1 (show (1 : Fin 3) ∈ gd.collapsedSliceDims by decide))]
    simp only [Nat.add_zero]
    unfold GatherDims.start
    rw [dif_pos (show (1 : Fin 3) ∈ gd.startIndexMap by decide)]
    have hsi : gd.siIdx (ix3 b t l) ⟨List.idxOf (1 : Fin 3) gd.startIndexMap,
        List.idxOf_lt_length_iff.2 (show (1 : Fin 3) ∈ gd.startIndexMap by decide)⟩ = ix3 t l (0 : Fin 2) := by
      funext c; refine Fin.ext ?_
      match c with
      | ⟨0, _⟩ => rfl
      | ⟨1, _⟩ => rfl
      | ⟨2, _⟩ => rfl
    rw [hsi, hrow]
    exact clamp_ofNat t.val 1023 (by have := t.isLt; omega) (by have := t.isLt; omega)
  | ⟨2, _⟩ =>
    show gd.start (ix3 b t l) idx 2 + gd.batchCoord (ix3 b t l) 2 + gd.offCoord (ix3 b t l) 2 = t.val + l.val
    rw [GatherDims.batchCoord_eq_zero gd (ix3 b t l) 2 List.not_mem_nil,
      GatherDims.offCoord_eq_zero gd (ix3 b t l) 2
        (fun h => ((gd.mem_sKept 2).mp h).1 (show (2 : Fin 3) ∈ gd.collapsedSliceDims by decide))]
    simp only [Nat.add_zero]
    unfold GatherDims.start
    rw [dif_pos (show (2 : Fin 3) ∈ gd.startIndexMap by decide)]
    have hsi : gd.siIdx (ix3 b t l) ⟨List.idxOf (2 : Fin 3) gd.startIndexMap,
        List.idxOf_lt_length_iff.2 (show (2 : Fin 3) ∈ gd.startIndexMap by decide)⟩ = ix3 t l (1 : Fin 2) := by
      funext c; refine Fin.ext ?_
      match c with
      | ⟨0, _⟩ => rfl
      | ⟨1, _⟩ => rfl
      | ⟨2, _⟩ => rfl
    rw [hsi, hcol]
    exact clamp_ofNat (t.val + l.val) 1123 (by have := t.isLt; have := l.isLt; omega) (by have := t.isLt; have := l.isLt; omega)

end Cert.ReferenceIdeal.RefBand

end
-- ==== Proof.RefSide.lean ====
/-
  The reference computes the specified result.

  Entry (b, t, l) of the gathered band is entry (b, t, t + l) of the padded similarity table: the inner product of
  unit row t with unit row t + l - 50 when that is a time step, and zero otherwise. Written with the padded rows of
  the specification this is the sum over d of unit b t d * padded b (t + l) d: inside the table the padded row is the
  unit row, outside it every term has a zero factor. The last contraction with the fully connected weights, the
  bias and the clamp at zero are then the specification's last line.
-/
import proofs.«109527_j2748779070177_2_alg».proof.Proof.RefSim
import proofs.«109527_j2748779070177_2_alg».proof.Proof.RefIndex
import proofs.«109527_j2748779070177_2_alg».proof.Proof.RefGather

noncomputable section

namespace Cert.ReferenceIdeal.RefBand

open Cert.ReferenceIdeal Cert.ReferenceIdeal.Gen Cert.ReferenceIdeal.Read Idealize.ShloMosaic Idealize.ShloMosaic.ValueIdx

/-- The gathered band is the specification's band. -/
theorem v35_apply (x0 : (⟨S4x512x1024x8x8, .f32⟩ : BufTy).Contents (Elt Ideal)) (x1 : (⟨S128x512, .f32⟩ : BufTy).Contents (Elt Ideal))
    (b : Fin 4) (t : Fin 1024) (l : Fin 101) :
    val_main_v35 (F := Ideal) x0 x1 (ix3 b t l) = Cert.BandSpec.band (Cert.BandSpec.feat x0) x1 b t l.val := by
  unfold val_main_v35
  rw [gather_band _ _ b t l (v34_apply_row t l) (v34_apply_col t l)]
  unfold Cert.BandSpec.band
  by_cases h : 50 ≤ t.val + l.val ∧ t.val + l.val < 1074
  · rw [v11_apply_inside x0 x1 b t _ (⟨t.val + l.val - 50, by omega⟩ : Fin 1024)
      (by show t.val + l.val = 50 + (t.val + l.val - 50); omega), v10_apply]
    refine Finset.sum_congr rfl fun d _ => ?_
    unfold Cert.BandSpec.padded
    rw [dif_pos h]
  · rw [v11_apply_outside x0 x1 b t _ h]
    symm
    refine Finset.sum_eq_zero fun d _ => ?_
    unfold Cert.BandSpec.padded
    rw [dif_neg h, mul_zero]

theorem lidx_v36 (b : Fin 4) (t : Fin 1024) (o : Fin 128) (k : Fin 101) : lidx_main_v36 (ix3 b t o) k = ix3 b t k :=
  funext fun a => Fin.ext (by match a with | ⟨0, _⟩ => rfl | ⟨1, _⟩ => rfl | ⟨2, _⟩ => rfl)

theorem ridx_v36 (b : Fin 4) (t : Fin 1024) (o : Fin 128) (k : Fin 101) : ridx_main_v36 (ix3 b t o) k = ix2 o k :=
  funext fun a => Fin.ext (by match a with | ⟨0, _⟩ => rfl | ⟨1, _⟩ => rfl)

theorem idx_v38 (b : Fin 4) (t : Fin 1024) (o : Fin 128) : idx_main_v38 (ix3 b t o) = ix3 (0 : Fin 1) (0 : Fin 1) o :=
  funext fun a => Fin.ext (by match a with | ⟨0, _⟩ => rfl | ⟨1, _⟩ => rfl | ⟨2, _⟩ => rfl)

theorem idx_v37 (y z : Fin 1) (o : Fin 128) : idx_main_v37 (ix3 y z o) = ix1 o :=
  funext fun a => Fin.ext (by match a with | ⟨0, _⟩ => rfl)

/-- The reference's result array is the specified one. -/
theorem reference_eq_out (x0 : (⟨S4x512x1024x8x8, .f32⟩ : BufTy).Contents (Elt Ideal)) (x1 : (⟨S128x512, .f32⟩ : BufTy).Contents (Elt Ideal))
    (x2 : (⟨S128x101, .f32⟩ : BufTy).Contents (Elt Ideal)) (x3 : (⟨S128, .f32⟩ : BufTy).Contents (Elt Ideal)) :
    Cert.ReferenceIdeal.Read.val_main_v40 (F := Ideal) x0 x1 x2 x3 = Cert.BandSpec.out x0 x1 x2 x3 := by
  funext i
  obtain ⟨b, t, o, rfl⟩ : ∃ (b : Fin 4) (t : Fin 1024) (o : Fin 128), i = ix3 b t o := ⟨i 0, i 1, i 2, eq_ix3 i⟩
  rw [val_main_v40_apply, val_main_v39_apply, val_main_v36_apply, val_main_v38_apply, idx_v38, val_main_v37_apply,
    idx_v37, val_main_call2_v0_apply, val_main_call2_cst_apply]
  have hs : (∑ k : Fin 101, val_main_v35 (F := Ideal) x0 x1 (lidx_main_v36 (ix3 b t o) k) * x2 (ridx_main_v36 (ix3 b t o) k))
      = ∑ l : Fin 101, Cert.BandSpec.band (Cert.BandSpec.feat x0) x1 b t l.val * x2 (ix2 o l) :=
    Finset.sum_congr rfl fun k _ => by rw [lidx_v36, ridx_v36, v35_apply]
  rw [hs]
  simp only [Ideal.maximumf_def, Ideal.addf_def, Ideal.ofBits_def, Ideal.ofBits_zero_f32]
  rfl

end Cert.ReferenceIdeal.RefBand

end
-- ==== Proof.lean ====
/-
  The certificate of the band kernel against its reference.

  Both programs compute, from x : [4, 512, 1024, 8, 8], W_proj : [128, 512], W_fc : [128, 101] and b_fc : [128],
      out b t o = max ((sum over l < 101 of band b t l * W_fc o l) + b_fc o) 0,
  where band b t l is the inner product of the unit row at time t with the unit row at time t + l - 50 (zero outside
  the 1024 time steps), the unit rows are the projections of the spatial means scaled to length one (the length
  clamped below), and the mean is over the 64 spatial entries. The kernel forms the means in one region (a lane sum
  times 1/64) and the band in a second, one diagonal at a time against a zero-padded copy of the unit rows; the
  reference forms the whole similarity matrix, pads it and gathers the band. On the extended reals the two are one
  function: the only laws used are that dividing by 64 is multiplying by 1/64, that a product with zero is zero, and
  the rearrangement of finite sums.

  The three frames are the generated ones (the reference's is its generated run with the result dropped); the
  idealization rewrote nothing, so the fourth claim is trivial; the fifth states both runs with the specification's
  value for the result.
-/
import proofs.«109527_j2748779070177_2_alg».proof.Defs
import proofs.«109527_j2748779070177_2_alg».proof.Proof.Gen.Kernel
import proofs.«109527_j2748779070177_2_alg».proof.Proof.Gen.Kernel.Skeleton
import proofs.«109527_j2748779070177_2_alg».proof.Proof.Gen.Kernel.Launch
import proofs.«109527_j2748779070177_2_alg».proof.Proof.Gen.Kernel.Points
import proofs.«109527_j2748779070177_2_alg».proof.Proof.Gen.Kernel.Frame
import proofs.«109527_j2748779070177_2_alg».proof.Proof.Gen.KernelIdeal
import proofs.«109527_j2748779070177_2_alg».proof.Proof.Gen.KernelIdeal.Skeleton
import proofs.«109527_j2748779070177_2_alg».proof.Proof.Gen.KernelIdeal.Launch
import proofs.«109527_j2748779070177_2_alg».proof.Proof.Gen.KernelIdeal.Points
import proofs.«109527_j2748779070177_2_alg».proof.Proof.Gen.KernelIdeal.Frame
import proofs.«109527_j2748779070177_2_alg».proof.Proof.Gen.ReferenceIdeal
import proofs.«109527_j2748779070177_2_alg».proof.Proof.Gen.ReferenceIdeal.Run
import proofs.«109527_j2748779070177_2_alg».proof.Proof.Gen.ReferenceIdeal.Read
import proofs.«109527_j2748779070177_2_alg».proof.Proof.Gen.Pre_finite_inputs
import Idealize.ShloMosaic.Adequacy
import Idealize.ShloMosaic.Init
import proofs.«109527_j2748779070177_2_alg».proof.Proof.KernelValue
import proofs.«109527_j2748779070177_2_alg».proof.Proof.RefSide

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's value of the (agreeing) arguments in their result. -/
theorem algebraic : Cert.algebraic_KernelIdeal_ReferenceIdeal := by
  intro m ρ m' ρ' _ hagree
  refine ⟨fun c => Cert.BandSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono
      (fun r h c => ⟨(h c).1.trans (Cert.KernelIdeal.BandResult.result_array m ρ c), (h c).2⟩)
      (Cert.KernelIdeal.BandRun.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, Cert.ReferenceIdeal.RefBand.reference_eq_out,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
